-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v111) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S4000000 : Shape := ⟨1, ![4000000]⟩
abbrev S2x4000000 : Shape := ⟨2, ![2, 4000000]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S4000000 : S_.BroadcastsInDim S4000000 (![] : Fin 0 → Fin S4000000.rank)
  reducesTo_S4000000_S_d0 : S4000000.ReducesTo [0] S_

variable [Facts]

def fn_part2 {F : FTy → Type} [FloatOps F] (main_arg7 : FVec F S4000000 .f32) (main_v33 : IVec S_ 1) : IVec S_ 1 :=
  let main_v34 : FVec F S4000000 .f32 := Host.absf main_arg7
  let main_cst_12 : FVec F S_ .f32 := constant S_ .f32 0x7F800000#32
  let main_v35 : FVec F S4000000 .f32 := broadcastInDim S4000000 ![] bcast_S_S4000000 main_cst_12
  let main_v36 : IVec S4000000 1 := cmpf .olt main_v34 main_v35
  let main_c_13 : IVec S_ 1 := constantI S_ 1 1#1
  let main_v37 : IVec S_ 1 := (fun x v => Host.reduce IntOp.andi x v reducesTo_S4000000_S_d0 h_S_) main_v36 main_c_13
  let main_v38 : IVec S_ 1 := andi main_v33 main_v37
  main_v38

def fn_part1 {F : FTy → Type} [FloatOps F] (main_arg4 : FVec F S4000000 .f32) (main_arg5 : FVec F S4000000 .f32) (main_arg6 : FVec F S4000000 .f32) (main_arg7 : FVec F S4000000 .f32) (main_v13 : IVec S_ 1) (main_v16 : IVec S4000000 1) : IVec S_ 1 :=
  let main_c_5 : IVec S_ 1 := constantI S_ 1 1#1
  let main_v17 : IVec S_ 1 := (fun x v => Host.reduce IntOp.andi x v reducesTo_S4000000_S_d0 h_S_) main_v16 main_c_5
  let main_v18 : IVec S_ 1 := andi main_v13 main_v17
  let main_v19 : FVec F S4000000 .f32 := Host.absf main_arg4
  let main_cst_6 : FVec F S_ .f32 := constant S_ .f32 0x7F800000#32
  let main_v20 : FVec F S4000000 .f32 := broadcastInDim S4000000 ![] bcast_S_S4000000 main_cst_6
  let main_v21 : IVec S4000000 1 := cmpf .olt main_v19 main_v20
  let main_c_7 : IVec S_ 1 := constantI S_ 1 1#1
  let main_v22 : IVec S_ 1 := (fun x v => Host.reduce IntOp.andi x v reducesTo_S4000000_S_d0 h_S_) main_v21 main_c_7
  let main_v23 : IVec S_ 1 := andi main_v18 main_v22
  let main_v24 : FVec F S4000000 .f32 := Host.absf main_arg5
  let main_cst_8 : FVec F S_ .f32 := constant S_ .f32 0x7F800000#32
  let main_v25 : FVec F S4000000 .f32 := broadcastInDim S4000000 ![] bcast_S_S4000000 main_cst_8
  let main_v26 : IVec S4000000 1 := cmpf .olt main_v24 main_v25
  let main_c_9 : IVec S_ 1 := constantI S_ 1 1#1
  let main_v27 : IVec S_ 1 := (fun x v => Host.reduce IntOp.andi x v reducesTo_S4000000_S_d0 h_S_) main_v26 main_c_9
  let main_v28 : IVec S_ 1 := andi main_v23 main_v27
  let main_v29 : FVec F S4000000 .f32 := Host.absf main_arg6
  let main_cst_10 : FVec F S_ .f32 := constant S_ .f32 0x7F800000#32
  let main_v30 : FVec F S4000000 .f32 := broadcastInDim S4000000 ![] bcast_S_S4000000 main_cst_10
  let main_v31 : IVec S4000000 1 := cmpf .olt main_v29 main_v30
  let main_c_11 : IVec S_ 1 := constantI S_ 1 1#1
  let main_v32 : IVec S_ 1 := (fun x v => Host.reduce IntOp.andi x v reducesTo_S4000000_S_d0 h_S_) main_v31 main_c_11
  let main_v33 : IVec S_ 1 := andi main_v28 main_v32
  fn_part2 (F := F) main_arg7 main_v33

def fn {F : FTy → Type} [FloatOps F] (main_arg0 : FVec F S1024x128 .f32) (main_arg1 : FVec F S1024x128 .f32) (main_arg2 : FVec F S4000000 .f32) (main_arg3 : FVec F S4000000 .f32) (main_arg4 : FVec F S4000000 .f32) (main_arg5 : FVec F S4000000 .f32) (main_arg6 : FVec F S4000000 .f32) (main_arg7 : FVec F S4000000 .f32) (main_arg8 : IVec S4000000 32) (main_arg9 : IVec S4000000 32) (main_arg10 : IVec S2x4000000 32) (main_arg11 : IVec S2x4000000 32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_v14 : FVec F S4000000 .f32 := Host.absf main_arg3
  let main_cst_4 : FVec F S_ .f32 := constant S_ .f32 0x7F800000#32
  let main_v15 : FVec F S4000000 .f32 := broadcastInDim S4000000 ![] bcast_S_S4000000 main_cst_4
  let main_v16 : IVec S4000000 1 := cmpf .olt main_v14 main_v15
  fn_part1 (F := F) main_arg4 main_arg5 main_arg6 main_arg7 main_v13 main_v16
-- ==== Kernel.lean ====
abbrev S1024x128 : Shape := ⟨2, ![1024, 128]⟩
abbrev S4000000 : Shape := ⟨1, ![4000000]⟩
abbrev S2x4000000 : Shape := ⟨2, ![2, 4000000]⟩
abbrev S_ : Shape := ⟨0, ![]⟩
abbrev S1024 : Shape := ⟨1, ![1024]⟩
abbrev S1024x1 : Shape := ⟨2, ![1024, 1]⟩
abbrev S128x1024 : Shape := ⟨2, ![128, 1024]⟩
abbrev S1024x1024 : Shape := ⟨2, ![1024, 1024]⟩
abbrev S4000000x1 : Shape := ⟨2, ![4000000, 1]⟩
abbrev S31250x128 : Shape := ⟨2, ![31250, 128]⟩
abbrev S4096x128 : Shape := ⟨2, ![4096, 128]⟩
abbrev S1x4000000 : Shape := ⟨2, ![1, 4000000]⟩
abbrev S200000 : Shape := ⟨1, ![200000]⟩
abbrev S4200000 : Shape := ⟨1, ![4200000]⟩

abbrev nBuf : Space → Nat
  | .hbm => 168
  | .vmem => 20
  | .smem => 0
  | _ => 0

abbrev hbmTy0_0 (i : Nat) : BufTy := match i % 128 with
  | 0 => ⟨S1024x128, .f32⟩
  | 1 => ⟨S1024x128, .f32⟩
  | 2 => ⟨S4000000, .f32⟩
  | 3 => ⟨S4000000, .f32⟩
  | 4 => ⟨S4000000, .f32⟩
  | 5 => ⟨S4000000, .f32⟩
  | 6 => ⟨S4000000, .f32⟩
  | 7 => ⟨S4000000, .f32⟩
  | 8 => ⟨S4000000, .i32⟩
  | 9 => ⟨S4000000, .i32⟩
  | 10 => ⟨S2x4000000, .i32⟩
  | 11 => ⟨S2x4000000, .i32⟩
  | 12 => ⟨S1024x128, .f32⟩
  | 13 => ⟨S_, .f32⟩
  | 14 => ⟨S1024, .f32⟩
  | 15 => ⟨S1024x1, .f32⟩
  | 16 => ⟨S1024x1, .f32⟩
  | 17 => ⟨S_, .f32⟩
  | 18 => ⟨S1024x1, .f32⟩
  | 19 => ⟨S1024x1, .f32⟩
  | 20 => ⟨S1024x128, .f32⟩
  | 21 => ⟨S1024x128, .f32⟩
  | 22 => ⟨S1024x128, .f32⟩
  | 23 => ⟨S_, .f32⟩
  | 24 => ⟨S1024, .f32⟩
  | 25 => ⟨S1024x1, .f32⟩
  | 26 => ⟨S1024x1, .f32⟩
  | 27 => ⟨S_, .f32⟩
  | 28 => ⟨S1024x1, .f32⟩
  | 29 => ⟨S1024x1, .f32⟩
  | 30 => ⟨S1024x128, .f32⟩
  | 31 => ⟨S1024x128, .f32⟩
  | 32 => ⟨S128x1024, .f32⟩
  | 33 => ⟨S1024x1024, .f32⟩
  | 34 => ⟨S_, .f32⟩
  | 35 => ⟨S1024, .f32⟩
  | 36 => ⟨S_, .f32⟩
  | 37 => ⟨S1024, .f32⟩
  | 38 => ⟨S_, .i32⟩
  | 39 => ⟨S4000000, .i32⟩
  | 40 => ⟨S4000000, .i1⟩
  | 41 => ⟨S_, .i32⟩
  | 42 => ⟨S4000000, .i32⟩
  | 43 => ⟨S4000000, .i32⟩
  | 44 => ⟨S4000000, .i32⟩
  | 45 => ⟨S4000000x1, .i32⟩
  | 46 => ⟨S4000000, .f32⟩
  | 47 => ⟨S31250x128, .f32⟩
  | 48 => ⟨S31250x128, .f32⟩
  | 49 => ⟨S31250x128, .f32⟩
  | 50 => ⟨S31250x128, .f32⟩
  | 51 => ⟨S31250x128, .f32⟩
  | 52 => ⟨S4000000, .f32⟩
  | 53 => ⟨S1x4000000, .i32⟩
  | 54 => ⟨S4000000, .i32⟩
  | 55 => ⟨S_, .f32⟩
  | 56 => ⟨S200000, .f32⟩
  | 57 => ⟨S4000000x1, .i32⟩
  | 58 => ⟨S200000, .f32⟩
  | 59 => ⟨S_, .f32⟩
  | 60 => ⟨S200000, .f32⟩
  | 61 => ⟨S200000, .f32⟩
  | 62 => ⟨S_, .f32⟩
  | 63 => ⟨S200000, .f32⟩
  | 64 => ⟨S200000, .i1⟩
  | 65 => ⟨S_, .f32⟩
  | 66 => ⟨S_, .f32⟩
  | 67 => ⟨S200000, .f32⟩
  | 68 => ⟨S200000, .f32⟩
  | 69 => ⟨S_, .f32⟩
  | 70 => ⟨S200000, .f32⟩
  | 71 => ⟨S200000, .i1⟩
  | 72 => ⟨S200000, .f32⟩
  | 73 => ⟨S_, .f32⟩
  | 74 => ⟨S_, .f32⟩
  | 75 => ⟨S200000, .f32⟩
  | 76 => ⟨S200000, .f32⟩
  | 77 => ⟨S1x4000000, .i32⟩
  | 78 => ⟨S4000000, .i32⟩
  | 79 => ⟨S_, .i32⟩
  | 80 => ⟨S4000000, .i32⟩
  | 81 => ⟨S4000000, .i1⟩
  | 82 => ⟨S_, .i32⟩
  | 83 => ⟨S4000000, .i32⟩
  | 84 => ⟨S4000000, .i32⟩
  | 85 => ⟨S4000000, .i32⟩
  | 86 => ⟨S4000000x1, .i32⟩
  | 87 => ⟨S4000000, .f32⟩
  | 88 => ⟨S4000000, .f32⟩
  | 89 => ⟨S1x4000000, .i32⟩
  | 90 => ⟨S4000000, .i32⟩
  | 91 => ⟨S_, .i32⟩
  | 92 => ⟨S4000000, .i32⟩
  | 93 => ⟨S4000000, .i1⟩
  | 94 => ⟨S_, .i32⟩
  | 95 => ⟨S4000000, .i32⟩
  | 96 => ⟨S4000000, .i32⟩
  | 97 => ⟨S4000000, .i32⟩
  | 98 => ⟨S4000000x1, .i32⟩
  | 99 => ⟨S4000000, .f32⟩
  | 100 => ⟨S4000000, .f32⟩
  | 101 => ⟨S200000, .f32⟩
  | 102 => ⟨S4200000, .f32⟩
  | 103 => ⟨S_, .i32⟩
  | 104 => ⟨S4000000, .i32⟩
  | 105 => ⟨S4000000, .i1⟩
  | 106 => ⟨S_, .i32⟩
  | 107 => ⟨S4000000, .i32⟩
  | 108 => ⟨S4000000, .i32⟩
  | 109 => ⟨S4000000, .i32⟩
  | 110 => ⟨S4000000x1, .i32⟩
  | 111 => ⟨S4000000, .f32⟩
  | 112 => ⟨S31250x128, .f32⟩
  | 113 => ⟨S31250x128, .f32⟩
  | 114 => ⟨S31250x128, .f32⟩
  | 115 => ⟨S31250x128, .f32⟩
  | 116 => ⟨S31250x128, .f32⟩
  | 117 => ⟨S4000000, .f32⟩
  | 118 => ⟨S1x4000000, .i32⟩
  | 119 => ⟨S4000000, .i32⟩
  | 120 => ⟨S_, .f32⟩
  | 121 => ⟨S200000, .f32⟩
  | 122 => ⟨S4000000x1, .i32⟩
  | 123 => ⟨S200000, .f32⟩
  | 124 => ⟨S_, .f32⟩
  | 125 => ⟨S200000, .f32⟩
  | 126 => ⟨S200000, .f32⟩
  | 127 => ⟨S_, .f32⟩
  | _ => ⟨S1024x128, .f32⟩

abbrev hbmTy0_1 (i : Nat) : BufTy := match i % 128 with
  | 0 => ⟨S200000, .f32⟩
  | 1 => ⟨S200000, .i1⟩
  | 2 => ⟨S_, .f32⟩
  | 3 => ⟨S_, .f32⟩
  | 4 => ⟨S200000, .f32⟩
  | 5 => ⟨S200000, .f32⟩
  | 6 => ⟨S_, .f32⟩
  | 7 => ⟨S200000, .f32⟩
  | 8 => ⟨S200000, .i1⟩
  | 9 => ⟨S200000, .f32⟩
  | 10 => ⟨S_, .f32⟩
  | 11 => ⟨S_, .f32⟩
  | 12 => ⟨S200000, .f32⟩
  | 13 => ⟨S200000, .f32⟩
  | 14 => ⟨S1x4000000, .i32⟩
  | 15 => ⟨S4000000, .i32⟩
  | 16 => ⟨S_, .i32⟩
  | 17 => ⟨S4000000, .i32⟩
  | 18 => ⟨S4000000, .i1⟩
  | 19 => ⟨S_, .i32⟩
  | 20 => ⟨S4000000, .i32⟩
  | 21 => ⟨S4000000, .i32⟩
  | 22 => ⟨S4000000, .i32⟩
  | 23 => ⟨S4000000x1, .i32⟩
  | 24 => ⟨S4000000, .f32⟩
  | 25 => ⟨S4000000, .f32⟩
  | 26 => ⟨S1x4000000, .i32⟩
  | 27 => ⟨S4000000, .i32⟩
  | 28 => ⟨S_, .i32⟩
  | 29 => ⟨S4000000, .i32⟩
  | 30 => ⟨S4000000, .i1⟩
  | 31 => ⟨S_, .i32⟩
  | 32 => ⟨S4000000, .i32⟩
  | 33 => ⟨S4000000, .i32⟩
  | 34 => ⟨S4000000, .i32⟩
  | 35 => ⟨S4000000x1, .i32⟩
  | 36 => ⟨S4000000, .f32⟩
  | 37 => ⟨S4000000, .f32⟩
  | 38 => ⟨S200000, .f32⟩
  | 39 => ⟨S4200000, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_c : Ref sig .tc := ⟨.hbm, 38, rfl⟩
abbrev main_v14 : Ref sig .tc := ⟨.hbm, 39, rfl⟩
abbrev main_v15 : Ref sig .tc := ⟨.hbm, 40, rfl⟩
abbrev main_c_3 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_cst_7 : Ref sig .tc := ⟨.hbm, 65, rfl⟩
abbrev main_call2_v0 : Ref sig .tc := ⟨.hbm, 66, rfl⟩
abbrev main_call2_v1 : Ref sig .tc := ⟨.hbm, 67, rfl⟩
abbrev main_v36 : Ref sig .tc := ⟨.hbm, 68, rfl⟩
abbrev main_cst_8 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_9 : Ref sig .tc := ⟨.hbm, 73, rfl⟩
abbrev main_call3_v0 : Ref sig .tc := ⟨.hbm, 74, rfl⟩
abbrev main_call3_v1 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_c_10 : Ref sig .tc := ⟨.hbm, 79, rfl⟩
abbrev main_v43 : Ref sig .tc := ⟨.hbm, 80, rfl⟩
abbrev main_v44 : Ref sig .tc := ⟨.hbm, 81, rfl⟩
abbrev main_c_11 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_c_12 : Ref sig .tc := ⟨.hbm, 91, rfl⟩
abbrev main_v53 : Ref sig .tc := ⟨.hbm, 92, rfl⟩
abbrev main_v54 : Ref sig .tc := ⟨.hbm, 93, rfl⟩
abbrev main_c_13 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_c_14 : Ref sig .tc := ⟨.hbm, 103, rfl⟩
abbrev main_v63 : Ref sig .tc := ⟨.hbm, 104, rfl⟩
abbrev main_v64 : Ref sig .tc := ⟨.hbm, 105, rfl⟩
abbrev main_c_15 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_16 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_17 : Ref sig .tc := ⟨.hbm, 124, rfl⟩
abbrev main_v81 : Ref sig .tc := ⟨.hbm, 125, rfl⟩
abbrev main_v82 : Ref sig .tc := ⟨.hbm, 126, rfl⟩
abbrev main_cst_18 : Ref sig .tc := ⟨.hbm, 127, rfl⟩
abbrev main_v83 : Ref sig .tc := ⟨.hbm, 128, rfl⟩
abbrev main_v84 : Ref sig .tc := ⟨.hbm, 129, rfl⟩
abbrev main_cst_19 : Ref sig .tc := ⟨.hbm, 130, rfl⟩
abbrev main_call4_v0 : Ref sig .tc := ⟨.hbm, 131, rfl⟩
abbrev main_call4_v1 : Ref sig .tc := ⟨.hbm, 132, rfl⟩
abbrev main_v85 : Ref sig .tc := ⟨.hbm, 133, rfl⟩
abbrev main_cst_20 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_21 : Ref sig .tc := ⟨.hbm, 138, rfl⟩
abbrev main_call5_v0 : Ref sig .tc := ⟨.hbm, 139, rfl⟩
abbrev main_call5_v1 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_c_22 : Ref sig .tc := ⟨.hbm, 144, rfl⟩
abbrev main_v92 : Ref sig .tc := ⟨.hbm, 145, rfl⟩
abbrev main_v93 : Ref sig .tc := ⟨.hbm, 146, rfl⟩
abbrev main_c_23 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_c_24 : Ref sig .tc := ⟨.hbm, 156, rfl⟩
abbrev main_v102 : Ref sig .tc := ⟨.hbm, 157, rfl⟩
abbrev main_v103 : Ref sig .tc := ⟨.hbm, 158, rfl⟩
abbrev main_c_25 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  reducesTo_S1024x128_S1024_d1 : S1024x128.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  transposes_S1024x128_S128x1024_1_0 : S1024x128.Transposes [1, 0] S128x1024
  reducesTo_S1024x1024_S1024_d1 : S1024x1024.ReducesTo [1] S1024
  reducesTo_S1024x1024_S1024_d0 : S1024x1024.ReducesTo [0] S1024
  bcast_S_S4000000 : S_.BroadcastsInDim S4000000 (![] : Fin 0 → Fin S4000000.rank)
  bcast_S4000000_S4000000x1_0 : S4000000.BroadcastsInDim S4000000x1 (![0] : Fin 1 → Fin S4000000x1.rank)
  shapeCasts_S4000000_S31250x128 : S4000000.ShapeCasts S31250x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S31250x128_S4000000 : S31250x128.ShapeCasts S4000000
  slices_S2x4000000_S1x4000000_0_0 : S2x4000000.Slices ![0, 0] S1x4000000
  shapeCasts_S1x4000000_S4000000 : S1x4000000.ShapeCasts S4000000
  bcast_S_S200000 : S_.BroadcastsInDim S200000 (![] : Fin 0 → Fin S200000.rank)
  slices_S2x4000000_S1x4000000_1_0 : S2x4000000.Slices ![1, 0] S1x4000000
  concatenates_S4000000_S200000_S4200000_d0 : Shape.Concatenates [S4000000, S200000] S4200000 0
  dot_S1024x128_S128x1024_S1024x1024_1_0_0_1_n_n_wf : DotDims.WF S1024x128 S128x1024 S1024x1024 [1] [0] [0] [1] [] []
  gather_S1024_S4000000x1_S4000000_n_0_n_n_0_1_1_wf : GatherDims.WF S1024 S4000000x1 S4000000 [] [0] [] [0] [] 1 ![1]
  scatter_S200000_S4000000x1_S4000000_n_0_0_1_wf : ScatterDims.WF S200000 S4000000x1 S4000000 [] [0] [0] 1
  gather_S200000_S4000000x1_S4000000_n_0_n_n_0_1_1_wf : GatherDims.WF S200000 S4000000x1 S4000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x128.size a < S31250x128.size a
  hwx0_0 : ∀ i : grid0.Coords, EltTy.bits .f32 = 32 ∨ (Rect.unit (s := S31250x128) (fun a => cc0_transform_0 i a * S4096x128.size a) (fun a => (Pipeline.Clip.of (cc0_transform_0 i a) (S4096x128.size a) (S31250x128.size a)).extent (S4096x128.size a)) fun a => Pipeline.Clip.inb (Pipeline.Clip.ok_of (hstart0_0 i a))).WholeWords (EltTy.packing .f32)
  hwxs0_0 : ∀ i : grid0.Coords, EltTy.bits .f32 = 32 ∨ (Rect.unit (s := S4096x128) (fun _ => 0) (fun a => (Pipeline.Clip.of (cc0_transform_0 i a) (S4096x128.size a) (S31250x128.size a)).extent (S4096x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x128.size a < S31250x128.size a
  hwx0_1 : ∀ i : grid0.Coords, EltTy.bits .f32 = 32 ∨ (Rect.unit (s := S31250x128) (fun a => cc0_transform_1 i a * S4096x128.size a) (fun a => (Pipeline.Clip.of (cc0_transform_1 i a) (S4096x128.size a) (S31250x128.size a)).extent (S4096x128.size a)) fun a => Pipeline.Clip.inb (Pipeline.Clip.ok_of (hstart0_1 i a))).WholeWords (EltTy.packing .f32)
  hwxs0_1 : ∀ i : grid0.Coords, EltTy.bits .f32 = 32 ∨ (Rect.unit (s := S4096x128) (fun _ => 0) (fun a => (Pipeline.Clip.of (cc0_transform_1 i a) (S4096x128.size a) (S31250x128.size a)).extent (S4096x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x128.size a < S31250x128.size a
  hwx0_2 : ∀ i : grid0.Coords, EltTy.bits .f32 = 32 ∨ (Rect.unit (s := S31250x128) (fun a => cc0_transform_2 i a * S4096x128.size a) (fun a => (Pipeline.Clip.of (cc0_transform_2 i a) (S4096x128.size a) (S31250x128.size a)).extent (S4096x128.size a)) fun a => Pipeline.Clip.inb (Pipeline.Clip.ok_of (hstart0_2 i a))).WholeWords (EltTy.packing .f32)
  hwxs0_2 : ∀ i : grid0.Coords, EltTy.bits .f32 = 32 ∨ (Rect.unit (s := S4096x128) (fun _ => 0) (fun a => (Pipeline.Clip.of (cc0_transform_2 i a) (S4096x128.size a) (S31250x128.size a)).extent (S4096x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S4096x128.size a < S31250x128.size a
  hwx0_3 : ∀ i : grid0.Coords, EltTy.bits .f32 = 32 ∨ (Rect.unit (s := S31250x128) (fun a => cc0_transform_3 i a * S4096x128.size a) (fun a => (Pipeline.Clip.of (cc0_transform_3 i a) (S4096x128.size a) (S31250x128.size a)).extent (S4096x128.size a)) fun a => Pipeline.Clip.inb (Pipeline.Clip.ok_of (hstart0_3 i a))).WholeWords (EltTy.packing .f32)
  hwxs0_3 : ∀ i : grid0.Coords, EltTy.bits .f32 = 32 ∨ (Rect.unit (s := S4096x128) (fun _ => 0) (fun a => (Pipeline.Clip.of (cc0_transform_3 i a) (S4096x128.size a) (S31250x128.size a)).extent (S4096x128.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S4096x128.size a < S31250x128.size a
  hwx0_4 : ∀ i : grid0.Coords, EltTy.bits .f32 = 32 ∨ (Rect.unit (s := S31250x128) (fun a => cc0_transform_4 i a * S4096x128.size a) (fun a => (Pipeline.Clip.of (cc0_transform_4 i a) (S4096x128.size a) (S31250x128.size a)).extent (S4096x128.size a)) fun a => Pipeline.Clip.inb (Pipeline.Clip.ok_of (hstart0_4 i a))).WholeWords (EltTy.packing .f32)
  hwxs0_4 : ∀ i : grid0.Coords, EltTy.bits .f32 = 32 ∨ (Rect.unit (s := S4096x128) (fun _ => 0) (fun a => (Pipeline.Clip.of (cc0_transform_4 i a) (S4096x128.size a) (S31250x128.size a)).extent (S4096x128.size a)) fun a => (Nat.zero_add _).trans_le (Pipeline.Clip.extent_le (Pipeline.Clip.ok_of (hstart0_4 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S4096x128.size a < S31250x128.size a
  hwx1_0 : ∀ i : grid1.Coords, EltTy.bits .f32 = 32 ∨ (Rect.unit (s := S31250x128) (fun a => cc1_transform_0 i a * S4096x128.size a) (fun a => (Pipeline.Clip.of (cc1_transform_0 i a) (S4096x128.size a) (S31250x128.size a)).extent (S4096x128.size a)) fun a => Pipeline.Clip.inb (Pipeline.Clip.ok_of (hstart1_0 i a))).WholeWords (EltTy.packing .f32)
  hwxs1_0 : ∀ i : grid1.Coords, EltTy.bits .f32 = 32 ∨ (Rect.unit (s := S4096x128) (fun _ => 0) (fun a => (Pipeline.Clip.of (cc1_transform_0 i a) (S4096x128.size a) (S31250x128.size a)).extent (S4096x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S4096x128.size a < S31250x128.size a
  hwx1_1 : ∀ i : grid1.Coords, EltTy.bits .f32 = 32 ∨ (Rect.unit (s := S31250x128) (fun a => cc1_transform_1 i a * S4096x128.size a) (fun a => (Pipeline.Clip.of (cc1_transform_1 i a) (S4096x128.size a) (S31250x128.size a)).extent (S4096x128.size a)) fun a => Pipeline.Clip.inb (Pipeline.Clip.ok_of (hstart1_1 i a))).WholeWords (EltTy.packing .f32)
  hwxs1_1 : ∀ i : grid1.Coords, EltTy.bits .f32 = 32 ∨ (Rect.unit (s := S4096x128) (fun _ => 0) (fun a => (Pipeline.Clip.of (cc1_transform_1 i a) (S4096x128.size a) (S31250x128.size a)).extent (S4096x128.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S4096x128.size a < S31250x128.size a
  hwx1_2 : ∀ i : grid1.Coords, EltTy.bits .f32 = 32 ∨ (Rect.unit (s := S31250x128) (fun a => cc1_transform_2 i a * S4096x128.size a) (fun a => (Pipeline.Clip.of (cc1_transform_2 i a) (S4096x128.size a) (S31250x128.size a)).extent (S4096x128.size a)) fun a => Pipeline.Clip.inb (Pipeline.Clip.ok_of (hstart1_2 i a))).WholeWords (EltTy.packing .f32)
  hwxs1_2 : ∀ i : grid1.Coords, EltTy.bits .f32 = 32 ∨ (Rect.unit (s := S4096x128) (fun _ => 0) (fun a => (Pipeline.Clip.of (cc1_transform_2 i a) (S4096x128.size a) (S31250x128.size a)).extent (S4096x128.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S4096x128.size a < S31250x128.size a
  hwx1_3 : ∀ i : grid1.Coords, EltTy.bits .f32 = 32 ∨ (Rect.unit (s := S31250x128) (fun a => cc1_transform_3 i a * S4096x128.size a) (fun a => (Pipeline.Clip.of (cc1_transform_3 i a) (S4096x128.size a) (S31250x128.size a)).extent (S4096x128.size a)) fun a => Pipeline.Clip.inb (Pipeline.Clip.ok_of (hstart1_3 i a))).WholeWords (EltTy.packing .f32)
  hwxs1_3 : ∀ i : grid1.Coords, EltTy.bits .f32 = 32 ∨ (Rect.unit (s := S4096x128) (fun _ => 0) (fun a => (Pipeline.Clip.of (cc1_transform_3 i a) (S4096x128.size a) (S31250x128.size a)).extent (S4096x128.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S4096x128.size a < S31250x128.size a
  hwx1_4 : ∀ i : grid1.Coords, EltTy.bits .f32 = 32 ∨ (Rect.unit (s := S31250x128) (fun a => cc1_transform_4 i a * S4096x128.size a) (fun a => (Pipeline.Clip.of (cc1_transform_4 i a) (S4096x128.size a) (S31250x128.size a)).extent (S4096x128.size a)) fun a => Pipeline.Clip.inb (Pipeline.Clip.ok_of (hstart1_4 i a))).WholeWords (EltTy.packing .f32)
  hwxs1_4 : ∀ i : grid1.Coords, EltTy.bits .f32 = 32 ∨ (Rect.unit (s := S4096x128) (fun _ => 0) (fun a => (Pipeline.Clip.of (cc1_transform_4 i a) (S4096x128.size a) (S31250x128.size a)).extent (S4096x128.size a)) fun a => (Nat.zero_add _).trans_le (Pipeline.Clip.extent_le (Pipeline.Clip.ok_of (hstart1_4 i a)))).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def gather_S1024_S4000000x1_S4000000_n_0_n_n_0_1_1 : GatherDims S1024 S4000000x1 S4000000 where
  offsetDims := []
  collapsedSliceDims := [0]
  operandBatchingDims := []
  startIndicesBatchingDims := []
  startIndexMap := [0]
  indexVectorDim := 1
  sliceSizes := ![1]
  wf := gather_S1024_S4000000x1_S4000000_n_0_n_n_0_1_1_wf
def scatter_S200000_S4000000x1_S4000000_n_0_0_1 : ScatterDims S200000 S4000000x1 S4000000 where
  updateWindowDims := []
  insertedWindowDims := [0]
  scatterDimsToOperandDims := [0]
  indexVectorDim := 1
  wf := scatter_S200000_S4000000x1_S4000000_n_0_0_1_wf
def gather_S200000_S4000000x1_S4000000_n_0_n_n_0_1_1 : GatherDims S200000 S4000000x1 S4000000 where
  offsetDims := []
  collapsedSliceDims := [0]
  operandBatchingDims := []
  startIndicesBatchingDims := []
  startIndexMap := [0]
  indexVectorDim := 1
  sliceSizes := ![1]
  wf := gather_S200000_S4000000x1_S4000000_n_0_n_n_0_1_1_wf

abbrev win0_0 : Pipeline.Window sig grid0 :=
  Pipeline.Window.ofSpecClip (Memref.whole main_v21) S4096x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v22) S4096x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v23) S4096x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v24) S4096x128.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v25) S4096x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpecClip (Memref.whole main_v70) S4096x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v71) S4096x128.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v72) S4096x128.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v73) S4096x128.size cc1_transform_3 reads1_3 false false 2 stage1_3 sem1_3
    hrank1 hreads1_3 hstart1_3 nbuf1_3 (Memref.isWhole_whole _) hwx1_3 hwxs1_3 hstage1_3

abbrev win1_4 : Pipeline.Window sig grid1 :=
  Pipeline.Window.ofSpecClip (Memref.whole main_v74) S4096x128.size cc1_transform_4 reads1_4 true false 2 stage1_4 sem1_4
    hrank1 hreads1_4 hstart1_4 nbuf1_4 (Memref.isWhole_whole _) hwx1_4 hwxs1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1024x128 : Shape := ⟨2, ![1024, 128]⟩
abbrev S4000000 : Shape := ⟨1, ![4000000]⟩
abbrev S2x4000000 : Shape := ⟨2, ![2, 4000000]⟩
abbrev S_ : Shape := ⟨0, ![]⟩
abbrev S1024 : Shape := ⟨1, ![1024]⟩
abbrev S1024x1 : Shape := ⟨2, ![1024, 1]⟩
abbrev S128x1024 : Shape := ⟨2, ![128, 1024]⟩
abbrev S1024x1024 : Shape := ⟨2, ![1024, 1024]⟩
abbrev S4000000x1 : Shape := ⟨2, ![4000000, 1]⟩
abbrev S200000 : Shape := ⟨1, ![200000]⟩
abbrev S1x4000000 : Shape := ⟨2, ![1, 4000000]⟩
abbrev S4200000 : Shape := ⟨1, ![4200000]⟩
abbrev S4200000x1 : Shape := ⟨2, ![4200000, 1]⟩

abbrev nBuf : Space → Nat
  | .hbm => 172
  | .vmem => 0
  | .smem => 0
  | _ => 0

abbrev hbmTy0_0 (i : Nat) : BufTy := match i % 128 with
  | 0 => ⟨S1024x128, .f32⟩
  | 1 => ⟨S1024x128, .f32⟩
  | 2 => ⟨S4000000, .f32⟩
  | 3 => ⟨S4000000, .f32⟩
  | 4 => ⟨S4000000, .f32⟩
  | 5 => ⟨S4000000, .f32⟩
  | 6 => ⟨S4000000, .f32⟩
  | 7 => ⟨S4000000, .f32⟩
  | 8 => ⟨S4000000, .i32⟩
  | 9 => ⟨S4000000, .i32⟩
  | 10 => ⟨S2x4000000, .i32⟩
  | 11 => ⟨S2x4000000, .i32⟩
  | 12 => ⟨S1024x128, .f32⟩
  | 13 => ⟨S_, .f32⟩
  | 14 => ⟨S1024, .f32⟩
  | 15 => ⟨S1024x1, .f32⟩
  | 16 => ⟨S1024x1, .f32⟩
  | 17 => ⟨S_, .f32⟩
  | 18 => ⟨S1024x1, .f32⟩
  | 19 => ⟨S1024x1, .f32⟩
  | 20 => ⟨S1024x128, .f32⟩
  | 21 => ⟨S1024x128, .f32⟩
  | 22 => ⟨S1024x128, .f32⟩
  | 23 => ⟨S_, .f32⟩
  | 24 => ⟨S1024, .f32⟩
  | 25 => ⟨S1024x1, .f32⟩
  | 26 => ⟨S1024x1, .f32⟩
  | 27 => ⟨S_, .f32⟩
  | 28 => ⟨S1024x1, .f32⟩
  | 29 => ⟨S1024x1, .f32⟩
  | 30 => ⟨S1024x128, .f32⟩
  | 31 => ⟨S1024x128, .f32⟩
  | 32 => ⟨S128x1024, .f32⟩
  | 33 => ⟨S1024x1024, .f32⟩
  | 34 => ⟨S_, .f32⟩
  | 35 => ⟨S1024, .f32⟩
  | 36 => ⟨S_, .f32⟩
  | 37 => ⟨S1024, .f32⟩
  | 38 => ⟨S_, .i32⟩
  | 39 => ⟨S4000000, .i32⟩
  | 40 => ⟨S4000000, .i1⟩
  | 41 => ⟨S_, .i32⟩
  | 42 => ⟨S4000000, .i32⟩
  | 43 => ⟨S4000000, .i32⟩
  | 44 => ⟨S4000000, .i32⟩
  | 45 => ⟨S4000000x1, .i32⟩
  | 46 => ⟨S4000000, .f32⟩
  | 47 => ⟨S4000000, .f32⟩
  | 48 => ⟨S_, .f32⟩
  | 49 => ⟨S4000000, .f32⟩
  | 50 => ⟨S4000000, .f32⟩
  | 51 => ⟨S_, .f32⟩
  | 52 => ⟨S4000000, .f32⟩
  | 53 => ⟨S4000000, .f32⟩
  | 54 => ⟨S4000000, .f32⟩
  | 55 => ⟨S4000000, .f32⟩
  | 56 => ⟨S200000, .i32⟩
  | 57 => ⟨S1x4000000, .i32⟩
  | 58 => ⟨S4000000, .i32⟩
  | 59 => ⟨S4200000, .i32⟩
  | 60 => ⟨S1x4000000, .i32⟩
  | 61 => ⟨S4000000, .i32⟩
  | 62 => ⟨S4200000, .i32⟩
  | 63 => ⟨S_, .f32⟩
  | 64 => ⟨S200000, .f32⟩
  | 65 => ⟨S4200000, .f32⟩
  | 66 => ⟨S_, .f32⟩
  | 67 => ⟨S200000, .f32⟩
  | 68 => ⟨S4200000x1, .i32⟩
  | 69 => ⟨S200000, .f32⟩
  | 70 => ⟨S_, .f32⟩
  | 71 => ⟨S200000, .f32⟩
  | 72 => ⟨S200000, .i1⟩
  | 73 => ⟨S_, .f32⟩
  | 74 => ⟨S_, .f32⟩
  | 75 => ⟨S200000, .f32⟩
  | 76 => ⟨S200000, .f32⟩
  | 77 => ⟨S_, .f32⟩
  | 78 => ⟨S200000, .f32⟩
  | 79 => ⟨S200000, .i1⟩
  | 80 => ⟨S200000, .f32⟩
  | 81 => ⟨S_, .f32⟩
  | 82 => ⟨S_, .f32⟩
  | 83 => ⟨S200000, .f32⟩
  | 84 => ⟨S200000, .f32⟩
  | 85 => ⟨S_, .i32⟩
  | 86 => ⟨S4200000, .i32⟩
  | 87 => ⟨S4200000, .i1⟩
  | 88 => ⟨S_, .i32⟩
  | 89 => ⟨S4200000, .i32⟩
  | 90 => ⟨S4200000, .i32⟩
  | 91 => ⟨S4200000, .i32⟩
  | 92 => ⟨S4200000x1, .i32⟩
  | 93 => ⟨S4200000, .f32⟩
  | 94 => ⟨S4200000, .f32⟩
  | 95 => ⟨S_, .i32⟩
  | 96 => ⟨S4200000, .i32⟩
  | 97 => ⟨S4200000, .i1⟩
  | 98 => ⟨S_, .i32⟩
  | 99 => ⟨S4200000, .i32⟩
  | 100 => ⟨S4200000, .i32⟩
  | 101 => ⟨S4200000, .i32⟩
  | 102 => ⟨S4200000x1, .i32⟩
  | 103 => ⟨S4200000, .f32⟩
  | 104 => ⟨S4200000, .f32⟩
  | 105 => ⟨S_, .i32⟩
  | 106 => ⟨S4000000, .i32⟩
  | 107 => ⟨S4000000, .i1⟩
  | 108 => ⟨S_, .i32⟩
  | 109 => ⟨S4000000, .i32⟩
  | 110 => ⟨S4000000, .i32⟩
  | 111 => ⟨S4000000, .i32⟩
  | 112 => ⟨S4000000x1, .i32⟩
  | 113 => ⟨S4000000, .f32⟩
  | 114 => ⟨S4000000, .f32⟩
  | 115 => ⟨S_, .f32⟩
  | 116 => ⟨S4000000, .f32⟩
  | 117 => ⟨S4000000, .f32⟩
  | 118 => ⟨S_, .f32⟩
  | 119 => ⟨S4000000, .f32⟩
  | 120 => ⟨S4000000, .f32⟩
  | 121 => ⟨S4000000, .f32⟩
  | 122 => ⟨S4000000, .f32⟩
  | 123 => ⟨S200000, .i32⟩
  | 124 => ⟨S1x4000000, .i32⟩
  | 125 => ⟨S4000000, .i32⟩
  | 126 => ⟨S4200000, .i32⟩
  | 127 => ⟨S1x4000000, .i32⟩
  | _ => ⟨S1024x128, .f32⟩

abbrev hbmTy0_1 (i : Nat) : BufTy := match i % 128 with
  | 0 => ⟨S4000000, .i32⟩
  | 1 => ⟨S4200000, .i32⟩
  | 2 => ⟨S_, .f32⟩
  | 3 => ⟨S200000, .f32⟩
  | 4 => ⟨S4200000, .f32⟩
  | 5 => ⟨S_, .f32⟩
  | 6 => ⟨S200000, .f32⟩
  | 7 => ⟨S4200000x1, .i32⟩
  | 8 => ⟨S200000, .f32⟩
  | 9 => ⟨S_, .f32⟩
  | 10 => ⟨S200000, .f32⟩
  | 11 => ⟨S200000, .i1⟩
  | 12 => ⟨S_, .f32⟩
  | 13 => ⟨S_, .f32⟩
  | 14 => ⟨S200000, .f32⟩
  | 15 => ⟨S200000, .f32⟩
  | 16 => ⟨S_, .f32⟩
  | 17 => ⟨S200000, .f32⟩
  | 18 => ⟨S200000, .i1⟩
  | 19 => ⟨S200000, .f32⟩
  | 20 => ⟨S_, .f32⟩
  | 21 => ⟨S_, .f32⟩
  | 22 => ⟨S200000, .f32⟩
  | 23 => ⟨S200000, .f32⟩
  | 24 => ⟨S_, .i32⟩
  | 25 => ⟨S4200000, .i32⟩
  | 26 => ⟨S4200000, .i1⟩
  | 27 => ⟨S_, .i32⟩
  | 28 => ⟨S4200000, .i32⟩
  | 29 => ⟨S4200000, .i32⟩
  | 30 => ⟨S4200000, .i32⟩
  | 31 => ⟨S4200000x1, .i32⟩
  | 32 => ⟨S4200000, .f32⟩
  | 33 => ⟨S4200000, .f32⟩
  | 34 => ⟨S_, .i32⟩
  | 35 => ⟨S4200000, .i32⟩
  | 36 => ⟨S4200000, .i1⟩
  | 37 => ⟨S_, .i32⟩
  | 38 => ⟨S4200000, .i32⟩
  | 39 => ⟨S4200000, .i32⟩
  | 40 => ⟨S4200000, .i32⟩
  | 41 => ⟨S4200000x1, .i32⟩
  | 42 => ⟨S4200000, .f32⟩
  | 43 => ⟨S4200000, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_c : Ref sig .tc := ⟨.hbm, 38, rfl⟩
abbrev main_v14 : Ref sig .tc := ⟨.hbm, 39, rfl⟩
abbrev main_v15 : Ref sig .tc := ⟨.hbm, 40, rfl⟩
abbrev main_c_3 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_4 : Ref sig .tc := ⟨.hbm, 48, rfl⟩
abbrev main_v22 : Ref sig .tc := ⟨.hbm, 49, rfl⟩
abbrev main_v23 : Ref sig .tc := ⟨.hbm, 50, rfl⟩
abbrev main_cst_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_6 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_8 : Ref sig .tc := ⟨.hbm, 70, rfl⟩
abbrev main_v40 : Ref sig .tc := ⟨.hbm, 71, rfl⟩
abbrev main_v41 : Ref sig .tc := ⟨.hbm, 72, rfl⟩
abbrev main_cst_9 : Ref sig .tc := ⟨.hbm, 73, rfl⟩
abbrev main_call2_v0 : Ref sig .tc := ⟨.hbm, 74, rfl⟩
abbrev main_call2_v1 : Ref sig .tc := ⟨.hbm, 75, rfl⟩
abbrev main_v42 : Ref sig .tc := ⟨.hbm, 76, rfl⟩
abbrev main_cst_10 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_11 : Ref sig .tc := ⟨.hbm, 81, rfl⟩
abbrev main_call3_v0 : Ref sig .tc := ⟨.hbm, 82, rfl⟩
abbrev main_call3_v1 : Ref sig .tc := ⟨.hbm, 83, rfl⟩
abbrev main_v46 : Ref sig .tc := ⟨.hbm, 84, rfl⟩
abbrev main_c_12 : Ref sig .tc := ⟨.hbm, 85, rfl⟩
abbrev main_v47 : Ref sig .tc := ⟨.hbm, 86, rfl⟩
abbrev main_v48 : Ref sig .tc := ⟨.hbm, 87, rfl⟩
abbrev main_c_13 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_c_14 : Ref sig .tc := ⟨.hbm, 95, rfl⟩
abbrev main_v55 : Ref sig .tc := ⟨.hbm, 96, rfl⟩
abbrev main_v56 : Ref sig .tc := ⟨.hbm, 97, rfl⟩
abbrev main_c_15 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_16 : Ref sig .tc := ⟨.hbm, 105, rfl⟩
abbrev main_v63 : Ref sig .tc := ⟨.hbm, 106, rfl⟩
abbrev main_v64 : Ref sig .tc := ⟨.hbm, 107, rfl⟩
abbrev main_c_17 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_18 : Ref sig .tc := ⟨.hbm, 115, rfl⟩
abbrev main_v71 : Ref sig .tc := ⟨.hbm, 116, rfl⟩
abbrev main_v72 : Ref sig .tc := ⟨.hbm, 117, rfl⟩
abbrev main_cst_19 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_20 : Ref sig .tc := ⟨.hbm, 130, rfl⟩
abbrev main_v84 : Ref sig .tc := ⟨.hbm, 131, rfl⟩
abbrev main_v85 : Ref sig .tc := ⟨.hbm, 132, rfl⟩
abbrev main_cst_21 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_22 : Ref sig .tc := ⟨.hbm, 137, rfl⟩
abbrev main_v89 : Ref sig .tc := ⟨.hbm, 138, rfl⟩
abbrev main_v90 : Ref sig .tc := ⟨.hbm, 139, rfl⟩
abbrev main_cst_23 : Ref sig .tc := ⟨.hbm, 140, rfl⟩
abbrev main_call4_v0 : Ref sig .tc := ⟨.hbm, 141, rfl⟩
abbrev main_call4_v1 : Ref sig .tc := ⟨.hbm, 142, rfl⟩
abbrev main_v91 : Ref sig .tc := ⟨.hbm, 143, rfl⟩
abbrev main_cst_24 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_25 : Ref sig .tc := ⟨.hbm, 148, rfl⟩
abbrev main_call5_v0 : Ref sig .tc := ⟨.hbm, 149, rfl⟩
abbrev main_call5_v1 : Ref sig .tc := ⟨.hbm, 150, rfl⟩
abbrev main_v95 : Ref sig .tc := ⟨.hbm, 151, rfl⟩
abbrev main_c_26 : Ref sig .tc := ⟨.hbm, 152, rfl⟩
abbrev main_v96 : Ref sig .tc := ⟨.hbm, 153, rfl⟩
abbrev main_v97 : Ref sig .tc := ⟨.hbm, 154, rfl⟩
abbrev main_c_27 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_c_28 : Ref sig .tc := ⟨.hbm, 162, rfl⟩
abbrev main_v104 : Ref sig .tc := ⟨.hbm, 163, rfl⟩
abbrev main_v105 : Ref sig .tc := ⟨.hbm, 164, rfl⟩
abbrev main_c_29 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩

abbrev nD : Nat := 1
abbrev τ : Topo := Topo.v7x

variable {F : FTy → Type} [FloatOps F]

class Facts₀ : Prop where
  reducesTo_S1024x128_S1024_d1 : S1024x128.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  transposes_S1024x128_S128x1024_1_0 : S1024x128.Transposes [1, 0] S128x1024
  reducesTo_S1024x1024_S1024_d1 : S1024x1024.ReducesTo [1] S1024
  reducesTo_S1024x1024_S1024_d0 : S1024x1024.ReducesTo [0] S1024
  bcast_S_S4000000 : S_.BroadcastsInDim S4000000 (![] : Fin 0 → Fin S4000000.rank)
  bcast_S4000000_S4000000x1_0 : S4000000.BroadcastsInDim S4000000x1 (![0] : Fin 1 → Fin S4000000x1.rank)
  slices_S2x4000000_S1x4000000_0_0 : S2x4000000.Slices ![0, 0] S1x4000000
  shapeCasts_S1x4000000_S4000000 : S1x4000000.ShapeCasts S4000000
  concatenates_S4000000_S200000_S4200000_d0 : Shape.Concatenates [S4000000, S200000] S4200000 0
  slices_S2x4000000_S1x4000000_1_0 : S2x4000000.Slices ![1, 0] S1x4000000
  bcast_S_S200000 : S_.BroadcastsInDim S200000 (![] : Fin 0 → Fin S200000.rank)
  bcast_S4200000_S4200000x1_0 : S4200000.BroadcastsInDim S4200000x1 (![0] : Fin 1 → Fin S4200000x1.rank)
  bcast_S_S4200000 : S_.BroadcastsInDim S4200000 (![] : Fin 0 → Fin S4200000.rank)
  dot_S1024x128_S128x1024_S1024x1024_1_0_0_1_n_n_wf : DotDims.WF S1024x128 S128x1024 S1024x1024 [1] [0] [0] [1] [] []
  gather_S1024_S4000000x1_S4000000_n_0_n_n_0_1_1_wf : GatherDims.WF S1024 S4000000x1 S4000000 [] [0] [] [0] [] 1 ![1]
  scatter_S200000_S4200000x1_S4200000_n_0_0_1_wf : ScatterDims.WF S200000 S4200000x1 S4200000 [] [0] [0] 1
  gather_S200000_S4200000x1_S4200000_n_0_n_n_0_1_1_wf : GatherDims.WF S200000 S4200000x1 S4200000 [] [0] [] [0] [] 1 ![1]

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def gather_S1024_S4000000x1_S4000000_n_0_n_n_0_1_1 : GatherDims S1024 S4000000x1 S4000000 where
  offsetDims := []
  collapsedSliceDims := [0]
  operandBatchingDims := []
  startIndicesBatchingDims := []
  startIndexMap := [0]
  indexVectorDim := 1
  sliceSizes := ![1]
  wf := gather_S1024_S4000000x1_S4000000_n_0_n_n_0_1_1_wf
def scatter_S200000_S4200000x1_S4200000_n_0_0_1 : ScatterDims S200000 S4200000x1 S4200000 where
  updateWindowDims := []
  insertedWindowDims := [0]
  scatterDimsToOperandDims := [0]
  indexVectorDim := 1
  wf := scatter_S200000_S4200000x1_S4200000_n_0_0_1_wf
def gather_S200000_S4200000x1_S4200000_n_0_n_n_0_1_1 : GatherDims S200000 S4200000x1 S4200000 where
  offsetDims := []
  collapsedSliceDims := [0]
  operandBatchingDims := []
  startIndicesBatchingDims := []
  startIndexMap := [0]
  indexVectorDim := 1
  sliceSizes := ![1]
  wf := gather_S200000_S4200000x1_S4200000_n_0_n_n_0_1_1_wf

class Facts : Prop extends Facts₀ where

variable [Facts]
-- ==== Proof.FuseKernelB.lean ====
/-
  The elementwise body of the two pallas_calls, run once on abstract staging buffers.

  Each call's body loads its four operand blocks (conf, imp, pca, att: 4096 rows of 128 lanes), forms
  conf · imp · (½ · pca + ½ · att) lane by lane, and stores the product over the result's whole staging block. Stated for any
  contents of the buffers — the last grid point's blocks overhang the arrays, and what the buffers hold past the array's end is
  not named; a pointwise body needs no more.
-/
import proofs.«156756_j43843026158044_2_alg».proof.Proof.Gen.Kernel.Launch
import proofs.«156756_j43843026158044_2_alg».proof.Proof.Gen.Kernel.Skeleton
import proofs.«156756_j43843026158044_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fuse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Call 0's body -/

/-- The body's one access rectangle: the whole 4096 × 128 staging block. -/
abbrev rect0 : Rect S4096x128 := Rect.unit (s := S4096x128) ![0, 0] S4096x128.size inb_S4096x128_S4096x128_0_0

/-- What the body leaves in the result's staging buffer, from what the four operand buffers hold: its one whole-block
    store of conf · imp · (½ · pca + ½ · att), entry by entry. -/
def out0 (x0 x1 x2 x3 : Vec F S4096x128 .f32) : Vec F S4096x128 .f32 :=
  View.canon [⟨rect0, k0_pay1 (View.ld x0 rect0) (View.ld x1 rect0) (View.ld x2 rect0) (View.ld x3 rect0)⟩]

/-- The one store covers the buffer. -/
theorem cover0 (p0 : Vec F S4096x128 .f32) (y : S4096x128.Idx) :
    ∃ pc ∈ ([⟨rect0, p0⟩] : List (View.Piece (Elt F) S4096x128 .f32)), y ∈ pc.1.set :=
  View.cover_of_tiled [⟨rect0, p0⟩] S4096x128.size (by rfl) y

set_option maxHeartbeats 1000000 in
/-- The body on whole staging buffers, the four operands' at contents `x0 … x3` and the result's at anything: it runs to
    the continuation with the operands' buffers as they were and the result's at `out0` of them. -/
theorem sound_kernel0 (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S4096x128 .f32) (harg4 : arg4.IsWhole)
    (arg5 : Memref sig .tc .vmem S4096x128 .f32) (harg5 : arg5.IsWhole)
    (x0 x1 x2 x3 : Vec F S4096x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0 x0 x1 x2 x3)) -∗ K ⟨⟩))
      ⊢ wp frame (wpE (defs₀ (F := F)) Variants.none c none) E (cc0__fuse_kernel i arg1 harg1 arg2 harg2 arg3 harg3 arg4 harg4 arg5 harg5) K := by
  simp only [cc0__fuse_kernel_eq_skeleton]; unfold cc0__fuse_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0 _)

/-! ## Call 1's body -/

/-- The body's one access rectangle: the whole 4096 × 128 staging block. -/
abbrev rect1 : Rect S4096x128 := Rect.unit (s := S4096x128) ![0, 0] S4096x128.size inb_S4096x128_S4096x128_0_0

/-- What the body leaves in the result's staging buffer, from what the four operand buffers hold: its one whole-block
    store of conf · imp · (½ · pca + ½ · att), entry by entry. -/
def out1 (x0 x1 x2 x3 : Vec F S4096x128 .f32) : Vec F S4096x128 .f32 :=
  View.canon [⟨rect1, k1_pay1 (View.ld x0 rect1) (View.ld x1 rect1) (View.ld x2 rect1) (View.ld x3 rect1)⟩]

/-- The one store covers the buffer. -/
theorem cover1 (p0 : Vec F S4096x128 .f32) (y : S4096x128.Idx) :
    ∃ pc ∈ ([⟨rect1, p0⟩] : List (View.Piece (Elt F) S4096x128 .f32)), y ∈ pc.1.set :=
  View.cover_of_tiled [⟨rect1, p0⟩] S4096x128.size (by rfl) y

set_option maxHeartbeats 1000000 in
/-- The body on whole staging buffers, the four operands' at contents `x0 … x3` and the result's at anything: it runs to
    the continuation with the operands' buffers as they were and the result's at `out1` of them. -/
theorem sound_kernel1 (c : Dev nD) (E : Set ℕ) (i : grid1.Coords)
    (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S4096x128 .f32) (harg4 : arg4.IsWhole)
    (arg5 : Memref sig .tc .vmem S4096x128 .f32) (harg5 : arg5.IsWhole)
    (x0 x1 x2 x3 : Vec F S4096x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1 x0 x1 x2 x3)) -∗ K ⟨⟩))
      ⊢ wp frame (wpE (defs₀ (F := F)) Variants.none c none) E (cc1__fuse_kernel i arg1 harg1 arg2 harg2 arg3 harg3 arg4 harg4 arg5 harg5) K := by
  simp only [cc1__fuse_kernel_eq_skeleton]; unfold cc1__fuse_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

end Cert.Kernel.Fuse

end
-- ==== Proof.FuseDataB.lean ====
/-
  The proof data of the two pallas_calls: for each, what every staging buffer holds after the body at a grid point.

  The arrays are 31250 rows of 128 lanes in blocks of 4096 rows on a grid of 8 points; the last block overhangs the array
  by 1518 rows. A fetched buffer holds its block on the rows inside the array and unnamed words past its end; the data
  below name the part inside the array and fill the rest with the zero word, which nothing reads.
-/
import proofs.«156756_j43843026158044_2_alg».proof.Proof.FuseKernelB

set_option maxRecDepth 16384

noncomputable section

namespace Cert.Kernel.Fuse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Call 0: blocks and proof data, at the buffer contents `V` the call is entered with -/

/-- Window `w`'s block at grid point `t`, read off its array: the rows of the block that lie inside the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand's staging buffer after the body at point `t`, on the rows inside the array its block and past the array's end
    a filler nothing reads (the zero word). -/
def stg0_0 (c : Dev nD) (t : Fin cfg0.N) : Vec F S4096x128 .f32 :=
  win0_0.fill (grid0.coords t) (fun _ => Scalar.ofBits .f32 0#32) (iblk0 V c 0 t)
def stg0_1 (c : Dev nD) (t : Fin cfg0.N) : Vec F S4096x128 .f32 :=
  win0_1.fill (grid0.coords t) (fun _ => Scalar.ofBits .f32 0#32) (iblk0 V c 1 t)
def stg0_2 (c : Dev nD) (t : Fin cfg0.N) : Vec F S4096x128 .f32 :=
  win0_2.fill (grid0.coords t) (fun _ => Scalar.ofBits .f32 0#32) (iblk0 V c 2 t)
def stg0_3 (c : Dev nD) (t : Fin cfg0.N) : Vec F S4096x128 .f32 :=
  win0_3.fill (grid0.coords t) (fun _ => Scalar.ofBits .f32 0#32) (iblk0 V c 3 t)

/-- The proof data of call 0 on core `c`: the arrays as the call finds them; after the body at point `t` the operands'
    buffers at their blocks (filled out past the array's end) and the result's at the body's product of those; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => stg0_0 V c t
    | ⟨1, _⟩ => stg0_1 V c t
    | ⟨2, _⟩ => stg0_2 V c t
    | ⟨3, _⟩ => stg0_3 V c t
    | ⟨4, _⟩ => out0 (stg0_0 V c t) (stg0_1 V c t) (stg0_2 V c t) (stg0_3 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = stg0_0 V c t := by dsimp only [dat0]
theorem after0_1 (c : Dev nD) (t : Fin cfg0.N) : (dat0 V c).after 1 t = stg0_1 V c t := by dsimp only [dat0]
theorem after0_2 (c : Dev nD) (t : Fin cfg0.N) : (dat0 V c).after 2 t = stg0_2 V c t := by dsimp only [dat0]
theorem after0_3 (c : Dev nD) (t : Fin cfg0.N) : (dat0 V c).after 3 t = stg0_3 V c t := by dsimp only [dat0]
theorem after0_4 (c : Dev nD) (t : Fin cfg0.N) :
    (dat0 V c).after 4 t = out0 (stg0_0 V c t) (stg0_1 V c t) (stg0_2 V c t) (stg0_3 V c t) := by dsimp only [dat0]

/-! ## Call 1: blocks and proof data, at the buffer contents `V` the call is entered with -/

/-- Window `w`'s block at grid point `t`, read off its array: the rows of the block that lie inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand's staging buffer after the body at point `t`, on the rows inside the array its block and past the array's end
    a filler nothing reads (the zero word). -/
def stg1_0 (c : Dev nD) (t : Fin cfg1.N) : Vec F S4096x128 .f32 :=
  win1_0.fill (grid1.coords t) (fun _ => Scalar.ofBits .f32 0#32) (iblk1 V c 0 t)
def stg1_1 (c : Dev nD) (t : Fin cfg1.N) : Vec F S4096x128 .f32 :=
  win1_1.fill (grid1.coords t) (fun _ => Scalar.ofBits .f32 0#32) (iblk1 V c 1 t)
def stg1_2 (c : Dev nD) (t : Fin cfg1.N) : Vec F S4096x128 .f32 :=
  win1_2.fill (grid1.coords t) (fun _ => Scalar.ofBits .f32 0#32) (iblk1 V c 2 t)
def stg1_3 (c : Dev nD) (t : Fin cfg1.N) : Vec F S4096x128 .f32 :=
  win1_3.fill (grid1.coords t) (fun _ => Scalar.ofBits .f32 0#32) (iblk1 V c 3 t)

/-- The proof data of call 1 on core `c`: the arrays as the call finds them; after the body at point `t` the operands'
    buffers at their blocks (filled out past the array's end) and the result's at the body's product of those; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => stg1_0 V c t
    | ⟨1, _⟩ => stg1_1 V c t
    | ⟨2, _⟩ => stg1_2 V c t
    | ⟨3, _⟩ => stg1_3 V c t
    | ⟨4, _⟩ => out1 (stg1_0 V c t) (stg1_1 V c t) (stg1_2 V c t) (stg1_3 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = stg1_0 V c t := by dsimp only [dat1]
theorem after1_1 (c : Dev nD) (t : Fin cfg1.N) : (dat1 V c).after 1 t = stg1_1 V c t := by dsimp only [dat1]
theorem after1_2 (c : Dev nD) (t : Fin cfg1.N) : (dat1 V c).after 2 t = stg1_2 V c t := by dsimp only [dat1]
theorem after1_3 (c : Dev nD) (t : Fin cfg1.N) : (dat1 V c).after 3 t = stg1_3 V c t := by dsimp only [dat1]
theorem after1_4 (c : Dev nD) (t : Fin cfg1.N) :
    (dat1 V c).after 4 t = out1 (stg1_0 V c t) (stg1_1 V c t) (stg1_2 V c t) (stg1_3 V c t) := by dsimp only [dat1]

end Cert.Kernel.Fuse

end
-- ==== Proof.FuseObligB.lean ====
/-
  The body obligation of the two pallas_calls: at every grid point the body, handed each operand's staging buffer just
  fetched (its block on the rows inside the array, anything past the array's end) and the result's buffer at anything,
  leaves the operands' buffers as they were and the result's at conf · imp · (½ · pca + ½ · att), entry by entry — which on the
  rows inside the array is the product of the blocks, whatever lay past the end: the body is pointwise.
-/
import proofs.«156756_j43843026158044_2_alg».proof.Proof.FuseDataB
import Idealize.ShloMosaic.Lib.Pipeline.Value

set_option maxRecDepth 16384

noncomputable section

namespace Cert.Kernel.Fuse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Call 0 -/

/-- One entry of the body's product depends on the same entry of the four operand buffers only. -/
def fuse0 (a b e g : Elt F .f32) : Elt F .f32 :=
  FloatOps.mulf (FloatOps.mulf a b)
    (FloatOps.addf (FloatOps.mulf (Scalar.ofBits .f32 0x3F000000#32) e) (FloatOps.mulf (Scalar.ofBits .f32 0x3F000000#32) g))

theorem out0_apply (x0 x1 x2 x3 : Vec F S4096x128 .f32) (y : S4096x128.Idx) :
    out0 x0 x1 x2 x3 y = fuse0 (x0 y) (x1 y) (x2 y) (x3 y) := by
  have hz : (![0, 0] : Fin 2 → Nat) = fun _ => 0 := funext fun a => by fin_cases a <;> rfl
  unfold out0
  rw [View.canon_unit_zero hz]
  simp only [View.ld_unit_zero (S := S4096x128) hz]
  unfold k0_pay1 fuse0
  simp only [shapeCast_self]
  rfl

/-- The operands' buffers are fetched at every point: on the rows inside the array the block, elsewhere what was there. -/
theorem before0_0 (c : Dev nD) (t : Fin cfg0.N) (d) :
    (dat0 V c).before 0 t d = win0_0.fill (grid0.coords t) d (iblk0 V c 0 t) :=
  ((dat0 V c).before_fetched 0 t (fetch0_0 t) d).trans (by unfold Dat.fetched Dat.blockOf iblk0; rfl)
theorem before0_1 (c : Dev nD) (t : Fin cfg0.N) (d) :
    (dat0 V c).before 1 t d = win0_1.fill (grid0.coords t) d (iblk0 V c 1 t) :=
  ((dat0 V c).before_fetched 1 t (fetch0_1 t) d).trans (by unfold Dat.fetched Dat.blockOf iblk0; rfl)
theorem before0_2 (c : Dev nD) (t : Fin cfg0.N) (d) :
    (dat0 V c).before 2 t d = win0_2.fill (grid0.coords t) d (iblk0 V c 2 t) :=
  ((dat0 V c).before_fetched 2 t (fetch0_2 t) d).trans (by unfold Dat.fetched Dat.blockOf iblk0; rfl)
theorem before0_3 (c : Dev nD) (t : Fin cfg0.N) (d) :
    (dat0 V c).before 3 t d = win0_3.fill (grid0.coords t) d (iblk0 V c 3 t) :=
  ((dat0 V c).before_fetched 3 t (fetch0_3 t) d).trans (by unfold Dat.fetched Dat.blockOf iblk0; rfl)
/-- The result's buffer is written back at every point: the body finds it at contents nothing names. -/
theorem before0_4 (c : Dev nD) (t : Fin cfg0.N) (d) : (dat0 V c).before 4 t d = d :=
  (dat0 V c).before_out_reset 4 rfl t
    (by by_cases h : t.val = 0
        · exact .inl h
        · exact .inr ⟨h, flush0_4 _⟩) d

/-- On the rows inside the array the body's product does not depend on what the operand buffers hold past the array's end. -/
theorem cut_out0 (i : grid0.Coords) (d0 d1 d2 d3 e0 e1 e2 e3 : Vec F S4096x128 .f32)
    (b0 : (win0_0.xblock i).Idx → Elt F .f32) (b1 : (win0_1.xblock i).Idx → Elt F .f32)
    (b2 : (win0_2.xblock i).Idx → Elt F .f32) (b3 : (win0_3.xblock i).Idx → Elt F .f32) :
    win0_4.cut i (out0 (win0_0.fill i d0 b0) (win0_1.fill i d1 b1) (win0_2.fill i d2 b2) (win0_3.fill i d3 b3))
      = win0_4.cut i (out0 (win0_0.fill i e0 b0) (win0_1.fill i e1 b1) (win0_2.fill i e2 b2) (win0_3.fill i e3 b3)) := by
  funext j
  show out0 _ _ _ _ (win0_4.xinj i j) = out0 _ _ _ _ (win0_4.xinj i j)
  rw [out0_apply, out0_apply]
  have h0 : ∀ d, win0_0.fill i d b0 (win0_4.xinj i j) = b0 j := fun d => win0_0.fill_xinj i d b0 j
  have h1 : ∀ d, win0_1.fill i d b1 (win0_4.xinj i j) = b1 j := fun d => win0_1.fill_xinj i d b1 j
  have h2 : ∀ d, win0_2.fill i d b2 (win0_4.xinj i j) = b2 j := fun d => win0_2.fill_xinj i d b2 j
  have h3 : ∀ d, win0_3.fill i d b3 (win0_4.xinj i j) = b3 j := fun d => win0_3.fill_xinj i d b3 j
  rw [h0, h0, h1, h1, h2, h2, h3, h3]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns: every buffer stated on the rows inside the array only. -/
def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ (∃ d, owns (c : Thread nD τ) (st0_1 t) fullShare (win0_1.fill (grid0.coords t) d (win0_1.cut (grid0.coords t) ((dat0 V c).after 1 t))))
    ∗ (∃ d, owns (c : Thread nD τ) (st0_2 t) fullShare (win0_2.fill (grid0.coords t) d (win0_2.cut (grid0.coords t) ((dat0 V c).after 2 t))))
    ∗ (∃ d, owns (c : Thread nD τ) (st0_3 t) fullShare (win0_3.fill (grid0.coords t) d (win0_3.cut (grid0.coords t) ((dat0 V c).after 3 t))))
    ∗ (∃ d, owns (c : Thread nD τ) (st0_4 t) fullShare (win0_4.fill (grid0.coords t) d (win0_4.cut (grid0.coords t) ((dat0 V c).after 4 t)))))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩⟩
  rw [before0_0 V c t d0, before0_1 V c t d1, before0_2 V c t d2, before0_3 V c t d3]
  iapply (sound_kernel0 c Set.univ (grid0.coords t) _ _ _ _ _ _ _ _ _ _
    (win0_0.fill (grid0.coords t) d0 (iblk0 V c 0 t)) (win0_1.fill (grid0.coords t) d1 (iblk0 V c 1 t))
    (win0_2.fill (grid0.coords t) d2 (iblk0 V c 2 t)) (win0_3.fill (grid0.coords t) d3 (iblk0 V c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  have c0 : win0_0.cut (grid0.coords t) ((dat0 V c).after 0 t) = iblk0 V c 0 t := by
    rw [after0_0]; exact win0_0.cut_fill _ _ _
  have c1 : win0_1.cut (grid0.coords t) ((dat0 V c).after 1 t) = iblk0 V c 1 t := by
    rw [after0_1]; exact win0_1.cut_fill _ _ _
  have c2 : win0_2.cut (grid0.coords t) ((dat0 V c).after 2 t) = iblk0 V c 2 t := by
    rw [after0_2]; exact win0_2.cut_fill _ _ _
  have c3 : win0_3.cut (grid0.coords t) ((dat0 V c).after 3 t) = iblk0 V c 3 t := by
    rw [after0_3]; exact win0_3.cut_fill _ _ _
  have c4 : win0_4.fill (grid0.coords t)
        (out0 (win0_0.fill (grid0.coords t) d0 (iblk0 V c 0 t)) (win0_1.fill (grid0.coords t) d1 (iblk0 V c 1 t))
          (win0_2.fill (grid0.coords t) d2 (iblk0 V c 2 t)) (win0_3.fill (grid0.coords t) d3 (iblk0 V c 3 t)))
        (win0_4.cut (grid0.coords t) ((dat0 V c).after 4 t))
      = out0 (win0_0.fill (grid0.coords t) d0 (iblk0 V c 0 t)) (win0_1.fill (grid0.coords t) d1 (iblk0 V c 1 t))
          (win0_2.fill (grid0.coords t) d2 (iblk0 V c 2 t)) (win0_3.fill (grid0.coords t) d3 (iblk0 V c 3 t)) := by
    rw [after0_4]
    exact win0_4.fill_congr_cut (grid0.coords t) (cut_out0 (grid0.coords t) _ _ _ _ _ _ _ _ _ _ _ _)
  rw [c0, c1, c2, c3]
  isplitl [H0]; · iexists d0; iexact H0
  isplitl [H1]; · iexists d1; iexact H1
  isplitl [H2]; · iexists d2; iexact H2
  isplitl [H3]; · iexists d3; iexact H3
  iexists _; rw [c4]; iexact H4

/-- The body obligation of call 0, at every point (every window stated on the rows inside the array). -/
theorem body_obligation0 (c : Dev nD) :
    BodyObligationLoose (dat0 (F := F) V c) (defs₀ (F := F)) Variants.none () Set.univ := fun t => by
  rw [bigSep_W0, bigSep_W0]
  exact sound_body0 V c t

/-! ## Call 1 -/

/-- One entry of the body's product depends on the same entry of the four operand buffers only. -/
def fuse1 (a b e g : Elt F .f32) : Elt F .f32 :=
  FloatOps.mulf (FloatOps.mulf a b)
    (FloatOps.addf (FloatOps.mulf (Scalar.ofBits .f32 0x3F000000#32) e) (FloatOps.mulf (Scalar.ofBits .f32 0x3F000000#32) g))

theorem out1_apply (x0 x1 x2 x3 : Vec F S4096x128 .f32) (y : S4096x128.Idx) :
    out1 x0 x1 x2 x3 y = fuse1 (x0 y) (x1 y) (x2 y) (x3 y) := by
  have hz : (![0, 0] : Fin 2 → Nat) = fun _ => 0 := funext fun a => by fin_cases a <;> rfl
  unfold out1
  rw [View.canon_unit_zero hz]
  simp only [View.ld_unit_zero (S := S4096x128) hz]
  unfold k1_pay1 fuse1
  simp only [shapeCast_self]
  rfl

/-- The operands' buffers are fetched at every point: on the rows inside the array the block, elsewhere what was there. -/
theorem before1_0 (c : Dev nD) (t : Fin cfg1.N) (d) :
    (dat1 V c).before 0 t d = win1_0.fill (grid1.coords t) d (iblk1 V c 0 t) :=
  ((dat1 V c).before_fetched 0 t (fetch1_0 t) d).trans (by unfold Dat.fetched Dat.blockOf iblk1; rfl)
theorem before1_1 (c : Dev nD) (t : Fin cfg1.N) (d) :
    (dat1 V c).before 1 t d = win1_1.fill (grid1.coords t) d (iblk1 V c 1 t) :=
  ((dat1 V c).before_fetched 1 t (fetch1_1 t) d).trans (by unfold Dat.fetched Dat.blockOf iblk1; rfl)
theorem before1_2 (c : Dev nD) (t : Fin cfg1.N) (d) :
    (dat1 V c).before 2 t d = win1_2.fill (grid1.coords t) d (iblk1 V c 2 t) :=
  ((dat1 V c).before_fetched 2 t (fetch1_2 t) d).trans (by unfold Dat.fetched Dat.blockOf iblk1; rfl)
theorem before1_3 (c : Dev nD) (t : Fin cfg1.N) (d) :
    (dat1 V c).before 3 t d = win1_3.fill (grid1.coords t) d (iblk1 V c 3 t) :=
  ((dat1 V c).before_fetched 3 t (fetch1_3 t) d).trans (by unfold Dat.fetched Dat.blockOf iblk1; rfl)
/-- The result's buffer is written back at every point: the body finds it at contents nothing names. -/
theorem before1_4 (c : Dev nD) (t : Fin cfg1.N) (d) : (dat1 V c).before 4 t d = d :=
  (dat1 V c).before_out_reset 4 rfl t
    (by by_cases h : t.val = 0
        · exact .inl h
        · exact .inr ⟨h, flush1_4 _⟩) d

/-- On the rows inside the array the body's product does not depend on what the operand buffers hold past the array's end. -/
theorem cut_out1 (i : grid1.Coords) (d0 d1 d2 d3 e0 e1 e2 e3 : Vec F S4096x128 .f32)
    (b0 : (win1_0.xblock i).Idx → Elt F .f32) (b1 : (win1_1.xblock i).Idx → Elt F .f32)
    (b2 : (win1_2.xblock i).Idx → Elt F .f32) (b3 : (win1_3.xblock i).Idx → Elt F .f32) :
    win1_4.cut i (out1 (win1_0.fill i d0 b0) (win1_1.fill i d1 b1) (win1_2.fill i d2 b2) (win1_3.fill i d3 b3))
      = win1_4.cut i (out1 (win1_0.fill i e0 b0) (win1_1.fill i e1 b1) (win1_2.fill i e2 b2) (win1_3.fill i e3 b3)) := by
  funext j
  show out1 _ _ _ _ (win1_4.xinj i j) = out1 _ _ _ _ (win1_4.xinj i j)
  rw [out1_apply, out1_apply]
  have h0 : ∀ d, win1_0.fill i d b0 (win1_4.xinj i j) = b0 j := fun d => win1_0.fill_xinj i d b0 j
  have h1 : ∀ d, win1_1.fill i d b1 (win1_4.xinj i j) = b1 j := fun d => win1_1.fill_xinj i d b1 j
  have h2 : ∀ d, win1_2.fill i d b2 (win1_4.xinj i j) = b2 j := fun d => win1_2.fill_xinj i d b2 j
  have h3 : ∀ d, win1_3.fill i d b3 (win1_4.xinj i j) = b3 j := fun d => win1_3.fill_xinj i d b3 j
  rw [h0, h0, h1, h1, h2, h2, h3, h3]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: every buffer stated on the rows inside the array only. -/
def bodyPost1 (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t))))
    ∗ (∃ d, owns (c : Thread nD τ) (st1_3 t) fullShare (win1_3.fill (grid1.coords t) d (win1_3.cut (grid1.coords t) ((dat1 V c).after 3 t))))
    ∗ (∃ d, owns (c : Thread nD τ) (st1_4 t) fullShare (win1_4.fill (grid1.coords t) d (win1_4.cut (grid1.coords t) ((dat1 V c).after 4 t)))))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩⟩
  rw [before1_0 V c t d0, before1_1 V c t d1, before1_2 V c t d2, before1_3 V c t d3]
  iapply (sound_kernel1 c Set.univ (grid1.coords t) _ _ _ _ _ _ _ _ _ _
    (win1_0.fill (grid1.coords t) d0 (iblk1 V c 0 t)) (win1_1.fill (grid1.coords t) d1 (iblk1 V c 1 t))
    (win1_2.fill (grid1.coords t) d2 (iblk1 V c 2 t)) (win1_3.fill (grid1.coords t) d3 (iblk1 V c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  have c0 : win1_0.cut (grid1.coords t) ((dat1 V c).after 0 t) = iblk1 V c 0 t := by
    rw [after1_0]; exact win1_0.cut_fill _ _ _
  have c1 : win1_1.cut (grid1.coords t) ((dat1 V c).after 1 t) = iblk1 V c 1 t := by
    rw [after1_1]; exact win1_1.cut_fill _ _ _
  have c2 : win1_2.cut (grid1.coords t) ((dat1 V c).after 2 t) = iblk1 V c 2 t := by
    rw [after1_2]; exact win1_2.cut_fill _ _ _
  have c3 : win1_3.cut (grid1.coords t) ((dat1 V c).after 3 t) = iblk1 V c 3 t := by
    rw [after1_3]; exact win1_3.cut_fill _ _ _
  have c4 : win1_4.fill (grid1.coords t)
        (out1 (win1_0.fill (grid1.coords t) d0 (iblk1 V c 0 t)) (win1_1.fill (grid1.coords t) d1 (iblk1 V c 1 t))
          (win1_2.fill (grid1.coords t) d2 (iblk1 V c 2 t)) (win1_3.fill (grid1.coords t) d3 (iblk1 V c 3 t)))
        (win1_4.cut (grid1.coords t) ((dat1 V c).after 4 t))
      = out1 (win1_0.fill (grid1.coords t) d0 (iblk1 V c 0 t)) (win1_1.fill (grid1.coords t) d1 (iblk1 V c 1 t))
          (win1_2.fill (grid1.coords t) d2 (iblk1 V c 2 t)) (win1_3.fill (grid1.coords t) d3 (iblk1 V c 3 t)) := by
    rw [after1_4]
    exact win1_4.fill_congr_cut (grid1.coords t) (cut_out1 (grid1.coords t) _ _ _ _ _ _ _ _ _ _ _ _)
  rw [c0, c1, c2, c3]
  isplitl [H0]; · iexists d0; iexact H0
  isplitl [H1]; · iexists d1; iexact H1
  isplitl [H2]; · iexists d2; iexact H2
  isplitl [H3]; · iexists d3; iexact H3
  iexists _; rw [c4]; iexact H4

/-- The body obligation of call 1, at every point (every window stated on the rows inside the array). -/
theorem body_obligation1 (c : Dev nD) :
    BodyObligationLoose (dat1 (F := F) V c) (defs₀ (F := F)) Variants.none () Set.univ := fun t => by
  rw [bigSep_W1, bigSep_W1]
  exact sound_body1 V c t

end Cert.Kernel.Fuse

end
-- ==== Proof.FuseRunB.lean ====
/-
  The whole program's run: @main as sixteen segments — host operations, the first pallas_call, host operations, the second
  pallas_call, host operations — from the launch to the return.

  Between two segments every unscoped buffer of a core is held at a named valuation: the launch contents, then the fold of
  each stretch of host operations over it, then, after a pallas_call, the same with the call's result array replaced by
  what its eight write-backs leave (the proof data's `arrAt`). Every weakly fair execution terminates, and in every final
  state every unscoped buffer holds the last valuation: from this both the frame (no argument array is ever written) and
  the results' values are read.
-/
import proofs.«156756_j43843026158044_2_alg».proof.Proof.FuseObligB
import proofs.«156756_j43843026158044_2_alg».proof.Proof.Gen.Kernel.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.Kernel.Fuse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the calls leave -/

/-- The buffers as the first call finds them. -/
abbrev Vin0 : (c : Dev nD) → (b : Ref sig .tc) → Buf (Elt F) ((c : Thread nD τ).loc b) := fun c b => V4 m c b

/-- A buffer after the first call: its result array at what the write-backs leave, every other buffer as entered. -/
def left0 (r : Ref sig .tc) (c : Dev nD) : Buf (Elt F) ((c : Thread nD τ).loc r) :=
  Pipeline.withArrays spec0 c (V4 m c) (fun w => (dat0 (Vin0 m) c).arrAt w cfg0.N) (Proc.devRef .tc r)

/-- The buffers as the second call finds them. -/
abbrev Vin1 : (c : Dev nD) → (b : Ref sig .tc) → Buf (Elt F) ((c : Thread nD τ).loc b) :=
  fun c b => V10 m (fun _ r c => left0 m r c) c b

/-- A buffer after the second call. -/
def left1 (r : Ref sig .tc) (c : Dev nD) : Buf (Elt F) ((c : Thread nD τ).loc r) :=
  Pipeline.withArrays spec1 c (V10 m (fun _ r c => left0 m r c) c) (fun w => (dat1 (Vin1 m) c).arrAt w cfg1.N) (Proc.devRef .tc r)

/-- What each call leaves in the buffers it may change: the first call's at the positions before the second, the second's after. -/
def outs : Outs (F := F) := fun n r c => if n < 8 then left0 m r c else left1 m r c

theorem outs_5 (r : Ref sig .tc) (c : Dev nD) : outs m 5 r c = left0 m r c := if_pos (by decide)
theorem outs_11 (r : Ref sig .tc) (c : Dev nD) : outs m 11 r c = left1 m r c := if_neg (by decide)

/-- The buffers after the first call, and after the second. -/
abbrev Vout0 : (c : Dev nD) → (b : Ref sig .tc) → Buf (Elt F) ((c : Thread nD τ).loc b) := fun c b => V5 m (outs m) c b
abbrev Vout1 : (c : Dev nD) → (b : Ref sig .tc) → Buf (Elt F) ((c : Thread nD τ).loc b) := fun c b => V11 m (outs m) c b

/-- The second call is entered from the same contents whichever of the two spellings names what the first left. -/
theorem V10_outs (c : Dev nD) : V10 m (outs m) c = V10 m (fun _ r c => left0 m r c) c := by
  have h5 : V5 m (outs m) c = V5 m (fun _ r c => left0 m r c) c :=
    congrArg (Function.update (V4 m c) (Proc.devRef .tc main_v25)) (outs_5 m main_v25 c)
  show StableHlo.after hostOps1_4 (StableHlo.after hostOps1_3 (StableHlo.after hostOps1_2 (StableHlo.after hostOps1_1
      (StableHlo.after hostOps1 (V5 m (outs m) c))))) = _
  rw [h5]

/-! ## The proof data family and the thread state -/

/-- Both calls' proof data, each at its call's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c
abbrev 𝒱₀ : Variants := Variants.none
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)

/-- At the first call's exit its arrays hold what the pipeline leaves (the four operand arrays what they held, the result's
    the write-backs' fold) and every other buffer what it held at entry. -/
theorem hF0 (c : Dev nD) (w : Fin cfg0.W) : (pdats m 0 c).arrAt w cfg0.N = Vout0 m c (Pipeline.arrRef spec0 w) := by
  have hin : ∀ w' : Fin cfg0.W, (cfg0.win w').isOut = false → Pipeline.arrRef spec0 w' ∉ ([main_v25] : List (Ref sig .tc)) →
      (pdats m 0 c).arrAt w' cfg0.N = Vout0 m c (Pipeline.arrRef spec0 w') := fun w' hw hne =>
    ((dat0 (Vin0 m) c).arrAt_in w' hw _).trans ((A_eq0 (Vin0 m) c w').trans (V5_of m (outs m) c _ hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ =>
    show (dat0 (Vin0 m) c).arrAt 4 cfg0.N = Function.update (V4 m c) (Proc.devRef .tc main_v25) (outs m 5 main_v25 c) (Proc.devRef .tc main_v25)
    rw [Function.update_self, outs_5]
    unfold left0
    exact (Pipeline.withArrays_arr spec0 launch0.win.arr_inj c (V4 m c) (fun w => (dat0 (Vin0 m) c).arrAt w cfg0.N) 4).symm
theorem hrest0 (c : Dev nD) : ∀ b, b ∉ Finset.univ.image (Pipeline.arrRef spec0) → Vout0 m c b = Vin0 m c b :=
  fun b hb => V5_of m (outs m) c b (fun h => hb (Finset.mem_image.mpr ⟨4, Finset.mem_univ _, (List.mem_singleton.mp h).symm⟩))

theorem hF1 (c : Dev nD) (w : Fin cfg1.W) : (pdats m 1 c).arrAt w cfg1.N = Vout1 m c (Pipeline.arrRef spec1 w) := by
  have hin : ∀ w' : Fin cfg1.W, (cfg1.win w').isOut = false → Pipeline.arrRef spec1 w' ∉ ([main_v74] : List (Ref sig .tc)) →
      (pdats m 1 c).arrAt w' cfg1.N = Vout1 m c (Pipeline.arrRef spec1 w') := fun w' hw hne =>
    ((dat1 (Vin1 m) c).arrAt_in w' hw _).trans ((A_eq1 (Vin1 m) c w').trans
      ((congrFun (V10_outs m c) _).symm.trans (V11_of m (outs m) c _ hne).symm))
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ =>
    show (dat1 (Vin1 m) c).arrAt 4 cfg1.N = Function.update (V10 m (outs m) c) (Proc.devRef .tc main_v74) (outs m 11 main_v74 c) (Proc.devRef .tc main_v74)
    rw [Function.update_self, outs_11]
    unfold left1
    exact (Pipeline.withArrays_arr spec1 launch1.win.arr_inj c (V10 m (fun _ r c => left0 m r c) c) (fun w => (dat1 (Vin1 m) c).arrAt w cfg1.N) 4).symm
theorem hrest1 (c : Dev nD) : ∀ b, b ∉ Finset.univ.image (Pipeline.arrRef spec1) → Vout1 m c b = Vin1 m c b :=
  fun b hb => (V11_of m (outs m) c b (fun h => hb (Finset.mem_image.mpr ⟨4, Finset.mem_univ _, (List.mem_singleton.mp h).symm⟩))).trans
    (congrFun (V10_outs m c) _)

/-! ## The calls as segments -/

-- `iapply` of a library lemma stated over `pin pcs a p` unifies with the pinned configuration only when unification may
-- unfold plain definitions in a metavariable's type
set_option backward.isDefEq.respectTransparency.types false in
/-- Call 0 as a segment of the program: entered with every unscoped buffer at the contents the host operations before it
    leave, left with the result's array at what the eight write-backs leave and every other buffer as entered. Its arrays are
    split out of the unscoped buffers and put back; the generator register goes into the invariant and comes out; nothing
    is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (Vin0 m) c
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Call 1 as a segment of the program: entered with every unscoped buffer at the contents the host operations before it
    leave, left with the result's array at what the eight write-backs leave and every other buffer as entered. Its arrays are
    split out of the unscoped buffers and put back; the generator register goes into the invariant and comes out; nothing
    is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (Vin1 m) c
  hwaits := Pipeline.hwaits_of_owed_zero _ _ _ _ L lv 1 fun _ _ => rfl
  pre c := iprop(StableHlo.held (c : Thread nD τ) (Pipeline.ucRefs τ sig) (V10 m (fun _ r c => left0 m r c) c) ∗ R c)
  post c := iprop(StableHlo.held (c : Thread nD τ) (Pipeline.ucRefs τ sig) (V11 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the library theorem's implicit arguments are found by unifying its conclusion with this one, which takes unfolding
-- plain definitions in a metavariable's type
set_option backward.isDefEq.respectTransparency.types false in
/-- THE RUN. At the compiled mesh, for any float values, from any memory with zero counters: every weakly fair execution of
    @main terminates, nothing faulting, and in every final state every unscoped buffer of every core holds the last
    valuation — the launch contents carried through the sixteen segments. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V16 m (outs m) c b) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m))
    (fun c Q => by
      rewrite [main_chain c, Seg.run_eq_chain,
        show (segs m (outs m) 𝒱₀ L lv (fun _ => R) () (pdats m) (reg0 m) (reg1 m) c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V16 m (outs m) c) ∗ ∃ r, prngReg c r))
    (hch := fun c => ⟨.rfl, .rfl, .rfl, .rfl, .rfl, .rfl, .rfl, .rfl, .rfl, .rfl,
      Entails.of_eq (by
        show iprop(StableHlo.held (c : Thread nD τ) (Pipeline.ucRefs τ sig) (V10 m (outs m) c) ∗ R c)
          = iprop(StableHlo.held (c : Thread nD τ) (Pipeline.ucRefs τ sig) (V10 m (fun _ r c => left0 m r c) c) ∗ R c)
        rw [V10_outs m c]), .rfl, .rfl, .rfl, .rfl, .rfl,
      (by
        show iprop(StableHlo.held (c : Thread nD τ) (Pipeline.ucRefs τ sig) (V16 m (outs m) c) ∗ R c)
          ⊢ iprop((StableHlo.held (c : Thread nD τ) (Pipeline.ucRefs τ sig) (V16 m (outs m) c) ∗ ∃ r, prngReg c r)
              ∗ ∃ W, owes (c : Thread nD τ) (0 : CellTallies nD τ sig Unit) W)
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V16 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V16 m (outs m) c) s')
      isplitl [Hh] <;> iassumption)
    (hQ := fun s h => h)

/-- THE FRAME: no host operation and no pallas_call writes an argument array, so each ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (V16_main_arg0 m (outs m) c),
     (h c _ (mem_uc main_arg1 (by decide))).trans (V16_main_arg1 m (outs m) c),
     (h c _ (mem_uc main_arg2 (by decide))).trans (V16_main_arg2 m (outs m) c),
     (h c _ (mem_uc main_arg3 (by decide))).trans (V16_main_arg3 m (outs m) c),
     (h c _ (mem_uc main_arg4 (by decide))).trans (V16_main_arg4 m (outs m) c),
     (h c _ (mem_uc main_arg5 (by decide))).trans (V16_main_arg5 m (outs m) c),
     (h c _ (mem_uc main_arg6 (by decide))).trans (V16_main_arg6 m (outs m) c),
     (h c _ (mem_uc main_arg7 (by decide))).trans (V16_main_arg7 m (outs m) c),
     (h c _ (mem_uc main_arg8 (by decide))).trans (V16_main_arg8 m (outs m) c),
     (h c _ (mem_uc main_arg9 (by decide))).trans (V16_main_arg9 m (outs m) c),
     (h c _ (mem_uc main_arg10 (by decide))).trans (V16_main_arg10 m (outs m) c),
     (h c _ (mem_uc main_arg11 (by decide))).trans (V16_main_arg11 m (outs m) c)⟩) (run_all m ρ)

end Cert.Kernel.Fuse

end
-- ==== Proof.FuseKernelI.lean ====
/-
  The elementwise body of the two pallas_calls, run once on abstract staging buffers.

  Each call's body loads its four operand blocks (conf, imp, pca, att: 4096 rows of 128 lanes), forms
  conf · imp · (½ · pca + ½ · att) lane by lane, and stores the product over the result's whole staging block. Stated for any
  contents of the buffers — the last grid point's blocks overhang the arrays, and what the buffers hold past the array's end is
  not named; a pointwise body needs no more.
-/
import proofs.«156756_j43843026158044_2_alg».proof.Proof.Gen.KernelIdeal.Launch
import proofs.«156756_j43843026158044_2_alg».proof.Proof.Gen.KernelIdeal.Skeleton
import proofs.«156756_j43843026158044_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fuse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Call 0's body -/

/-- The body's one access rectangle: the whole 4096 × 128 staging block. -/
abbrev rect0 : Rect S4096x128 := Rect.unit (s := S4096x128) ![0, 0] S4096x128.size inb_S4096x128_S4096x128_0_0

/-- What the body leaves in the result's staging buffer, from what the four operand buffers hold: its one whole-block
    store of conf · imp · (½ · pca + ½ · att), entry by entry. -/
def out0 (x0 x1 x2 x3 : Vec F S4096x128 .f32) : Vec F S4096x128 .f32 :=
  View.canon [⟨rect0, k0_pay1 (View.ld x0 rect0) (View.ld x1 rect0) (View.ld x2 rect0) (View.ld x3 rect0)⟩]

/-- The one store covers the buffer. -/
theorem cover0 (p0 : Vec F S4096x128 .f32) (y : S4096x128.Idx) :
    ∃ pc ∈ ([⟨rect0, p0⟩] : List (View.Piece (Elt F) S4096x128 .f32)), y ∈ pc.1.set :=
  View.cover_of_tiled [⟨rect0, p0⟩] S4096x128.size (by rfl) y

set_option maxHeartbeats 1000000 in
/-- The body on whole staging buffers, the four operands' at contents `x0 … x3` and the result's at anything: it runs to
    the continuation with the operands' buffers as they were and the result's at `out0` of them. -/
theorem sound_kernel0 (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S4096x128 .f32) (harg4 : arg4.IsWhole)
    (arg5 : Memref sig .tc .vmem S4096x128 .f32) (harg5 : arg5.IsWhole)
    (x0 x1 x2 x3 : Vec F S4096x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0 x0 x1 x2 x3)) -∗ K ⟨⟩))
      ⊢ wp frame (wpE (defs₀ (F := F)) Variants.none c none) E (cc0__fuse_kernel i arg1 harg1 arg2 harg2 arg3 harg3 arg4 harg4 arg5 harg5) K := by
  simp only [cc0__fuse_kernel_eq_skeleton]; unfold cc0__fuse_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0 _)

/-! ## Call 1's body -/

/-- The body's one access rectangle: the whole 4096 × 128 staging block. -/
abbrev rect1 : Rect S4096x128 := Rect.unit (s := S4096x128) ![0, 0] S4096x128.size inb_S4096x128_S4096x128_0_0

/-- What the body leaves in the result's staging buffer, from what the four operand buffers hold: its one whole-block
    store of conf · imp · (½ · pca + ½ · att), entry by entry. -/
def out1 (x0 x1 x2 x3 : Vec F S4096x128 .f32) : Vec F S4096x128 .f32 :=
  View.canon [⟨rect1, k1_pay1 (View.ld x0 rect1) (View.ld x1 rect1) (View.ld x2 rect1) (View.ld x3 rect1)⟩]

/-- The one store covers the buffer. -/
theorem cover1 (p0 : Vec F S4096x128 .f32) (y : S4096x128.Idx) :
    ∃ pc ∈ ([⟨rect1, p0⟩] : List (View.Piece (Elt F) S4096x128 .f32)), y ∈ pc.1.set :=
  View.cover_of_tiled [⟨rect1, p0⟩] S4096x128.size (by rfl) y

set_option maxHeartbeats 1000000 in
/-- The body on whole staging buffers, the four operands' at contents `x0 … x3` and the result's at anything: it runs to
    the continuation with the operands' buffers as they were and the result's at `out1` of them. -/
theorem sound_kernel1 (c : Dev nD) (E : Set ℕ) (i : grid1.Coords)
    (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S4096x128 .f32) (harg4 : arg4.IsWhole)
    (arg5 : Memref sig .tc .vmem S4096x128 .f32) (harg5 : arg5.IsWhole)
    (x0 x1 x2 x3 : Vec F S4096x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1 x0 x1 x2 x3)) -∗ K ⟨⟩))
      ⊢ wp frame (wpE (defs₀ (F := F)) Variants.none c none) E (cc1__fuse_kernel i arg1 harg1 arg2 harg2 arg3 harg3 arg4 harg4 arg5 harg5) K := by
  simp only [cc1__fuse_kernel_eq_skeleton]; unfold cc1__fuse_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

end Cert.KernelIdeal.Fuse

end
-- ==== Proof.FuseDataI.lean ====
/-
  The proof data of the two pallas_calls: for each, what every staging buffer holds after the body at a grid point.

  The arrays are 31250 rows of 128 lanes in blocks of 4096 rows on a grid of 8 points; the last block overhangs the array
  by 1518 rows. A fetched buffer holds its block on the rows inside the array and unnamed words past its end; the data
  below name the part inside the array and fill the rest with the zero word, which nothing reads.
-/
import proofs.«156756_j43843026158044_2_alg».proof.Proof.FuseKernelI

set_option maxRecDepth 16384

noncomputable section

namespace Cert.KernelIdeal.Fuse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Call 0: blocks and proof data, at the buffer contents `V` the call is entered with -/

/-- Window `w`'s block at grid point `t`, read off its array: the rows of the block that lie inside the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand's staging buffer after the body at point `t`, on the rows inside the array its block and past the array's end
    a filler nothing reads (the zero word). -/
def stg0_0 (c : Dev nD) (t : Fin cfg0.N) : Vec F S4096x128 .f32 :=
  win0_0.fill (grid0.coords t) (fun _ => Scalar.ofBits .f32 0#32) (iblk0 V c 0 t)
def stg0_1 (c : Dev nD) (t : Fin cfg0.N) : Vec F S4096x128 .f32 :=
  win0_1.fill (grid0.coords t) (fun _ => Scalar.ofBits .f32 0#32) (iblk0 V c 1 t)
def stg0_2 (c : Dev nD) (t : Fin cfg0.N) : Vec F S4096x128 .f32 :=
  win0_2.fill (grid0.coords t) (fun _ => Scalar.ofBits .f32 0#32) (iblk0 V c 2 t)
def stg0_3 (c : Dev nD) (t : Fin cfg0.N) : Vec F S4096x128 .f32 :=
  win0_3.fill (grid0.coords t) (fun _ => Scalar.ofBits .f32 0#32) (iblk0 V c 3 t)

/-- The proof data of call 0 on core `c`: the arrays as the call finds them; after the body at point `t` the operands'
    buffers at their blocks (filled out past the array's end) and the result's at the body's product of those; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => stg0_0 V c t
    | ⟨1, _⟩ => stg0_1 V c t
    | ⟨2, _⟩ => stg0_2 V c t
    | ⟨3, _⟩ => stg0_3 V c t
    | ⟨4, _⟩ => out0 (stg0_0 V c t) (stg0_1 V c t) (stg0_2 V c t) (stg0_3 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = stg0_0 V c t := by dsimp only [dat0]
theorem after0_1 (c : Dev nD) (t : Fin cfg0.N) : (dat0 V c).after 1 t = stg0_1 V c t := by dsimp only [dat0]
theorem after0_2 (c : Dev nD) (t : Fin cfg0.N) : (dat0 V c).after 2 t = stg0_2 V c t := by dsimp only [dat0]
theorem after0_3 (c : Dev nD) (t : Fin cfg0.N) : (dat0 V c).after 3 t = stg0_3 V c t := by dsimp only [dat0]
theorem after0_4 (c : Dev nD) (t : Fin cfg0.N) :
    (dat0 V c).after 4 t = out0 (stg0_0 V c t) (stg0_1 V c t) (stg0_2 V c t) (stg0_3 V c t) := by dsimp only [dat0]

/-! ## Call 1: blocks and proof data, at the buffer contents `V` the call is entered with -/

/-- Window `w`'s block at grid point `t`, read off its array: the rows of the block that lie inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand's staging buffer after the body at point `t`, on the rows inside the array its block and past the array's end
    a filler nothing reads (the zero word). -/
def stg1_0 (c : Dev nD) (t : Fin cfg1.N) : Vec F S4096x128 .f32 :=
  win1_0.fill (grid1.coords t) (fun _ => Scalar.ofBits .f32 0#32) (iblk1 V c 0 t)
def stg1_1 (c : Dev nD) (t : Fin cfg1.N) : Vec F S4096x128 .f32 :=
  win1_1.fill (grid1.coords t) (fun _ => Scalar.ofBits .f32 0#32) (iblk1 V c 1 t)
def stg1_2 (c : Dev nD) (t : Fin cfg1.N) : Vec F S4096x128 .f32 :=
  win1_2.fill (grid1.coords t) (fun _ => Scalar.ofBits .f32 0#32) (iblk1 V c 2 t)
def stg1_3 (c : Dev nD) (t : Fin cfg1.N) : Vec F S4096x128 .f32 :=
  win1_3.fill (grid1.coords t) (fun _ => Scalar.ofBits .f32 0#32) (iblk1 V c 3 t)

/-- The proof data of call 1 on core `c`: the arrays as the call finds them; after the body at point `t` the operands'
    buffers at their blocks (filled out past the array's end) and the result's at the body's product of those; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => stg1_0 V c t
    | ⟨1, _⟩ => stg1_1 V c t
    | ⟨2, _⟩ => stg1_2 V c t
    | ⟨3, _⟩ => stg1_3 V c t
    | ⟨4, _⟩ => out1 (stg1_0 V c t) (stg1_1 V c t) (stg1_2 V c t) (stg1_3 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = stg1_0 V c t := by dsimp only [dat1]
theorem after1_1 (c : Dev nD) (t : Fin cfg1.N) : (dat1 V c).after 1 t = stg1_1 V c t := by dsimp only [dat1]
theorem after1_2 (c : Dev nD) (t : Fin cfg1.N) : (dat1 V c).after 2 t = stg1_2 V c t := by dsimp only [dat1]
theorem after1_3 (c : Dev nD) (t : Fin cfg1.N) : (dat1 V c).after 3 t = stg1_3 V c t := by dsimp only [dat1]
theorem after1_4 (c : Dev nD) (t : Fin cfg1.N) :
    (dat1 V c).after 4 t = out1 (stg1_0 V c t) (stg1_1 V c t) (stg1_2 V c t) (stg1_3 V c t) := by dsimp only [dat1]

end Cert.KernelIdeal.Fuse

end
-- ==== Proof.FuseObligI.lean ====
/-
  The body obligation of the two pallas_calls: at every grid point the body, handed each operand's staging buffer just
  fetched (its block on the rows inside the array, anything past the array's end) and the result's buffer at anything,
  leaves the operands' buffers as they were and the result's at conf · imp · (½ · pca + ½ · att), entry by entry — which on the
  rows inside the array is the product of the blocks, whatever lay past the end: the body is pointwise.
-/
import proofs.«156756_j43843026158044_2_alg».proof.Proof.FuseDataI
import Idealize.ShloMosaic.Lib.Pipeline.Value

set_option maxRecDepth 16384

noncomputable section

namespace Cert.KernelIdeal.Fuse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Call 0 -/

/-- One entry of the body's product depends on the same entry of the four operand buffers only. -/
def fuse0 (a b e g : Elt F .f32) : Elt F .f32 :=
  FloatOps.mulf (FloatOps.mulf a b)
    (FloatOps.addf (FloatOps.mulf (Scalar.ofBits .f32 0x3F000000#32) e) (FloatOps.mulf (Scalar.ofBits .f32 0x3F000000#32) g))

theorem out0_apply (x0 x1 x2 x3 : Vec F S4096x128 .f32) (y : S4096x128.Idx) :
    out0 x0 x1 x2 x3 y = fuse0 (x0 y) (x1 y) (x2 y) (x3 y) := by
  have hz : (![0, 0] : Fin 2 → Nat) = fun _ => 0 := funext fun a => by fin_cases a <;> rfl
  unfold out0
  rw [View.canon_unit_zero hz]
  simp only [View.ld_unit_zero (S := S4096x128) hz]
  unfold k0_pay1 fuse0
  simp only [shapeCast_self]
  rfl

/-- The operands' buffers are fetched at every point: on the rows inside the array the block, elsewhere what was there. -/
theorem before0_0 (c : Dev nD) (t : Fin cfg0.N) (d) :
    (dat0 V c).before 0 t d = win0_0.fill (grid0.coords t) d (iblk0 V c 0 t) :=
  ((dat0 V c).before_fetched 0 t (fetch0_0 t) d).trans (by unfold Dat.fetched Dat.blockOf iblk0; rfl)
theorem before0_1 (c : Dev nD) (t : Fin cfg0.N) (d) :
    (dat0 V c).before 1 t d = win0_1.fill (grid0.coords t) d (iblk0 V c 1 t) :=
  ((dat0 V c).before_fetched 1 t (fetch0_1 t) d).trans (by unfold Dat.fetched Dat.blockOf iblk0; rfl)
theorem before0_2 (c : Dev nD) (t : Fin cfg0.N) (d) :
    (dat0 V c).before 2 t d = win0_2.fill (grid0.coords t) d (iblk0 V c 2 t) :=
  ((dat0 V c).before_fetched 2 t (fetch0_2 t) d).trans (by unfold Dat.fetched Dat.blockOf iblk0; rfl)
theorem before0_3 (c : Dev nD) (t : Fin cfg0.N) (d) :
    (dat0 V c).before 3 t d = win0_3.fill (grid0.coords t) d (iblk0 V c 3 t) :=
  ((dat0 V c).before_fetched 3 t (fetch0_3 t) d).trans (by unfold Dat.fetched Dat.blockOf iblk0; rfl)
/-- The result's buffer is written back at every point: the body finds it at contents nothing names. -/
theorem before0_4 (c : Dev nD) (t : Fin cfg0.N) (d) : (dat0 V c).before 4 t d = d :=
  (dat0 V c).before_out_reset 4 rfl t
    (by by_cases h : t.val = 0
        · exact .inl h
        · exact .inr ⟨h, flush0_4 _⟩) d

/-- On the rows inside the array the body's product does not depend on what the operand buffers hold past the array's end. -/
theorem cut_out0 (i : grid0.Coords) (d0 d1 d2 d3 e0 e1 e2 e3 : Vec F S4096x128 .f32)
    (b0 : (win0_0.xblock i).Idx → Elt F .f32) (b1 : (win0_1.xblock i).Idx → Elt F .f32)
    (b2 : (win0_2.xblock i).Idx → Elt F .f32) (b3 : (win0_3.xblock i).Idx → Elt F .f32) :
    win0_4.cut i (out0 (win0_0.fill i d0 b0) (win0_1.fill i d1 b1) (win0_2.fill i d2 b2) (win0_3.fill i d3 b3))
      = win0_4.cut i (out0 (win0_0.fill i e0 b0) (win0_1.fill i e1 b1) (win0_2.fill i e2 b2) (win0_3.fill i e3 b3)) := by
  funext j
  show out0 _ _ _ _ (win0_4.xinj i j) = out0 _ _ _ _ (win0_4.xinj i j)
  rw [out0_apply, out0_apply]
  have h0 : ∀ d, win0_0.fill i d b0 (win0_4.xinj i j) = b0 j := fun d => win0_0.fill_xinj i d b0 j
  have h1 : ∀ d, win0_1.fill i d b1 (win0_4.xinj i j) = b1 j := fun d => win0_1.fill_xinj i d b1 j
  have h2 : ∀ d, win0_2.fill i d b2 (win0_4.xinj i j) = b2 j := fun d => win0_2.fill_xinj i d b2 j
  have h3 : ∀ d, win0_3.fill i d b3 (win0_4.xinj i j) = b3 j := fun d => win0_3.fill_xinj i d b3 j
  rw [h0, h0, h1, h1, h2, h2, h3, h3]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns: every buffer stated on the rows inside the array only. -/
def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ (∃ d, owns (c : Thread nD τ) (st0_1 t) fullShare (win0_1.fill (grid0.coords t) d (win0_1.cut (grid0.coords t) ((dat0 V c).after 1 t))))
    ∗ (∃ d, owns (c : Thread nD τ) (st0_2 t) fullShare (win0_2.fill (grid0.coords t) d (win0_2.cut (grid0.coords t) ((dat0 V c).after 2 t))))
    ∗ (∃ d, owns (c : Thread nD τ) (st0_3 t) fullShare (win0_3.fill (grid0.coords t) d (win0_3.cut (grid0.coords t) ((dat0 V c).after 3 t))))
    ∗ (∃ d, owns (c : Thread nD τ) (st0_4 t) fullShare (win0_4.fill (grid0.coords t) d (win0_4.cut (grid0.coords t) ((dat0 V c).after 4 t)))))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩⟩
  rw [before0_0 V c t d0, before0_1 V c t d1, before0_2 V c t d2, before0_3 V c t d3]
  iapply (sound_kernel0 c Set.univ (grid0.coords t) _ _ _ _ _ _ _ _ _ _
    (win0_0.fill (grid0.coords t) d0 (iblk0 V c 0 t)) (win0_1.fill (grid0.coords t) d1 (iblk0 V c 1 t))
    (win0_2.fill (grid0.coords t) d2 (iblk0 V c 2 t)) (win0_3.fill (grid0.coords t) d3 (iblk0 V c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  have c0 : win0_0.cut (grid0.coords t) ((dat0 V c).after 0 t) = iblk0 V c 0 t := by
    rw [after0_0]; exact win0_0.cut_fill _ _ _
  have c1 : win0_1.cut (grid0.coords t) ((dat0 V c).after 1 t) = iblk0 V c 1 t := by
    rw [after0_1]; exact win0_1.cut_fill _ _ _
  have c2 : win0_2.cut (grid0.coords t) ((dat0 V c).after 2 t) = iblk0 V c 2 t := by
    rw [after0_2]; exact win0_2.cut_fill _ _ _
  have c3 : win0_3.cut (grid0.coords t) ((dat0 V c).after 3 t) = iblk0 V c 3 t := by
    rw [after0_3]; exact win0_3.cut_fill _ _ _
  have c4 : win0_4.fill (grid0.coords t)
        (out0 (win0_0.fill (grid0.coords t) d0 (iblk0 V c 0 t)) (win0_1.fill (grid0.coords t) d1 (iblk0 V c 1 t))
          (win0_2.fill (grid0.coords t) d2 (iblk0 V c 2 t)) (win0_3.fill (grid0.coords t) d3 (iblk0 V c 3 t)))
        (win0_4.cut (grid0.coords t) ((dat0 V c).after 4 t))
      = out0 (win0_0.fill (grid0.coords t) d0 (iblk0 V c 0 t)) (win0_1.fill (grid0.coords t) d1 (iblk0 V c 1 t))
          (win0_2.fill (grid0.coords t) d2 (iblk0 V c 2 t)) (win0_3.fill (grid0.coords t) d3 (iblk0 V c 3 t)) := by
    rw [after0_4]
    exact win0_4.fill_congr_cut (grid0.coords t) (cut_out0 (grid0.coords t) _ _ _ _ _ _ _ _ _ _ _ _)
  rw [c0, c1, c2, c3]
  isplitl [H0]; · iexists d0; iexact H0
  isplitl [H1]; · iexists d1; iexact H1
  isplitl [H2]; · iexists d2; iexact H2
  isplitl [H3]; · iexists d3; iexact H3
  iexists _; rw [c4]; iexact H4

/-- The body obligation of call 0, at every point (every window stated on the rows inside the array). -/
theorem body_obligation0 (c : Dev nD) :
    BodyObligationLoose (dat0 (F := F) V c) (defs₀ (F := F)) Variants.none () Set.univ := fun t => by
  rw [bigSep_W0, bigSep_W0]
  exact sound_body0 V c t

/-! ## Call 1 -/

/-- One entry of the body's product depends on the same entry of the four operand buffers only. -/
def fuse1 (a b e g : Elt F .f32) : Elt F .f32 :=
  FloatOps.mulf (FloatOps.mulf a b)
    (FloatOps.addf (FloatOps.mulf (Scalar.ofBits .f32 0x3F000000#32) e) (FloatOps.mulf (Scalar.ofBits .f32 0x3F000000#32) g))

theorem out1_apply (x0 x1 x2 x3 : Vec F S4096x128 .f32) (y : S4096x128.Idx) :
    out1 x0 x1 x2 x3 y = fuse1 (x0 y) (x1 y) (x2 y) (x3 y) := by
  have hz : (![0, 0] : Fin 2 → Nat) = fun _ => 0 := funext fun a => by fin_cases a <;> rfl
  unfold out1
  rw [View.canon_unit_zero hz]
  simp only [View.ld_unit_zero (S := S4096x128) hz]
  unfold k1_pay1 fuse1
  simp only [shapeCast_self]
  rfl

/-- The operands' buffers are fetched at every point: on the rows inside the array the block, elsewhere what was there. -/
theorem before1_0 (c : Dev nD) (t : Fin cfg1.N) (d) :
    (dat1 V c).before 0 t d = win1_0.fill (grid1.coords t) d (iblk1 V c 0 t) :=
  ((dat1 V c).before_fetched 0 t (fetch1_0 t) d).trans (by unfold Dat.fetched Dat.blockOf iblk1; rfl)
theorem before1_1 (c : Dev nD) (t : Fin cfg1.N) (d) :
    (dat1 V c).before 1 t d = win1_1.fill (grid1.coords t) d (iblk1 V c 1 t) :=
  ((dat1 V c).before_fetched 1 t (fetch1_1 t) d).trans (by unfold Dat.fetched Dat.blockOf iblk1; rfl)
theorem before1_2 (c : Dev nD) (t : Fin cfg1.N) (d) :
    (dat1 V c).before 2 t d = win1_2.fill (grid1.coords t) d (iblk1 V c 2 t) :=
  ((dat1 V c).before_fetched 2 t (fetch1_2 t) d).trans (by unfold Dat.fetched Dat.blockOf iblk1; rfl)
theorem before1_3 (c : Dev nD) (t : Fin cfg1.N) (d) :
    (dat1 V c).before 3 t d = win1_3.fill (grid1.coords t) d (iblk1 V c 3 t) :=
  ((dat1 V c).before_fetched 3 t (fetch1_3 t) d).trans (by unfold Dat.fetched Dat.blockOf iblk1; rfl)
/-- The result's buffer is written back at every point: the body finds it at contents nothing names. -/
theorem before1_4 (c : Dev nD) (t : Fin cfg1.N) (d) : (dat1 V c).before 4 t d = d :=
  (dat1 V c).before_out_reset 4 rfl t
    (by by_cases h : t.val = 0
        · exact .inl h
        · exact .inr ⟨h, flush1_4 _⟩) d

/-- On the rows inside the array the body's product does not depend on what the operand buffers hold past the array's end. -/
theorem cut_out1 (i : grid1.Coords) (d0 d1 d2 d3 e0 e1 e2 e3 : Vec F S4096x128 .f32)
    (b0 : (win1_0.xblock i).Idx → Elt F .f32) (b1 : (win1_1.xblock i).Idx → Elt F .f32)
    (b2 : (win1_2.xblock i).Idx → Elt F .f32) (b3 : (win1_3.xblock i).Idx → Elt F .f32) :
    win1_4.cut i (out1 (win1_0.fill i d0 b0) (win1_1.fill i d1 b1) (win1_2.fill i d2 b2) (win1_3.fill i d3 b3))
      = win1_4.cut i (out1 (win1_0.fill i e0 b0) (win1_1.fill i e1 b1) (win1_2.fill i e2 b2) (win1_3.fill i e3 b3)) := by
  funext j
  show out1 _ _ _ _ (win1_4.xinj i j) = out1 _ _ _ _ (win1_4.xinj i j)
  rw [out1_apply, out1_apply]
  have h0 : ∀ d, win1_0.fill i d b0 (win1_4.xinj i j) = b0 j := fun d => win1_0.fill_xinj i d b0 j
  have h1 : ∀ d, win1_1.fill i d b1 (win1_4.xinj i j) = b1 j := fun d => win1_1.fill_xinj i d b1 j
  have h2 : ∀ d, win1_2.fill i d b2 (win1_4.xinj i j) = b2 j := fun d => win1_2.fill_xinj i d b2 j
  have h3 : ∀ d, win1_3.fill i d b3 (win1_4.xinj i j) = b3 j := fun d => win1_3.fill_xinj i d b3 j
  rw [h0, h0, h1, h1, h2, h2, h3, h3]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: every buffer stated on the rows inside the array only. -/
def bodyPost1 (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t))))
    ∗ (∃ d, owns (c : Thread nD τ) (st1_3 t) fullShare (win1_3.fill (grid1.coords t) d (win1_3.cut (grid1.coords t) ((dat1 V c).after 3 t))))
    ∗ (∃ d, owns (c : Thread nD τ) (st1_4 t) fullShare (win1_4.fill (grid1.coords t) d (win1_4.cut (grid1.coords t) ((dat1 V c).after 4 t)))))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩⟩
  rw [before1_0 V c t d0, before1_1 V c t d1, before1_2 V c t d2, before1_3 V c t d3]
  iapply (sound_kernel1 c Set.univ (grid1.coords t) _ _ _ _ _ _ _ _ _ _
    (win1_0.fill (grid1.coords t) d0 (iblk1 V c 0 t)) (win1_1.fill (grid1.coords t) d1 (iblk1 V c 1 t))
    (win1_2.fill (grid1.coords t) d2 (iblk1 V c 2 t)) (win1_3.fill (grid1.coords t) d3 (iblk1 V c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  have c0 : win1_0.cut (grid1.coords t) ((dat1 V c).after 0 t) = iblk1 V c 0 t := by
    rw [after1_0]; exact win1_0.cut_fill _ _ _
  have c1 : win1_1.cut (grid1.coords t) ((dat1 V c).after 1 t) = iblk1 V c 1 t := by
    rw [after1_1]; exact win1_1.cut_fill _ _ _
  have c2 : win1_2.cut (grid1.coords t) ((dat1 V c).after 2 t) = iblk1 V c 2 t := by
    rw [after1_2]; exact win1_2.cut_fill _ _ _
  have c3 : win1_3.cut (grid1.coords t) ((dat1 V c).after 3 t) = iblk1 V c 3 t := by
    rw [after1_3]; exact win1_3.cut_fill _ _ _
  have c4 : win1_4.fill (grid1.coords t)
        (out1 (win1_0.fill (grid1.coords t) d0 (iblk1 V c 0 t)) (win1_1.fill (grid1.coords t) d1 (iblk1 V c 1 t))
          (win1_2.fill (grid1.coords t) d2 (iblk1 V c 2 t)) (win1_3.fill (grid1.coords t) d3 (iblk1 V c 3 t)))
        (win1_4.cut (grid1.coords t) ((dat1 V c).after 4 t))
      = out1 (win1_0.fill (grid1.coords t) d0 (iblk1 V c 0 t)) (win1_1.fill (grid1.coords t) d1 (iblk1 V c 1 t))
          (win1_2.fill (grid1.coords t) d2 (iblk1 V c 2 t)) (win1_3.fill (grid1.coords t) d3 (iblk1 V c 3 t)) := by
    rw [after1_4]
    exact win1_4.fill_congr_cut (grid1.coords t) (cut_out1 (grid1.coords t) _ _ _ _ _ _ _ _ _ _ _ _)
  rw [c0, c1, c2, c3]
  isplitl [H0]; · iexists d0; iexact H0
  isplitl [H1]; · iexists d1; iexact H1
  isplitl [H2]; · iexists d2; iexact H2
  isplitl [H3]; · iexists d3; iexact H3
  iexists _; rw [c4]; iexact H4

/-- The body obligation of call 1, at every point (every window stated on the rows inside the array). -/
theorem body_obligation1 (c : Dev nD) :
    BodyObligationLoose (dat1 (F := F) V c) (defs₀ (F := F)) Variants.none () Set.univ := fun t => by
  rw [bigSep_W1, bigSep_W1]
  exact sound_body1 V c t

end Cert.KernelIdeal.Fuse

end
-- ==== Proof.FuseRunI.lean ====
/-
  The whole program's run: @main as sixteen segments — host operations, the first pallas_call, host operations, the second
  pallas_call, host operations — from the launch to the return.

  Between two segments every unscoped buffer of a core is held at a named valuation: the launch contents, then the fold of
  each stretch of host operations over it, then, after a pallas_call, the same with the call's result array replaced by
  what its eight write-backs leave (the proof data's `arrAt`). Every weakly fair execution terminates, and in every final
  state every unscoped buffer holds the last valuation: from this both the frame (no argument array is ever written) and
  the results' values are read.
-/
import proofs.«156756_j43843026158044_2_alg».proof.Proof.FuseObligI
import proofs.«156756_j43843026158044_2_alg».proof.Proof.Gen.KernelIdeal.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Fuse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the calls leave -/

/-- The buffers as the first call finds them. -/
abbrev Vin0 : (c : Dev nD) → (b : Ref sig .tc) → Buf (Elt F) ((c : Thread nD τ).loc b) := fun c b => V4 m c b

/-- A buffer after the first call: its result array at what the write-backs leave, every other buffer as entered. -/
def left0 (r : Ref sig .tc) (c : Dev nD) : Buf (Elt F) ((c : Thread nD τ).loc r) :=
  Pipeline.withArrays spec0 c (V4 m c) (fun w => (dat0 (Vin0 m) c).arrAt w cfg0.N) (Proc.devRef .tc r)

/-- The buffers as the second call finds them. -/
abbrev Vin1 : (c : Dev nD) → (b : Ref sig .tc) → Buf (Elt F) ((c : Thread nD τ).loc b) :=
  fun c b => V10 m (fun _ r c => left0 m r c) c b

/-- A buffer after the second call. -/
def left1 (r : Ref sig .tc) (c : Dev nD) : Buf (Elt F) ((c : Thread nD τ).loc r) :=
  Pipeline.withArrays spec1 c (V10 m (fun _ r c => left0 m r c) c) (fun w => (dat1 (Vin1 m) c).arrAt w cfg1.N) (Proc.devRef .tc r)

/-- What each call leaves in the buffers it may change: the first call's at the positions before the second, the second's after. -/
def outs : Outs (F := F) := fun n r c => if n < 8 then left0 m r c else left1 m r c

theorem outs_5 (r : Ref sig .tc) (c : Dev nD) : outs m 5 r c = left0 m r c := if_pos (by decide)
theorem outs_11 (r : Ref sig .tc) (c : Dev nD) : outs m 11 r c = left1 m r c := if_neg (by decide)

/-- The buffers after the first call, and after the second. -/
abbrev Vout0 : (c : Dev nD) → (b : Ref sig .tc) → Buf (Elt F) ((c : Thread nD τ).loc b) := fun c b => V5 m (outs m) c b
abbrev Vout1 : (c : Dev nD) → (b : Ref sig .tc) → Buf (Elt F) ((c : Thread nD τ).loc b) := fun c b => V11 m (outs m) c b

/-- The second call is entered from the same contents whichever of the two spellings names what the first left. -/
theorem V10_outs (c : Dev nD) : V10 m (outs m) c = V10 m (fun _ r c => left0 m r c) c := by
  have h5 : V5 m (outs m) c = V5 m (fun _ r c => left0 m r c) c :=
    congrArg (Function.update (V4 m c) (Proc.devRef .tc main_v25)) (outs_5 m main_v25 c)
  show StableHlo.after hostOps1_4 (StableHlo.after hostOps1_3 (StableHlo.after hostOps1_2 (StableHlo.after hostOps1_1
      (StableHlo.after hostOps1 (V5 m (outs m) c))))) = _
  rw [h5]

/-! ## The proof data family and the thread state -/

/-- Both calls' proof data, each at its call's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c
abbrev 𝒱₀ : Variants := Variants.none
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)

/-- At the first call's exit its arrays hold what the pipeline leaves (the four operand arrays what they held, the result's
    the write-backs' fold) and every other buffer what it held at entry. -/
theorem hF0 (c : Dev nD) (w : Fin cfg0.W) : (pdats m 0 c).arrAt w cfg0.N = Vout0 m c (Pipeline.arrRef spec0 w) := by
  have hin : ∀ w' : Fin cfg0.W, (cfg0.win w').isOut = false → Pipeline.arrRef spec0 w' ∉ ([main_v25] : List (Ref sig .tc)) →
      (pdats m 0 c).arrAt w' cfg0.N = Vout0 m c (Pipeline.arrRef spec0 w') := fun w' hw hne =>
    ((dat0 (Vin0 m) c).arrAt_in w' hw _).trans ((A_eq0 (Vin0 m) c w').trans (V5_of m (outs m) c _ hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ =>
    show (dat0 (Vin0 m) c).arrAt 4 cfg0.N = Function.update (V4 m c) (Proc.devRef .tc main_v25) (outs m 5 main_v25 c) (Proc.devRef .tc main_v25)
    rw [Function.update_self, outs_5]
    unfold left0
    exact (Pipeline.withArrays_arr spec0 launch0.win.arr_inj c (V4 m c) (fun w => (dat0 (Vin0 m) c).arrAt w cfg0.N) 4).symm
theorem hrest0 (c : Dev nD) : ∀ b, b ∉ Finset.univ.image (Pipeline.arrRef spec0) → Vout0 m c b = Vin0 m c b :=
  fun b hb => V5_of m (outs m) c b (fun h => hb (Finset.mem_image.mpr ⟨4, Finset.mem_univ _, (List.mem_singleton.mp h).symm⟩))

theorem hF1 (c : Dev nD) (w : Fin cfg1.W) : (pdats m 1 c).arrAt w cfg1.N = Vout1 m c (Pipeline.arrRef spec1 w) := by
  have hin : ∀ w' : Fin cfg1.W, (cfg1.win w').isOut = false → Pipeline.arrRef spec1 w' ∉ ([main_v74] : List (Ref sig .tc)) →
      (pdats m 1 c).arrAt w' cfg1.N = Vout1 m c (Pipeline.arrRef spec1 w') := fun w' hw hne =>
    ((dat1 (Vin1 m) c).arrAt_in w' hw _).trans ((A_eq1 (Vin1 m) c w').trans
      ((congrFun (V10_outs m c) _).symm.trans (V11_of m (outs m) c _ hne).symm))
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ =>
    show (dat1 (Vin1 m) c).arrAt 4 cfg1.N = Function.update (V10 m (outs m) c) (Proc.devRef .tc main_v74) (outs m 11 main_v74 c) (Proc.devRef .tc main_v74)
    rw [Function.update_self, outs_11]
    unfold left1
    exact (Pipeline.withArrays_arr spec1 launch1.win.arr_inj c (V10 m (fun _ r c => left0 m r c) c) (fun w => (dat1 (Vin1 m) c).arrAt w cfg1.N) 4).symm
theorem hrest1 (c : Dev nD) : ∀ b, b ∉ Finset.univ.image (Pipeline.arrRef spec1) → Vout1 m c b = Vin1 m c b :=
  fun b hb => (V11_of m (outs m) c b (fun h => hb (Finset.mem_image.mpr ⟨4, Finset.mem_univ _, (List.mem_singleton.mp h).symm⟩))).trans
    (congrFun (V10_outs m c) _)

/-! ## The calls as segments -/

-- `iapply` of a library lemma stated over `pin pcs a p` unifies with the pinned configuration only when unification may
-- unfold plain definitions in a metavariable's type
set_option backward.isDefEq.respectTransparency.types false in
/-- Call 0 as a segment of the program: entered with every unscoped buffer at the contents the host operations before it
    leave, left with the result's array at what the eight write-backs leave and every other buffer as entered. Its arrays are
    split out of the unscoped buffers and put back; the generator register goes into the invariant and comes out; nothing
    is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (Vin0 m) c
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Call 1 as a segment of the program: entered with every unscoped buffer at the contents the host operations before it
    leave, left with the result's array at what the eight write-backs leave and every other buffer as entered. Its arrays are
    split out of the unscoped buffers and put back; the generator register goes into the invariant and comes out; nothing
    is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (Vin1 m) c
  hwaits := Pipeline.hwaits_of_owed_zero _ _ _ _ L lv 1 fun _ _ => rfl
  pre c := iprop(StableHlo.held (c : Thread nD τ) (Pipeline.ucRefs τ sig) (V10 m (fun _ r c => left0 m r c) c) ∗ R c)
  post c := iprop(StableHlo.held (c : Thread nD τ) (Pipeline.ucRefs τ sig) (V11 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the library theorem's implicit arguments are found by unifying its conclusion with this one, which takes unfolding
-- plain definitions in a metavariable's type
set_option backward.isDefEq.respectTransparency.types false in
/-- THE RUN. At the compiled mesh, for any float values, from any memory with zero counters: every weakly fair execution of
    @main terminates, nothing faulting, and in every final state every unscoped buffer of every core holds the last
    valuation — the launch contents carried through the sixteen segments. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V16 m (outs m) c b) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m))
    (fun c Q => by
      rewrite [main_chain c, Seg.run_eq_chain,
        show (segs m (outs m) 𝒱₀ L lv (fun _ => R) () (pdats m) (reg0 m) (reg1 m) c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V16 m (outs m) c) ∗ ∃ r, prngReg c r))
    (hch := fun c => ⟨.rfl, .rfl, .rfl, .rfl, .rfl, .rfl, .rfl, .rfl, .rfl, .rfl,
      Entails.of_eq (by
        show iprop(StableHlo.held (c : Thread nD τ) (Pipeline.ucRefs τ sig) (V10 m (outs m) c) ∗ R c)
          = iprop(StableHlo.held (c : Thread nD τ) (Pipeline.ucRefs τ sig) (V10 m (fun _ r c => left0 m r c) c) ∗ R c)
        rw [V10_outs m c]), .rfl, .rfl, .rfl, .rfl, .rfl,
      (by
        show iprop(StableHlo.held (c : Thread nD τ) (Pipeline.ucRefs τ sig) (V16 m (outs m) c) ∗ R c)
          ⊢ iprop((StableHlo.held (c : Thread nD τ) (Pipeline.ucRefs τ sig) (V16 m (outs m) c) ∗ ∃ r, prngReg c r)
              ∗ ∃ W, owes (c : Thread nD τ) (0 : CellTallies nD τ sig Unit) W)
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V16 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V16 m (outs m) c) s')
      isplitl [Hh] <;> iassumption)
    (hQ := fun s h => h)

/-- THE FRAME: no host operation and no pallas_call writes an argument array, so each ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (V16_main_arg0 m (outs m) c),
     (h c _ (mem_uc main_arg1 (by decide))).trans (V16_main_arg1 m (outs m) c),
     (h c _ (mem_uc main_arg2 (by decide))).trans (V16_main_arg2 m (outs m) c),
     (h c _ (mem_uc main_arg3 (by decide))).trans (V16_main_arg3 m (outs m) c),
     (h c _ (mem_uc main_arg4 (by decide))).trans (V16_main_arg4 m (outs m) c),
     (h c _ (mem_uc main_arg5 (by decide))).trans (V16_main_arg5 m (outs m) c),
     (h c _ (mem_uc main_arg6 (by decide))).trans (V16_main_arg6 m (outs m) c),
     (h c _ (mem_uc main_arg7 (by decide))).trans (V16_main_arg7 m (outs m) c),
     (h c _ (mem_uc main_arg8 (by decide))).trans (V16_main_arg8 m (outs m) c),
     (h c _ (mem_uc main_arg9 (by decide))).trans (V16_main_arg9 m (outs m) c),
     (h c _ (mem_uc main_arg10 (by decide))).trans (V16_main_arg10 m (outs m) c),
     (h c _ (mem_uc main_arg11 (by decide))).trans (V16_main_arg11 m (outs m) c)⟩) (run_all m ρ)

end Cert.KernelIdeal.Fuse

end
-- ==== Proof.FuseValueI.lean ====
/-
  The value of the two pallas_calls' result arrays.

  Each call runs its pointwise body over a grid of 8 points; point t fetches rows 4096·t … 4096·t + 4095 of the four operand
  arrays (31250 rows of 128 lanes; at the last point only the 2578 rows that lie inside the arrays) and writes the same rows
  of the result back. Every row r of the result is therefore written by point r / 4096, with the body's value
  conf · imp · (½ · pca + ½ · att) of the four operands' entries at the same row and lane: after the eight write-backs the
  result array is that one function of the operand arrays, index by index.
-/
import proofs.«156756_j43843026158044_2_alg».proof.Proof.FuseObligI
import Idealize.ShloMosaic.Lib.Pipeline.Value
import Idealize.ShloMosaic.Lib.ValueIdx

set_option maxRecDepth 16384

noncomputable section

namespace Cert.KernelIdeal.Fuse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

/-! ## Call 0: the result array after the eight write-backs -/

/-- The result as one function of the four operand arrays: at every index the body's value of the
    operands' entries there. -/
abbrev G0 (a0 a1 a2 a3 : S31250x128.Idx → Elt F .f32) : S31250x128.Idx → Elt F .f32 :=
  fun i => fuse0 (a0 i) (a1 i) (a2 i) (a3 i)

/-- The index maps, decided once over the eight points: every operand's block index is the result's; the
    result's is (point, 0); every block keeps its 128 lanes; the first seven blocks keep their 4096 rows and
    the eighth keeps the 2578 rows that lie inside the array. -/
theorem idx_facts0 : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 2) = win0_4.index t (0 : Fin 2) ∧ win0_2.index t (1 : Fin 2) = win0_4.index t (1 : Fin 2)
    ∧ win0_3.index t (0 : Fin 2) = win0_4.index t (0 : Fin 2) ∧ win0_3.index t (1 : Fin 2) = win0_4.index t (1 : Fin 2)
    ∧ win0_4.index t (0 : Fin 2) = t.val ∧ win0_4.index t (1 : Fin 2) = 0
    ∧ win0_4.xsize (grid0.coords t) (1 : Fin 2) = 128
    ∧ (t.val < 7 → win0_4.xsize (grid0.coords t) (0 : Fin 2) = 4096)
    ∧ (t.val = 7 → win0_4.xsize (grid0.coords t) (0 : Fin 2) = 2578) :=
  (by decide +kernel : ∀ t : Fin grid0.N, _)

/-- What point `t` writes back is block `t` of `G0` of the operand arrays. -/
theorem flushed0_eq (c : Dev nD) (t : Fin cfg0.N) :
    (dat0 V c).flushed 4 t
      = ((cfg0.win 4).blk t).view.read (Elt F) (G0 (V c main_v21) (V c main_v22) (V c main_v23) (V c main_v24)) := by
  show (cfg0.win 4).cut (grid0.coords t) ((dat0 V c).after 4 t) = _
  rw [after0_4]
  funext j
  show out0 (stg0_0 V c t) (stg0_1 V c t) (stg0_2 V c t) (stg0_3 V c t) (win0_4.xinj (grid0.coords t) j) = _
  rw [out0_apply]
  unfold stg0_0 stg0_1 stg0_2 stg0_3
  have h0 : win0_0.fill (grid0.coords t) (fun _ => Scalar.ofBits .f32 0#32) (iblk0 V c 0 t) (win0_4.xinj (grid0.coords t) j) = iblk0 V c 0 t j :=
    win0_0.fill_xinj (grid0.coords t) _ (iblk0 V c 0 t) j
  have h1 : win0_1.fill (grid0.coords t) (fun _ => Scalar.ofBits .f32 0#32) (iblk0 V c 1 t) (win0_4.xinj (grid0.coords t) j) = iblk0 V c 1 t j :=
    win0_1.fill_xinj (grid0.coords t) _ (iblk0 V c 1 t) j
  have h2 : win0_2.fill (grid0.coords t) (fun _ => Scalar.ofBits .f32 0#32) (iblk0 V c 2 t) (win0_4.xinj (grid0.coords t) j) = iblk0 V c 2 t j :=
    win0_2.fill_xinj (grid0.coords t) _ (iblk0 V c 2 t) j
  have h3 : win0_3.fill (grid0.coords t) (fun _ => Scalar.ofBits .f32 0#32) (iblk0 V c 3 t) (win0_4.xinj (grid0.coords t) j) = iblk0 V c 3 t j :=
    win0_3.fill_xinj (grid0.coords t) _ (iblk0 V c 3 t) j
  rw [h0, h1, h2, h3]
  obtain ⟨e00, e01, e10, e11, e20, e21, e30, e31, -, -, -, -, -⟩ := idx_facts0 t
  show fuse0 (V c main_v21 (((cfg0.win 0).blk t).view.emb j)) (V c main_v22 (((cfg0.win 1).blk t).view.emb j))
      (V c main_v23 (((cfg0.win 2).blk t).view.emb j)) (V c main_v24 (((cfg0.win 3).blk t).view.emb j))
    = fuse0 (V c main_v21 (((cfg0.win 4).blk t).view.emb j)) (V c main_v22 (((cfg0.win 4).blk t).view.emb j))
      (V c main_v23 (((cfg0.win 4).blk t).view.emb j)) (V c main_v24 (((cfg0.win 4).blk t).view.emb j))
  have k0 : ((cfg0.win 0).blk t).view.emb j = ((cfg0.win 4).blk t).view.emb j := by
    funext a; apply Fin.ext
    match a with
    | ⟨0, _⟩ => show win0_0.index t (0 : Fin 2) * 4096 + 1 * (j 0).val = win0_4.index t (0 : Fin 2) * 4096 + 1 * (j 0).val; rw [e00]
    | ⟨1, _⟩ => show win0_0.index t (1 : Fin 2) * 128 + 1 * (j 1).val = win0_4.index t (1 : Fin 2) * 128 + 1 * (j 1).val; rw [e01]
  have k1 : ((cfg0.win 1).blk t).view.emb j = ((cfg0.win 4).blk t).view.emb j := by
    funext a; apply Fin.ext
    match a with
    | ⟨0, _⟩ => show win0_1.index t (0 : Fin 2) * 4096 + 1 * (j 0).val = win0_4.index t (0 : Fin 2) * 4096 + 1 * (j 0).val; rw [e10]
    | ⟨1, _⟩ => show win0_1.index t (1 : Fin 2) * 128 + 1 * (j 1).val = win0_4.index t (1 : Fin 2) * 128 + 1 * (j 1).val; rw [e11]
  have k2 : ((cfg0.win 2).blk t).view.emb j = ((cfg0.win 4).blk t).view.emb j := by
    funext a; apply Fin.ext
    match a with
    | ⟨0, _⟩ => show win0_2.index t (0 : Fin 2) * 4096 + 1 * (j 0).val = win0_4.index t (0 : Fin 2) * 4096 + 1 * (j 0).val; rw [e20]
    | ⟨1, _⟩ => show win0_2.index t (1 : Fin 2) * 128 + 1 * (j 1).val = win0_4.index t (1 : Fin 2) * 128 + 1 * (j 1).val; rw [e21]
  have k3 : ((cfg0.win 3).blk t).view.emb j = ((cfg0.win 4).blk t).view.emb j := by
    funext a; apply Fin.ext
    match a with
    | ⟨0, _⟩ => show win0_3.index t (0 : Fin 2) * 4096 + 1 * (j 0).val = win0_4.index t (0 : Fin 2) * 4096 + 1 * (j 0).val; rw [e30]
    | ⟨1, _⟩ => show win0_3.index t (1 : Fin 2) * 128 + 1 * (j 1).val = win0_4.index t (1 : Fin 2) * 128 + 1 * (j 1).val; rw [e31]
  rw [k0, k1, k2, k3]

/-- An index of the array is in point `t`'s block iff on each axis its coordinate is among the block's
    coordinates that lie inside the array. -/
theorem mem_blk0 (t : Fin cfg0.N) (i : S31250x128.Idx) :
    i ∈ ((cfg0.win 4).blk t).view.set ↔ ∀ a : Fin 2, win0_4.index t a * S4096x128.size a ≤ (i a).val
      ∧ (i a).val < win0_4.index t a * S4096x128.size a + win0_4.xsize (grid0.coords t) a := by
  show i ∈ ((View.whole main_v25).slice (win0_4.rect t)).set ↔ _
  rw [View.set_slice_whole, Rect.mem_set_unit]
  exact Iff.rfl

/-- Row `r` is written back by point `r / 4096`. -/
theorem covered0 (i : S31250x128.Idx) :
    ∃ t : Fin cfg0.N, (cfg0.win 4).flush t = true ∧ i ∈ ((cfg0.win 4).blk t).view.set := by
  have hi0 : (i 0).val < 31250 := (i 0).isLt
  have hi1 : (i 1).val < 128 := (i 1).isLt
  have hN : cfg0.N = 8 := N_0
  have hq : (i 0).val / 4096 < cfg0.N := by rw [hN]; omega
  refine ⟨⟨(i 0).val / 4096, hq⟩, flush0_4 _, ?_⟩
  obtain ⟨-, -, -, -, -, -, -, -, f0, f1, x1, xa, xb⟩ := idx_facts0 ⟨(i 0).val / 4096, hq⟩
  have f0' : win0_4.index ⟨(i 0).val / 4096, hq⟩ (0 : Fin 2) = (i 0).val / 4096 := f0
  rw [mem_blk0]
  intro a
  match a with
  | ⟨0, _⟩ =>
    show win0_4.index ⟨(i 0).val / 4096, hq⟩ (0 : Fin 2) * 4096 ≤ (i 0).val
      ∧ (i 0).val < win0_4.index ⟨(i 0).val / 4096, hq⟩ (0 : Fin 2) * 4096 + win0_4.xsize (grid0.coords ⟨(i 0).val / 4096, hq⟩) (0 : Fin 2)
    rw [f0']
    by_cases h7 : (i 0).val / 4096 = 7
    · rw [xb h7]; omega
    · rw [xa (by show (i 0).val / 4096 < 7; omega)]; omega
  | ⟨1, _⟩ =>
    show win0_4.index ⟨(i 0).val / 4096, hq⟩ (1 : Fin 2) * 128 ≤ (i 1).val
      ∧ (i 1).val < win0_4.index ⟨(i 0).val / 4096, hq⟩ (1 : Fin 2) * 128 + win0_4.xsize (grid0.coords ⟨(i 0).val / 4096, hq⟩) (1 : Fin 2)
    rw [f1, x1]; omega

/-- The result array after the eight write-backs: at every index the body's value of the four operand
    arrays' entries there. -/
theorem final0 (c : Dev nD) :
    (dat0 V c).arrAt 4 cfg0.N
      = fun i : S31250x128.Idx => fuse0 (V c main_v21 i) (V c main_v22 i) (V c main_v23 i) (V c main_v24 i) :=
  (dat0 V c).arrAt_eq_of_cover 4 (G0 (V c main_v21) (V c main_v22) (V c main_v23) (V c main_v24))
    (fun t _ => flushed0_eq V c t) covered0

/-! ## Call 1: the result array after the eight write-backs -/

/-- The result as one function of the four operand arrays: at every index the body's value of the
    operands' entries there. -/
abbrev G1 (a0 a1 a2 a3 : S31250x128.Idx → Elt F .f32) : S31250x128.Idx → Elt F .f32 :=
  fun i => fuse1 (a0 i) (a1 i) (a2 i) (a3 i)

/-- The index maps, decided once over the eight points: every operand's block index is the result's; the
    result's is (point, 0); every block keeps its 128 lanes; the first seven blocks keep their 4096 rows and
    the eighth keeps the 2578 rows that lie inside the array. -/
theorem idx_facts1 : ∀ t : Fin cfg1.N,
    win1_0.index t (0 : Fin 2) = win1_4.index t (0 : Fin 2) ∧ win1_0.index t (1 : Fin 2) = win1_4.index t (1 : Fin 2)
    ∧ win1_1.index t (0 : Fin 2) = win1_4.index t (0 : Fin 2) ∧ win1_1.index t (1 : Fin 2) = win1_4.index t (1 : Fin 2)
    ∧ win1_2.index t (0 : Fin 2) = win1_4.index t (0 : Fin 2) ∧ win1_2.index t (1 : Fin 2) = win1_4.index t (1 : Fin 2)
    ∧ win1_3.index t (0 : Fin 2) = win1_4.index t (0 : Fin 2) ∧ win1_3.index t (1 : Fin 2) = win1_4.index t (1 : Fin 2)
    ∧ win1_4.index t (0 : Fin 2) = t.val ∧ win1_4.index t (1 : Fin 2) = 0
    ∧ win1_4.xsize (grid1.coords t) (1 : Fin 2) = 128
    ∧ (t.val < 7 → win1_4.xsize (grid1.coords t) (0 : Fin 2) = 4096)
    ∧ (t.val = 7 → win1_4.xsize (grid1.coords t) (0 : Fin 2) = 2578) :=
  (by decide +kernel : ∀ t : Fin grid1.N, _)

/-- What point `t` writes back is block `t` of `G1` of the operand arrays. -/
theorem flushed1_eq (c : Dev nD) (t : Fin cfg1.N) :
    (dat1 V c).flushed 4 t
      = ((cfg1.win 4).blk t).view.read (Elt F) (G1 (V c main_v70) (V c main_v71) (V c main_v72) (V c main_v73)) := by
  show (cfg1.win 4).cut (grid1.coords t) ((dat1 V c).after 4 t) = _
  rw [after1_4]
  funext j
  show out1 (stg1_0 V c t) (stg1_1 V c t) (stg1_2 V c t) (stg1_3 V c t) (win1_4.xinj (grid1.coords t) j) = _
  rw [out1_apply]
  unfold stg1_0 stg1_1 stg1_2 stg1_3
  have h0 : win1_0.fill (grid1.coords t) (fun _ => Scalar.ofBits .f32 0#32) (iblk1 V c 0 t) (win1_4.xinj (grid1.coords t) j) = iblk1 V c 0 t j :=
    win1_0.fill_xinj (grid1.coords t) _ (iblk1 V c 0 t) j
  have h1 : win1_1.fill (grid1.coords t) (fun _ => Scalar.ofBits .f32 0#32) (iblk1 V c 1 t) (win1_4.xinj (grid1.coords t) j) = iblk1 V c 1 t j :=
    win1_1.fill_xinj (grid1.coords t) _ (iblk1 V c 1 t) j
  have h2 : win1_2.fill (grid1.coords t) (fun _ => Scalar.ofBits .f32 0#32) (iblk1 V c 2 t) (win1_4.xinj (grid1.coords t) j) = iblk1 V c 2 t j :=
    win1_2.fill_xinj (grid1.coords t) _ (iblk1 V c 2 t) j
  have h3 : win1_3.fill (grid1.coords t) (fun _ => Scalar.ofBits .f32 0#32) (iblk1 V c 3 t) (win1_4.xinj (grid1.coords t) j) = iblk1 V c 3 t j :=
    win1_3.fill_xinj (grid1.coords t) _ (iblk1 V c 3 t) j
  rw [h0, h1, h2, h3]
  obtain ⟨e00, e01, e10, e11, e20, e21, e30, e31, -, -, -, -, -⟩ := idx_facts1 t
  show fuse1 (V c main_v70 (((cfg1.win 0).blk t).view.emb j)) (V c main_v71 (((cfg1.win 1).blk t).view.emb j))
      (V c main_v72 (((cfg1.win 2).blk t).view.emb j)) (V c main_v73 (((cfg1.win 3).blk t).view.emb j))
    = fuse1 (V c main_v70 (((cfg1.win 4).blk t).view.emb j)) (V c main_v71 (((cfg1.win 4).blk t).view.emb j))
      (V c main_v72 (((cfg1.win 4).blk t).view.emb j)) (V c main_v73 (((cfg1.win 4).blk t).view.emb j))
  have k0 : ((cfg1.win 0).blk t).view.emb j = ((cfg1.win 4).blk t).view.emb j := by
    funext a; apply Fin.ext
    match a with
    | ⟨0, _⟩ => show win1_0.index t (0 : Fin 2) * 4096 + 1 * (j 0).val = win1_4.index t (0 : Fin 2) * 4096 + 1 * (j 0).val; rw [e00]
    | ⟨1, _⟩ => show win1_0.index t (1 : Fin 2) * 128 + 1 * (j 1).val = win1_4.index t (1 : Fin 2) * 128 + 1 * (j 1).val; rw [e01]
  have k1 : ((cfg1.win 1).blk t).view.emb j = ((cfg1.win 4).blk t).view.emb j := by
    funext a; apply Fin.ext
    match a with
    | ⟨0, _⟩ => show win1_1.index t (0 : Fin 2) * 4096 + 1 * (j 0).val = win1_4.index t (0 : Fin 2) * 4096 + 1 * (j 0).val; rw [e10]
    | ⟨1, _⟩ => show win1_1.index t (1 : Fin 2) * 128 + 1 * (j 1).val = win1_4.index t (1 : Fin 2) * 128 + 1 * (j 1).val; rw [e11]
  have k2 : ((cfg1.win 2).blk t).view.emb j = ((cfg1.win 4).blk t).view.emb j := by
    funext a; apply Fin.ext
    match a with
    | ⟨0, _⟩ => show win1_2.index t (0 : Fin 2) * 4096 + 1 * (j 0).val = win1_4.index t (0 : Fin 2) * 4096 + 1 * (j 0).val; rw [e20]
    | ⟨1, _⟩ => show win1_2.index t (1 : Fin 2) * 128 + 1 * (j 1).val = win1_4.index t (1 : Fin 2) * 128 + 1 * (j 1).val; rw [e21]
  have k3 : ((cfg1.win 3).blk t).view.emb j = ((cfg1.win 4).blk t).view.emb j := by
    funext a; apply Fin.ext
    match a with
    | ⟨0, _⟩ => show win1_3.index t (0 : Fin 2) * 4096 + 1 * (j 0).val = win1_4.index t (0 : Fin 2) * 4096 + 1 * (j 0).val; rw [e30]
    | ⟨1, _⟩ => show win1_3.index t (1 : Fin 2) * 128 + 1 * (j 1).val = win1_4.index t (1 : Fin 2) * 128 + 1 * (j 1).val; rw [e31]
  rw [k0, k1, k2, k3]

/-- An index of the array is in point `t`'s block iff on each axis its coordinate is among the block's
    coordinates that lie inside the array. -/
theorem mem_blk1 (t : Fin cfg1.N) (i : S31250x128.Idx) :
    i ∈ ((cfg1.win 4).blk t).view.set ↔ ∀ a : Fin 2, win1_4.index t a * S4096x128.size a ≤ (i a).val
      ∧ (i a).val < win1_4.index t a * S4096x128.size a + win1_4.xsize (grid1.coords t) a := by
  show i ∈ ((View.whole main_v74).slice (win1_4.rect t)).set ↔ _
  rw [View.set_slice_whole, Rect.mem_set_unit]
  exact Iff.rfl

/-- Row `r` is written back by point `r / 4096`. -/
theorem covered1 (i : S31250x128.Idx) :
    ∃ t : Fin cfg1.N, (cfg1.win 4).flush t = true ∧ i ∈ ((cfg1.win 4).blk t).view.set := by
  have hi0 : (i 0).val < 31250 := (i 0).isLt
  have hi1 : (i 1).val < 128 := (i 1).isLt
  have hN : cfg1.N = 8 := N_1
  have hq : (i 0).val / 4096 < cfg1.N := by rw [hN]; omega
  refine ⟨⟨(i 0).val / 4096, hq⟩, flush1_4 _, ?_⟩
  obtain ⟨-, -, -, -, -, -, -, -, f0, f1, x1, xa, xb⟩ := idx_facts1 ⟨(i 0).val / 4096, hq⟩
  have f0' : win1_4.index ⟨(i 0).val / 4096, hq⟩ (0 : Fin 2) = (i 0).val / 4096 := f0
  rw [mem_blk1]
  intro a
  match a with
  | ⟨0, _⟩ =>
    show win1_4.index ⟨(i 0).val / 4096, hq⟩ (0 : Fin 2) * 4096 ≤ (i 0).val
      ∧ (i 0).val < win1_4.index ⟨(i 0).val / 4096, hq⟩ (0 : Fin 2) * 4096 + win1_4.xsize (grid1.coords ⟨(i 0).val / 4096, hq⟩) (0 : Fin 2)
    rw [f0']
    by_cases h7 : (i 0).val / 4096 = 7
    · rw [xb h7]; omega
    · rw [xa (by show (i 0).val / 4096 < 7; omega)]; omega
  | ⟨1, _⟩ =>
    show win1_4.index ⟨(i 0).val / 4096, hq⟩ (1 : Fin 2) * 128 ≤ (i 1).val
      ∧ (i 1).val < win1_4.index ⟨(i 0).val / 4096, hq⟩ (1 : Fin 2) * 128 + win1_4.xsize (grid1.coords ⟨(i 0).val / 4096, hq⟩) (1 : Fin 2)
    rw [f1, x1]; omega

/-- The result array after the eight write-backs: at every index the body's value of the four operand
    arrays' entries there. -/
theorem final1 (c : Dev nD) :
    (dat1 V c).arrAt 4 cfg1.N
      = fun i : S31250x128.Idx => fuse1 (V c main_v70 i) (V c main_v71 i) (V c main_v72 i) (V c main_v73 i) :=
  (dat1 V c).arrAt_eq_of_cover 4 (G1 (V c main_v70) (V c main_v71) (V c main_v72) (V c main_v73))
    (fun t _ => flushed1_eq V c t) covered1

end Cert.KernelIdeal.Fuse

end
-- ==== Proof.TailDefs.lean ====
/-
  The two host tails of the certificate, each as ONE function of what enters it, over any float instance.

  Both programs end the same way on each side (source / target graph): from the per-edge values `v` (4,000,000 of them) and the
  two rows `p0`, `p1` of the edge list, form the degree of every node — the sum of the values of the edges that start at it,
  plus one for the node's own unit diagonal entry —, its inverse square root `dinv` (zero where the degree is not positive),
  and return the edge values scaled by `dinv` at both end points, followed by the 200,000 diagonal entries `dinv · dinv`.
  The kernel's program adds the diagonal's one after the scatter and multiplies `dinv` by itself (`kerTail`); the reference
  appends 200,000 ones and the identity's indices to the edge list before it scatters and gathers (`refTail`).
-/
import proofs.«156756_j43843026158044_2_alg».proof.Proof.Gen.KernelIdeal
import proofs.«156756_j43843026158044_2_alg».proof.Proof.Gen.ReferenceIdeal

noncomputable section

namespace Cert.Tail

open Idealize.ShloMosaic

variable {F : FTy → Type} [FloatOps F]

section Kernel
open Cert.KernelIdeal Cert.KernelIdeal.Facts₀

/-- The inverse square root of a degree vector, zero where the degree is not positive (the kernel program's spelling). -/
def dinvK (deg : FVec F S200000 .f32) : FVec F S200000 .f32 :=
  select (cmpf .ogt deg (broadcastInDim S200000 ![] bcast_S_S200000 (constant S_ .f32 0x00000000#32)))
    (Host.rsqrt (select (cmpf .ogt deg (broadcastInDim S200000 ![] bcast_S_S200000 (constant S_ .f32 0x00000000#32))) deg
      (broadcastInDim S200000 ![] bcast_S_S200000 (id (constant S_ .f32 0x3F800000#32)))))
    (broadcastInDim S200000 ![] bcast_S_S200000 (id (constant S_ .f32 0x00000000#32)))

/-- A node index as the gather takes it: a negative one counted from the end. -/
def wrapK (p : IVec S4000000 32) : IVec S4000000 32 :=
  select (cmpi .slt p (broadcastInDim S4000000 ![] bcast_S_S4000000 (constantI S_ 32 0#32)))
    (addi p (broadcastInDim S4000000 ![] bcast_S_S4000000 (constantI S_ 32 200000#32))) p

/-- The degrees as the kernel's program forms them: the edges' values summed at their start nodes, plus one. -/
def degK (v : FVec F S4000000 .f32) (p0 : IVec S4000000 32) : FVec F S200000 .f32 :=
  addf (Host.scatterAdd scatter_S200000_S4000000x1_S4000000_n_0_0_1
      (broadcastInDim S200000 ![] bcast_S_S200000 (constant S_ .f32 0x00000000#32))
      (broadcastInDim S4000000x1 ![0] bcast_S4000000_S4000000x1_0 p0) v)
    (broadcastInDim S200000 ![] bcast_S_S200000 (constant S_ .f32 0x3F800000#32))

/-- The kernel program's tail: scaled edge values, then `dinv · dinv`. -/
def kerTail (v : FVec F S4000000 .f32) (p0 p1 : IVec S4000000 32) : FVec F S4200000 .f32 :=
  concatenate S4200000 0
    [⟨S4000000, mulf (mulf v (Host.gather gather_S200000_S4000000x1_S4000000_n_0_n_n_0_1_1 (dinvK (degK v p0))
        (broadcastInDim S4000000x1 ![0] bcast_S4000000_S4000000x1_0 (wrapK p0))))
      (Host.gather gather_S200000_S4000000x1_S4000000_n_0_n_n_0_1_1 (dinvK (degK v p0))
        (broadcastInDim S4000000x1 ![0] bcast_S4000000_S4000000x1_0 (wrapK p1)))⟩,
     ⟨S200000, mulf (dinvK (degK v p0)) (dinvK (degK v p0))⟩] concatenates_S4000000_S200000_S4200000_d0

end Kernel

section Reference
open Cert.ReferenceIdeal Cert.ReferenceIdeal.Facts₀

/-- The inverse square root of a degree vector, zero where the degree is not positive (the reference's spelling). -/
def dinvR (deg : FVec F S200000 .f32) : FVec F S200000 .f32 :=
  select (cmpf .ogt deg (broadcastInDim S200000 ![] bcast_S_S200000 (constant S_ .f32 0x00000000#32)))
    (Host.rsqrt (select (cmpf .ogt deg (broadcastInDim S200000 ![] bcast_S_S200000 (constant S_ .f32 0x00000000#32))) deg
      (broadcastInDim S200000 ![] bcast_S_S200000 (id (constant S_ .f32 0x3F800000#32)))))
    (broadcastInDim S200000 ![] bcast_S_S200000 (id (constant S_ .f32 0x00000000#32)))

/-- A row of the edge list followed by the identity's indices 0, 1, …, 199999. -/
def withDiag (p : IVec S4000000 32) : IVec S4200000 32 :=
  concatenate S4200000 0 [⟨S4000000, p⟩, ⟨S200000, (iotaInDim S200000 32 0)⟩] concatenates_S4000000_S200000_S4200000_d0

/-- The edges' values followed by 200,000 ones. -/
def withOnes (v : FVec F S4000000 .f32) : FVec F S4200000 .f32 :=
  concatenate S4200000 0 [⟨S4000000, v⟩, ⟨S200000, (broadcastInDim S200000 ![] bcast_S_S200000 (constant S_ .f32 0x3F800000#32))⟩] concatenates_S4000000_S200000_S4200000_d0

/-- A node index as the gather takes it: a negative one counted from the end. -/
def wrapR (p : IVec S4200000 32) : IVec S4200000 32 :=
  select (cmpi .slt p (broadcastInDim S4200000 ![] bcast_S_S4200000 (constantI S_ 32 0#32)))
    (addi p (broadcastInDim S4200000 ![] bcast_S_S4200000 (constantI S_ 32 200000#32))) p

/-- The degrees as the reference forms them: one scatter of the edges' values and the ones. -/
def degR (v : FVec F S4000000 .f32) (p0 : IVec S4000000 32) : FVec F S200000 .f32 :=
  Host.scatterAdd scatter_S200000_S4200000x1_S4200000_n_0_0_1
    (broadcastInDim S200000 ![] bcast_S_S200000 (constant S_ .f32 0x00000000#32))
    (broadcastInDim S4200000x1 ![0] bcast_S4200000_S4200000x1_0 (withDiag p0)) (withOnes v)

/-- The reference's tail. -/
def refTail (v : FVec F S4000000 .f32) (p0 p1 : IVec S4000000 32) : FVec F S4200000 .f32 :=
  mulf (mulf (withOnes v) (Host.gather gather_S200000_S4200000x1_S4200000_n_0_n_n_0_1_1 (dinvR (degR v p0))
      (broadcastInDim S4200000x1 ![0] bcast_S4200000_S4200000x1_0 (wrapR (withDiag p0)))))
    (Host.gather gather_S200000_S4200000x1_S4200000_n_0_n_n_0_1_1 (dinvR (degR v p0))
      (broadcastInDim S4200000x1 ![0] bcast_S4200000_S4200000x1_0 (wrapR (withDiag p1))))

end Reference

end Cert.Tail

end
-- ==== Proof.HostValueI.lean ====
/-
  The host operations around the two pallas_calls, read as values.

  The program is: host operations that form, from the two 1024 × 128 feature tables, the row-normalised tables, their
  1024 × 1024 similarity, its row (and column) maxima, and the gather of those maxima along the node lists ("att"), and
  that reshape the four operands of each call to 31250 × 128; the call; then host operations that reshape the call's
  result back to 4,000,000 entries, scatter it into the degrees, take the inverse square roots, and scale — the tail.
  Every stretch of host operations is read here over ANY contents it is entered with; then the stretches are chained from
  the launch contents. The call's result array enters as a hypothesis: if it is, entry by entry, a function f of the four
  operand arrays' entries, the program's result is the tail of "f of the three argument vectors and att".
-/
import proofs.«156756_j43843026158044_2_alg».proof.Proof.Gen.KernelIdeal.Regions
import proofs.«156756_j43843026158044_2_alg».proof.Proof.TailDefs
import Idealize.ShloMosaic.Lib.StableHlo.Run
import Idealize.ShloMosaic.Lib.Pipeline.Value

set_option maxRecDepth 16384

noncomputable section

namespace Cert.KernelIdeal.Fuse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The stretches before the first call, each over the contents `W` it is entered with -/

/-- The rewriting loop of `after_results` without its first step, for a goal in which the fold over the operations is already
    unfolded: each operation's result at its own buffer is its function's value, at another buffer what was there. -/
local macro "results_loop" : tactic =>
  `(tactic| repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

/-- A concatenation of two pieces depends on the pieces only. -/
theorem cat2_congr {α : Type} {a a' : S4000000.Idx → α} {b b' : S200000.Idx → α} (ha : a = a') (hb : b = b') :
    concatenate S4200000 0 [⟨S4000000, a⟩, ⟨S200000, b⟩] concatenates_S4000000_S200000_S4200000_d0
      = concatenate S4200000 0 [⟨S4000000, a'⟩, ⟨S200000, b'⟩] concatenates_S4000000_S200000_S4200000_d0 := by
  subst ha hb; rfl

section Stretches
variable (W : Valuation τ sig (Elt F))

/-- The first table's row norms. -/
theorem hs0_v0 : StableHlo.after hostOps0 W (Proc.devRef .tc main_v0) = (Host.sqrt (broadcastInDim S1024x1 ![0] bcast_S1024_S1024x1_0 (Host.reduceAdd (mulf (W main_arg0) (W main_arg0)) (constant S_ .f32 0x00000000#32) reducesTo_S1024x128_S1024_d1 h_S_))) := by
  after_results <;> rfl

/-- The first table, row-normalised. -/
theorem hs0_1_v4 : StableHlo.after hostOps0_1 W (Proc.devRef .tc main_v4) = (Host.divf (W main_arg0) (broadcastInDim S1024x128 ![0, 1] bcast_S1024x1_S1024x128_0_1 (addf (W main_v0) (broadcastInDim S1024x1 ![] bcast_S_S1024x1 (constant S_ .f32 0x322BCC77#32))))) := by
  after_results <;> rfl

/-- The second table's row norms. -/
theorem hs0_2_v5 : StableHlo.after hostOps0_2 W (Proc.devRef .tc main_v5) = (Host.sqrt (broadcastInDim S1024x1 ![0] bcast_S1024_S1024x1_0 (Host.reduceAdd (mulf (W main_arg1) (W main_arg1)) (constant S_ .f32 0x00000000#32) reducesTo_S1024x128_S1024_d1 h_S_))) := by
  after_results <;> rfl

set_option maxHeartbeats 1000000 in
/-- The row maxima of the similarity, gathered along the first node list. -/
theorem hs0_3_v20 : StableHlo.after hostOps0_3 W (Proc.devRef .tc main_v20)
    = (Host.gather gather_S1024_S4000000x1_S4000000_n_0_n_n_0_1_1 (Host.reduce FloatOps.maximumf (Host.dotGeneral dot_S1024x128_S128x1024_S1024x1024_1_0_0_1_n_n none (W main_v4) (transpose S128x1024 [1, 0] (Host.divf (W main_arg1) (broadcastInDim S1024x128 ![0, 1] bcast_S1024x1_S1024x128_0_1 (addf (W main_v5) (broadcastInDim S1024x1 ![] bcast_S_S1024x1 (constant S_ .f32 0x322BCC77#32))))) transposes_S1024x128_S128x1024_1_0)) (constant S_ .f32 0xFF800000#32) reducesTo_S1024x1024_S1024_d1 h_S_) (broadcastInDim S4000000x1 ![0] bcast_S4000000_S4000000x1_0 (select (cmpi .slt (W main_arg8) (broadcastInDim S4000000 ![] bcast_S_S4000000 (constantI S_ 32 0#32))) (addi (W main_arg8) (broadcastInDim S4000000 ![] bcast_S_S4000000 (constantI S_ 32 1024#32))) (W main_arg8)))) := by
  after_results <;> rfl

set_option maxHeartbeats 1000000 in
/-- The column maxima of the similarity. -/
theorem hs0_3_v13 : StableHlo.after hostOps0_3 W (Proc.devRef .tc main_v13)
    = (Host.reduce FloatOps.maximumf (Host.dotGeneral dot_S1024x128_S128x1024_S1024x1024_1_0_0_1_n_n none (W main_v4) (transpose S128x1024 [1, 0] (Host.divf (W main_arg1) (broadcastInDim S1024x128 ![0, 1] bcast_S1024x1_S1024x128_0_1 (addf (W main_v5) (broadcastInDim S1024x1 ![] bcast_S_S1024x1 (constant S_ .f32 0x322BCC77#32))))) transposes_S1024x128_S128x1024_1_0)) (constant S_ .f32 0xFF800000#32) reducesTo_S1024x1024_S1024_d0 h_S_) := by
  after_results <;> rfl

/-- The first call's operands: the three argument vectors and the gathered maxima, reshaped. -/
theorem hs0_3_v21 : StableHlo.after hostOps0_3 W (Proc.devRef .tc main_v21) = (shapeCast S31250x128 (W main_arg2) shapeCasts_S4000000_S31250x128) := by
  after_results <;> rfl
theorem hs0_3_v22 : StableHlo.after hostOps0_3 W (Proc.devRef .tc main_v22) = (shapeCast S31250x128 (W main_arg3) shapeCasts_S4000000_S31250x128) := by
  after_results <;> rfl
theorem hs0_3_v23 : StableHlo.after hostOps0_3 W (Proc.devRef .tc main_v23) = (shapeCast S31250x128 (W main_arg4) shapeCasts_S4000000_S31250x128) := by
  after_results <;> rfl
set_option maxHeartbeats 1000000 in
theorem hs0_3_v24 : StableHlo.after hostOps0_3 W (Proc.devRef .tc main_v24)
    = (shapeCast S31250x128 (Host.gather gather_S1024_S4000000x1_S4000000_n_0_n_n_0_1_1 (Host.reduce FloatOps.maximumf (Host.dotGeneral dot_S1024x128_S128x1024_S1024x1024_1_0_0_1_n_n none (W main_v4) (transpose S128x1024 [1, 0] (Host.divf (W main_arg1) (broadcastInDim S1024x128 ![0, 1] bcast_S1024x1_S1024x128_0_1 (addf (W main_v5) (broadcastInDim S1024x1 ![] bcast_S_S1024x1 (constant S_ .f32 0x322BCC77#32))))) transposes_S1024x128_S128x1024_1_0)) (constant S_ .f32 0xFF800000#32) reducesTo_S1024x1024_S1024_d1 h_S_) (broadcastInDim S4000000x1 ![0] bcast_S4000000_S4000000x1_0 (select (cmpi .slt (W main_arg8) (broadcastInDim S4000000 ![] bcast_S_S4000000 (constantI S_ 32 0#32))) (addi (W main_arg8) (broadcastInDim S4000000 ![] bcast_S_S4000000 (constantI S_ 32 1024#32))) (W main_arg8)))) shapeCasts_S4000000_S31250x128) := by
  after_results <;> rfl

/-! ### The stretches after call 0, over the contents `W` each is entered with -/

/-- The call's result, reshaped to the edges' values. -/
theorem hs1_v : StableHlo.after hostOps1 W (Proc.devRef .tc main_v26) = (shapeCast S4000000 (W main_v25) shapeCasts_S31250x128_S4000000) := by
  after_results <;> rfl
/-- The degrees. -/
theorem hs1_deg : StableHlo.after hostOps1 W (Proc.devRef .tc main_v33) = (Cert.Tail.degK (shapeCast S4000000 (W main_v25) shapeCasts_S31250x128_S4000000) (shapeCast S4000000 (extractStridedSlice S1x4000000 ![0, 0] (W main_arg10) slices_S2x4000000_S1x4000000_0_0) shapeCasts_S1x4000000_S4000000)) := by
  after_results <;> rfl
theorem hs1_pos : StableHlo.after hostOps1 W (Proc.devRef .tc main_v35) = cmpf .ogt (Cert.Tail.degK (shapeCast S4000000 (W main_v25) shapeCasts_S31250x128_S4000000) (shapeCast S4000000 (extractStridedSlice S1x4000000 ![0, 0] (W main_arg10) slices_S2x4000000_S1x4000000_0_0) shapeCasts_S1x4000000_S4000000)) (broadcastInDim S200000 ![] bcast_S_S200000 (constant S_ .f32 0x00000000#32)) := by
  after_results <;> rfl
theorem hs1_one : StableHlo.after hostOps1 W (Proc.devRef .tc main_cst_7) = constant S_ .f32 0x3F800000#32 := by
  after_results <;> rfl
/-- The degrees, one where not positive. -/
theorem hs1_1_safe : StableHlo.after hostOps1_1 W (Proc.devRef .tc main_v36)
    = select (W main_v35) (W main_v33) (broadcastInDim S200000 ![] bcast_S_S200000 (id (W main_cst_7))) := by
  after_results <;> rfl
theorem hs1_2_pos : StableHlo.after hostOps1_2 W (Proc.devRef .tc main_v38) = cmpf .ogt (W main_v33) (broadcastInDim S200000 ![] bcast_S_S200000 (constant S_ .f32 0x00000000#32)) := by
  after_results <;> rfl
theorem hs1_2_rsqrt : StableHlo.after hostOps1_2 W (Proc.devRef .tc main_v39) = Host.rsqrt (W main_v36) := by
  after_results <;> rfl
theorem hs1_2_zero : StableHlo.after hostOps1_2 W (Proc.devRef .tc main_cst_9) = constant S_ .f32 0x00000000#32 := by
  after_results <;> rfl
/-- The inverse square roots, zero where the degree is not positive. -/
theorem hs1_3_dinv : StableHlo.after hostOps1_3 W (Proc.devRef .tc main_v40)
    = select (W main_v38) (W main_v39) (broadcastInDim S200000 ![] bcast_S_S200000 (id (W main_cst_9))) := by
  after_results <;> rfl
set_option maxHeartbeats 1000000 in
/-- The result: the edges' values scaled at both end points, then the diagonal. -/
theorem hs1_4_out : StableHlo.after hostOps1_4 W (Proc.devRef .tc main_v62)
    = (concatenate S4200000 0 [⟨S4000000, mulf (mulf (W main_v26) (Host.gather gather_S200000_S4000000x1_S4000000_n_0_n_n_0_1_1 (W main_v40) (broadcastInDim S4000000x1 ![0] bcast_S4000000_S4000000x1_0 (Cert.Tail.wrapK (shapeCast S4000000 (extractStridedSlice S1x4000000 ![0, 0] (W main_arg10) slices_S2x4000000_S1x4000000_0_0) shapeCasts_S1x4000000_S4000000))))) (Host.gather gather_S200000_S4000000x1_S4000000_n_0_n_n_0_1_1 (W main_v40) (broadcastInDim S4000000x1 ![0] bcast_S4000000_S4000000x1_0 (Cert.Tail.wrapK (shapeCast S4000000 (extractStridedSlice S1x4000000 ![1, 0] (W main_arg10) slices_S2x4000000_S1x4000000_1_0) shapeCasts_S1x4000000_S4000000))))⟩, ⟨S200000, mulf (W main_v40) (W main_v40)⟩] concatenates_S4000000_S200000_S4200000_d0) := by
  simp only [StableHlo.after_cons, StableHlo.after_nil]
  iterate 13 (first
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide))
  rw [StableHlo.binary_result]
  refine cat2_congr ?_ ?_
  · results_loop <;> rfl
  · results_loop <;> rfl

set_option maxHeartbeats 1000000 in
/-- The column maxima gathered along the second node list, -/
theorem hs1_4_v69 : StableHlo.after hostOps1_4 W (Proc.devRef .tc main_v69) = (Host.gather gather_S1024_S4000000x1_S4000000_n_0_n_n_0_1_1 (W main_v13) (broadcastInDim S4000000x1 ![0] bcast_S4000000_S4000000x1_0 (select (cmpi .slt (W main_arg9) (broadcastInDim S4000000 ![] bcast_S_S4000000 (constantI S_ 32 0#32))) (addi (W main_arg9) (broadcastInDim S4000000 ![] bcast_S_S4000000 (constantI S_ 32 1024#32))) (W main_arg9)))) := by
  after_results <;> rfl
/-- and the second call's operands. -/
theorem hs1_4_v70 : StableHlo.after hostOps1_4 W (Proc.devRef .tc main_v70) = (shapeCast S31250x128 (W main_arg5) shapeCasts_S4000000_S31250x128) := by
  after_results <;> rfl
theorem hs1_4_v71 : StableHlo.after hostOps1_4 W (Proc.devRef .tc main_v71) = (shapeCast S31250x128 (W main_arg6) shapeCasts_S4000000_S31250x128) := by
  after_results <;> rfl
theorem hs1_4_v72 : StableHlo.after hostOps1_4 W (Proc.devRef .tc main_v72) = (shapeCast S31250x128 (W main_arg7) shapeCasts_S4000000_S31250x128) := by
  after_results <;> rfl
set_option maxHeartbeats 1000000 in
theorem hs1_4_v73 : StableHlo.after hostOps1_4 W (Proc.devRef .tc main_v73) = (shapeCast S31250x128 (Host.gather gather_S1024_S4000000x1_S4000000_n_0_n_n_0_1_1 (W main_v13) (broadcastInDim S4000000x1 ![0] bcast_S4000000_S4000000x1_0 (select (cmpi .slt (W main_arg9) (broadcastInDim S4000000 ![] bcast_S_S4000000 (constantI S_ 32 0#32))) (addi (W main_arg9) (broadcastInDim S4000000 ![] bcast_S_S4000000 (constantI S_ 32 1024#32))) (W main_arg9)))) shapeCasts_S4000000_S31250x128) := by
  after_results <;> rfl

/-! ### The stretches after call 1, over the contents `W` each is entered with -/

/-- The call's result, reshaped to the edges' values. -/
theorem hs2_v : StableHlo.after hostOps2 W (Proc.devRef .tc main_v75) = (shapeCast S4000000 (W main_v74) shapeCasts_S31250x128_S4000000) := by
  after_results <;> rfl
/-- The degrees. -/
theorem hs2_deg : StableHlo.after hostOps2 W (Proc.devRef .tc main_v82) = (Cert.Tail.degK (shapeCast S4000000 (W main_v74) shapeCasts_S31250x128_S4000000) (shapeCast S4000000 (extractStridedSlice S1x4000000 ![0, 0] (W main_arg11) slices_S2x4000000_S1x4000000_0_0) shapeCasts_S1x4000000_S4000000)) := by
  after_results <;> rfl
theorem hs2_pos : StableHlo.after hostOps2 W (Proc.devRef .tc main_v84) = cmpf .ogt (Cert.Tail.degK (shapeCast S4000000 (W main_v74) shapeCasts_S31250x128_S4000000) (shapeCast S4000000 (extractStridedSlice S1x4000000 ![0, 0] (W main_arg11) slices_S2x4000000_S1x4000000_0_0) shapeCasts_S1x4000000_S4000000)) (broadcastInDim S200000 ![] bcast_S_S200000 (constant S_ .f32 0x00000000#32)) := by
  after_results <;> rfl
theorem hs2_one : StableHlo.after hostOps2 W (Proc.devRef .tc main_cst_19) = constant S_ .f32 0x3F800000#32 := by
  after_results <;> rfl
/-- The degrees, one where not positive. -/
theorem hs2_1_safe : StableHlo.after hostOps2_1 W (Proc.devRef .tc main_v85)
    = select (W main_v84) (W main_v82) (broadcastInDim S200000 ![] bcast_S_S200000 (id (W main_cst_19))) := by
  after_results <;> rfl
theorem hs2_2_pos : StableHlo.after hostOps2_2 W (Proc.devRef .tc main_v87) = cmpf .ogt (W main_v82) (broadcastInDim S200000 ![] bcast_S_S200000 (constant S_ .f32 0x00000000#32)) := by
  after_results <;> rfl
theorem hs2_2_rsqrt : StableHlo.after hostOps2_2 W (Proc.devRef .tc main_v88) = Host.rsqrt (W main_v85) := by
  after_results <;> rfl
theorem hs2_2_zero : StableHlo.after hostOps2_2 W (Proc.devRef .tc main_cst_21) = constant S_ .f32 0x00000000#32 := by
  after_results <;> rfl
/-- The inverse square roots, zero where the degree is not positive. -/
theorem hs2_3_dinv : StableHlo.after hostOps2_3 W (Proc.devRef .tc main_v89)
    = select (W main_v87) (W main_v88) (broadcastInDim S200000 ![] bcast_S_S200000 (id (W main_cst_21))) := by
  after_results <;> rfl
set_option maxHeartbeats 1000000 in
/-- The result: the edges' values scaled at both end points, then the diagonal. -/
theorem hs2_4_out : StableHlo.after hostOps2_4 W (Proc.devRef .tc main_v111)
    = (concatenate S4200000 0 [⟨S4000000, mulf (mulf (W main_v75) (Host.gather gather_S200000_S4000000x1_S4000000_n_0_n_n_0_1_1 (W main_v89) (broadcastInDim S4000000x1 ![0] bcast_S4000000_S4000000x1_0 (Cert.Tail.wrapK (shapeCast S4000000 (extractStridedSlice S1x4000000 ![0, 0] (W main_arg11) slices_S2x4000000_S1x4000000_0_0) shapeCasts_S1x4000000_S4000000))))) (Host.gather gather_S200000_S4000000x1_S4000000_n_0_n_n_0_1_1 (W main_v89) (broadcastInDim S4000000x1 ![0] bcast_S4000000_S4000000x1_0 (Cert.Tail.wrapK (shapeCast S4000000 (extractStridedSlice S1x4000000 ![1, 0] (W main_arg11) slices_S2x4000000_S1x4000000_1_0) shapeCasts_S1x4000000_S4000000))))⟩, ⟨S200000, mulf (W main_v89) (W main_v89)⟩] concatenates_S4000000_S200000_S4200000_d0) := by
  after_results <;> rfl

end Stretches

/-! ## The chain from the launch contents -/

section Values
variable (m : (ℓ : Loc nD τ sig) → Buf (Elt F) ℓ) (outs : Outs (F := F))

/-- The row maxima of the similarity of the two row-normalised tables, gathered along the first node list: the fourth operand
    of the first call, as a vector of 4,000,000 entries. -/
def att0 (c : Dev nD) : FVec F S4000000 .f32 :=
  (Host.gather gather_S1024_S4000000x1_S4000000_n_0_n_n_0_1_1 (Host.reduce FloatOps.maximumf (Host.dotGeneral dot_S1024x128_S128x1024_S1024x1024_1_0_0_1_n_n none (Host.divf (m ((c.tc : Thread nD τ).loc main_arg0)) (broadcastInDim S1024x128 ![0, 1] bcast_S1024x1_S1024x128_0_1 (addf (Host.sqrt (broadcastInDim S1024x1 ![0] bcast_S1024_S1024x1_0 (Host.reduceAdd (mulf (m ((c.tc : Thread nD τ).loc main_arg0)) (m ((c.tc : Thread nD τ).loc main_arg0))) (constant S_ .f32 0x00000000#32) reducesTo_S1024x128_S1024_d1 h_S_))) (broadcastInDim S1024x1 ![] bcast_S_S1024x1 (constant S_ .f32 0x322BCC77#32))))) (transpose S128x1024 [1, 0] (Host.divf (m ((c.tc : Thread nD τ).loc main_arg1)) (broadcastInDim S1024x128 ![0, 1] bcast_S1024x1_S1024x128_0_1 (addf (Host.sqrt (broadcastInDim S1024x1 ![0] bcast_S1024_S1024x1_0 (Host.reduceAdd (mulf (m ((c.tc : Thread nD τ).loc main_arg1)) (m ((c.tc : Thread nD τ).loc main_arg1))) (constant S_ .f32 0x00000000#32) reducesTo_S1024x128_S1024_d1 h_S_))) (broadcastInDim S1024x1 ![] bcast_S_S1024x1 (constant S_ .f32 0x322BCC77#32))))) transposes_S1024x128_S128x1024_1_0)) (constant S_ .f32 0xFF800000#32) reducesTo_S1024x1024_S1024_d1 h_S_) (broadcastInDim S4000000x1 ![0] bcast_S4000000_S4000000x1_0 (select (cmpi .slt (m ((c.tc : Thread nD τ).loc main_arg8)) (broadcastInDim S4000000 ![] bcast_S_S4000000 (constantI S_ 32 0#32))) (addi (m ((c.tc : Thread nD τ).loc main_arg8)) (broadcastInDim S4000000 ![] bcast_S_S4000000 (constantI S_ 32 1024#32))) (m ((c.tc : Thread nD τ).loc main_arg8)))))

/-- The column maxima, gathered along the second node list: the fourth operand of the second call. -/
def att1 (c : Dev nD) : FVec F S4000000 .f32 :=
  (Host.gather gather_S1024_S4000000x1_S4000000_n_0_n_n_0_1_1 (Host.reduce FloatOps.maximumf (Host.dotGeneral dot_S1024x128_S128x1024_S1024x1024_1_0_0_1_n_n none (Host.divf (m ((c.tc : Thread nD τ).loc main_arg0)) (broadcastInDim S1024x128 ![0, 1] bcast_S1024x1_S1024x128_0_1 (addf (Host.sqrt (broadcastInDim S1024x1 ![0] bcast_S1024_S1024x1_0 (Host.reduceAdd (mulf (m ((c.tc : Thread nD τ).loc main_arg0)) (m ((c.tc : Thread nD τ).loc main_arg0))) (constant S_ .f32 0x00000000#32) reducesTo_S1024x128_S1024_d1 h_S_))) (broadcastInDim S1024x1 ![] bcast_S_S1024x1 (constant S_ .f32 0x322BCC77#32))))) (transpose S128x1024 [1, 0] (Host.divf (m ((c.tc : Thread nD τ).loc main_arg1)) (broadcastInDim S1024x128 ![0, 1] bcast_S1024x1_S1024x128_0_1 (addf (Host.sqrt (broadcastInDim S1024x1 ![0] bcast_S1024_S1024x1_0 (Host.reduceAdd (mulf (m ((c.tc : Thread nD τ).loc main_arg1)) (m ((c.tc : Thread nD τ).loc main_arg1))) (constant S_ .f32 0x00000000#32) reducesTo_S1024x128_S1024_d1 h_S_))) (broadcastInDim S1024x1 ![] bcast_S_S1024x1 (constant S_ .f32 0x322BCC77#32))))) transposes_S1024x128_S128x1024_1_0)) (constant S_ .f32 0xFF800000#32) reducesTo_S1024x1024_S1024_d0 h_S_) (broadcastInDim S4000000x1 ![0] bcast_S4000000_S4000000x1_0 (select (cmpi .slt (m ((c.tc : Thread nD τ).loc main_arg9)) (broadcastInDim S4000000 ![] bcast_S_S4000000 (constantI S_ 32 0#32))) (addi (m ((c.tc : Thread nD τ).loc main_arg9)) (broadcastInDim S4000000 ![] bcast_S_S4000000 (constantI S_ 32 1024#32))) (m ((c.tc : Thread nD τ).loc main_arg9)))))

/-- The two rows of the first edge list, -/
def p0 (c : Dev nD) : IVec S4000000 32 := (shapeCast S4000000 (extractStridedSlice S1x4000000 ![0, 0] (m ((c.tc : Thread nD τ).loc main_arg10)) slices_S2x4000000_S1x4000000_0_0) shapeCasts_S1x4000000_S4000000)
def p1 (c : Dev nD) : IVec S4000000 32 := (shapeCast S4000000 (extractStridedSlice S1x4000000 ![1, 0] (m ((c.tc : Thread nD τ).loc main_arg10)) slices_S2x4000000_S1x4000000_1_0) shapeCasts_S1x4000000_S4000000)
/-- and of the second. -/
def q0 (c : Dev nD) : IVec S4000000 32 := (shapeCast S4000000 (extractStridedSlice S1x4000000 ![0, 0] (m ((c.tc : Thread nD τ).loc main_arg11)) slices_S2x4000000_S1x4000000_0_0) shapeCasts_S1x4000000_S4000000)
def q1 (c : Dev nD) : IVec S4000000 32 := (shapeCast S4000000 (extractStridedSlice S1x4000000 ![1, 0] (m ((c.tc : Thread nD τ).loc main_arg11)) slices_S2x4000000_S1x4000000_1_0) shapeCasts_S1x4000000_S4000000)

/-! ### Buffers no stretch writes -/

theorem keep3 (c : Dev nD) (r : Ref sig .tc) (h0 : r ∉ hostOps0_W) (h1 : r ∉ hostOps0_1_W) (h2 : r ∉ hostOps0_2_W) :
    V3 m c r = m ((c.tc : Thread nD τ).loc r) :=
  (V3_of m c r h2).trans ((V2_of m c r h1).trans (V1_of m c r h0))

theorem keep4 (c : Dev nD) (r : Ref sig .tc) (h0 : r ∉ hostOps0_W) (h1 : r ∉ hostOps0_1_W) (h2 : r ∉ hostOps0_2_W)
    (h3 : r ∉ hostOps0_3_W) : V4 m c r = m ((c.tc : Thread nD τ).loc r) :=
  (V4_of m c r h3).trans (keep3 m c r h0 h1 h2)

theorem keep9 (c : Dev nD) (r : Ref sig .tc) (h5 : r ∉ ([main_v25] : List (Ref sig .tc))) (h6 : r ∉ hostOps1_W)
    (h7 : r ∉ hostOps1_1_W) (h8 : r ∉ hostOps1_2_W) (h9 : r ∉ hostOps1_3_W) : V9 m outs c r = V4 m c r :=
  (V9_of m outs c r h9).trans ((V8_of m outs c r h8).trans ((V7_of m outs c r h7).trans ((V6_of m outs c r h6).trans
    (V5_of m outs c r h5))))

theorem keep15 (c : Dev nD) (r : Ref sig .tc) (h11 : r ∉ ([main_v74] : List (Ref sig .tc))) (h12 : r ∉ hostOps2_W)
    (h13 : r ∉ hostOps2_1_W) (h14 : r ∉ hostOps2_2_W) (h15 : r ∉ hostOps2_3_W) : V15 m outs c r = V10 m outs c r :=
  (V15_of m outs c r h15).trans ((V14_of m outs c r h14).trans ((V13_of m outs c r h13).trans ((V12_of m outs c r h12).trans
    (V11_of m outs c r h11))))

/-! ### Before the first call -/

theorem V1_v0 (c : Dev nD) : V1 m c main_v0 = (Host.sqrt (broadcastInDim S1024x1 ![0] bcast_S1024_S1024x1_0 (Host.reduceAdd (mulf (m ((c.tc : Thread nD τ).loc main_arg0)) (m ((c.tc : Thread nD τ).loc main_arg0))) (constant S_ .f32 0x00000000#32) reducesTo_S1024x128_S1024_d1 h_S_))) :=
  hs0_v0 (V0 m c)

theorem V3_v4 (c : Dev nD) : V3 m c main_v4 = (Host.divf (m ((c.tc : Thread nD τ).loc main_arg0)) (broadcastInDim S1024x128 ![0, 1] bcast_S1024x1_S1024x128_0_1 (addf (Host.sqrt (broadcastInDim S1024x1 ![0] bcast_S1024_S1024x1_0 (Host.reduceAdd (mulf (m ((c.tc : Thread nD τ).loc main_arg0)) (m ((c.tc : Thread nD τ).loc main_arg0))) (constant S_ .f32 0x00000000#32) reducesTo_S1024x128_S1024_d1 h_S_))) (broadcastInDim S1024x1 ![] bcast_S_S1024x1 (constant S_ .f32 0x322BCC77#32))))) := by
  refine (V3_of m c main_v4 (by decide)).trans ((hs0_1_v4 (V1 m c)).trans ?_)
  rw [V1_v0 m c, V1_of m c main_arg0 (by decide)]

theorem V3_v5 (c : Dev nD) : V3 m c main_v5 = (Host.sqrt (broadcastInDim S1024x1 ![0] bcast_S1024_S1024x1_0 (Host.reduceAdd (mulf (m ((c.tc : Thread nD τ).loc main_arg1)) (m ((c.tc : Thread nD τ).loc main_arg1))) (constant S_ .f32 0x00000000#32) reducesTo_S1024x128_S1024_d1 h_S_))) := by
  refine (hs0_2_v5 (V2 m c)).trans ?_
  rw [show V2 m c main_arg1 = (m ((c.tc : Thread nD τ).loc main_arg1)) from (V2_of m c main_arg1 (by decide)).trans (V1_of m c main_arg1 (by decide))]

/-- The fourth operand of the first call, before it is reshaped. -/
theorem V4_v20 (c : Dev nD) : V4 m c main_v20 = att0 m c := by
  refine (hs0_3_v20 (V3 m c)).trans ?_
  rw [V3_v4 m c, V3_v5 m c, keep3 m c main_arg1 (by decide) (by decide) (by decide), keep3 m c main_arg8 (by decide) (by decide) (by decide)]
  rfl

/-- The column maxima. -/
theorem V4_v13 (c : Dev nD) : V4 m c main_v13 = (Host.reduce FloatOps.maximumf (Host.dotGeneral dot_S1024x128_S128x1024_S1024x1024_1_0_0_1_n_n none (Host.divf (m ((c.tc : Thread nD τ).loc main_arg0)) (broadcastInDim S1024x128 ![0, 1] bcast_S1024x1_S1024x128_0_1 (addf (Host.sqrt (broadcastInDim S1024x1 ![0] bcast_S1024_S1024x1_0 (Host.reduceAdd (mulf (m ((c.tc : Thread nD τ).loc main_arg0)) (m ((c.tc : Thread nD τ).loc main_arg0))) (constant S_ .f32 0x00000000#32) reducesTo_S1024x128_S1024_d1 h_S_))) (broadcastInDim S1024x1 ![] bcast_S_S1024x1 (constant S_ .f32 0x322BCC77#32))))) (transpose S128x1024 [1, 0] (Host.divf (m ((c.tc : Thread nD τ).loc main_arg1)) (broadcastInDim S1024x128 ![0, 1] bcast_S1024x1_S1024x128_0_1 (addf (Host.sqrt (broadcastInDim S1024x1 ![0] bcast_S1024_S1024x1_0 (Host.reduceAdd (mulf (m ((c.tc : Thread nD τ).loc main_arg1)) (m ((c.tc : Thread nD τ).loc main_arg1))) (constant S_ .f32 0x00000000#32) reducesTo_S1024x128_S1024_d1 h_S_))) (broadcastInDim S1024x1 ![] bcast_S_S1024x1 (constant S_ .f32 0x322BCC77#32))))) transposes_S1024x128_S128x1024_1_0)) (constant S_ .f32 0xFF800000#32) reducesTo_S1024x1024_S1024_d0 h_S_) := by
  refine (hs0_3_v13 (V3 m c)).trans ?_
  rw [V3_v4 m c, V3_v5 m c, keep3 m c main_arg1 (by decide) (by decide) (by decide)]

theorem V4_v21 (c : Dev nD) : V4 m c main_v21 = (shapeCast S31250x128 (m ((c.tc : Thread nD τ).loc main_arg2)) shapeCasts_S4000000_S31250x128) := by
  refine (hs0_3_v21 (V3 m c)).trans ?_
  rw [keep3 m c main_arg2 (by decide) (by decide) (by decide)]
theorem V4_v22 (c : Dev nD) : V4 m c main_v22 = (shapeCast S31250x128 (m ((c.tc : Thread nD τ).loc main_arg3)) shapeCasts_S4000000_S31250x128) := by
  refine (hs0_3_v22 (V3 m c)).trans ?_
  rw [keep3 m c main_arg3 (by decide) (by decide) (by decide)]
theorem V4_v23 (c : Dev nD) : V4 m c main_v23 = (shapeCast S31250x128 (m ((c.tc : Thread nD τ).loc main_arg4)) shapeCasts_S4000000_S31250x128) := by
  refine (hs0_3_v23 (V3 m c)).trans ?_
  rw [keep3 m c main_arg4 (by decide) (by decide) (by decide)]
theorem V4_v24 (c : Dev nD) : V4 m c main_v24 = (shapeCast S31250x128 (att0 m c) shapeCasts_S4000000_S31250x128) := by
  refine (hs0_3_v24 (V3 m c)).trans ?_
  rw [V3_v4 m c, V3_v5 m c, keep3 m c main_arg1 (by decide) (by decide) (by decide), keep3 m c main_arg8 (by decide) (by decide) (by decide)]
  rfl

/-- Reshaping to 31250 × 128, applying a function entry by entry, and reshaping back is applying it entry by entry. -/
theorem shapeCast_round (f : Elt F .f32 → Elt F .f32 → Elt F .f32 → Elt F .f32 → Elt F .f32) (a b e g : FVec F S4000000 .f32) :
    shapeCast S4000000 (fun i : S31250x128.Idx => f ((shapeCast S31250x128 a shapeCasts_S4000000_S31250x128) i) ((shapeCast S31250x128 b shapeCasts_S4000000_S31250x128) i) ((shapeCast S31250x128 e shapeCasts_S4000000_S31250x128) i) ((shapeCast S31250x128 g shapeCasts_S4000000_S31250x128) i)) shapeCasts_S31250x128_S4000000
      = fun j => f (a j) (b j) (e j) (g j) := by
  funext j
  show f ((shapeCast S4000000 (shapeCast S31250x128 a shapeCasts_S4000000_S31250x128) shapeCasts_S31250x128_S4000000) j) ((shapeCast S4000000 (shapeCast S31250x128 b shapeCasts_S4000000_S31250x128) shapeCasts_S31250x128_S4000000) j) ((shapeCast S4000000 (shapeCast S31250x128 e shapeCasts_S4000000_S31250x128) shapeCasts_S31250x128_S4000000) j) ((shapeCast S4000000 (shapeCast S31250x128 g shapeCasts_S4000000_S31250x128) shapeCasts_S31250x128_S4000000) j) = _
  rw [shapeCast_shapeCast, shapeCast_shapeCast, shapeCast_shapeCast, shapeCast_shapeCast]

/-! ### After call 0 -/

theorem T0_res (c : Dev nD) : V5 m outs c main_v25 = (outs 5 main_v25 c) :=
  Function.update_self _ _ _

theorem T0_arg (c : Dev nD) : V5 m outs c main_arg10 = (m ((c.tc : Thread nD τ).loc main_arg10)) :=
  (V5_of m outs c main_arg10 (by decide)).trans (keep4 m c main_arg10 (by decide) (by decide) (by decide) (by decide))

theorem T0_v (c : Dev nD) : V6 m outs c main_v26 = (shapeCast S4000000 (outs 5 main_v25 c) shapeCasts_S31250x128_S4000000) := by
  refine (hs1_v (V5 m outs c)).trans ?_
  rw [T0_res m outs c]

theorem T0_deg (c : Dev nD) : V6 m outs c main_v33 = Cert.Tail.degK (shapeCast S4000000 (outs 5 main_v25 c) shapeCasts_S31250x128_S4000000) (p0 m c) := by
  refine (hs1_deg (V5 m outs c)).trans ?_
  rw [T0_res m outs c, T0_arg m outs c]
  rfl

theorem T0_pos (c : Dev nD) : V6 m outs c main_v35 = cmpf .ogt (Cert.Tail.degK (shapeCast S4000000 (outs 5 main_v25 c) shapeCasts_S31250x128_S4000000) (p0 m c)) (broadcastInDim S200000 ![] bcast_S_S200000 (constant S_ .f32 0x00000000#32)) := by
  refine (hs1_pos (V5 m outs c)).trans ?_
  rw [T0_res m outs c, T0_arg m outs c]
  rfl

theorem T0_dinv (c : Dev nD) : V9 m outs c main_v40 = Cert.Tail.dinvK (Cert.Tail.degK (shapeCast S4000000 (outs 5 main_v25 c) shapeCasts_S31250x128_S4000000) (p0 m c)) := by
  have e36 : V7 m outs c main_v36 = select (cmpf .ogt (Cert.Tail.degK (shapeCast S4000000 (outs 5 main_v25 c) shapeCasts_S31250x128_S4000000) (p0 m c)) (broadcastInDim S200000 ![] bcast_S_S200000 (constant S_ .f32 0x00000000#32))) (Cert.Tail.degK (shapeCast S4000000 (outs 5 main_v25 c) shapeCasts_S31250x128_S4000000) (p0 m c))
      (broadcastInDim S200000 ![] bcast_S_S200000 (id (constant S_ .f32 0x3F800000#32))) := by
    refine (hs1_1_safe (V6 m outs c)).trans ?_
    rw [T0_pos m outs c, T0_deg m outs c, show V6 m outs c main_cst_7 = constant S_ .f32 0x3F800000#32 from hs1_one (V5 m outs c)]
  have e38 : V8 m outs c main_v38 = cmpf .ogt (Cert.Tail.degK (shapeCast S4000000 (outs 5 main_v25 c) shapeCasts_S31250x128_S4000000) (p0 m c)) (broadcastInDim S200000 ![] bcast_S_S200000 (constant S_ .f32 0x00000000#32)) := by
    refine (hs1_2_pos (V7 m outs c)).trans ?_
    rw [V7_of m outs c main_v33 (by decide), T0_deg m outs c]
  have e39 : V8 m outs c main_v39 = Host.rsqrt (select (cmpf .ogt (Cert.Tail.degK (shapeCast S4000000 (outs 5 main_v25 c) shapeCasts_S31250x128_S4000000) (p0 m c)) (broadcastInDim S200000 ![] bcast_S_S200000 (constant S_ .f32 0x00000000#32))) (Cert.Tail.degK (shapeCast S4000000 (outs 5 main_v25 c) shapeCasts_S31250x128_S4000000) (p0 m c))
      (broadcastInDim S200000 ![] bcast_S_S200000 (id (constant S_ .f32 0x3F800000#32)))) := by
    refine (hs1_2_rsqrt (V7 m outs c)).trans ?_
    rw [e36]
  refine (hs1_3_dinv (V8 m outs c)).trans ?_
  rw [e38, e39, show V8 m outs c main_cst_9 = constant S_ .f32 0x00000000#32 from hs1_2_zero (V7 m outs c)]
  rfl

/-- The program's first result is the tail of the call's result array, reshaped. -/
theorem T0_out (c : Dev nD) : V16 m outs c main_v62 = Cert.Tail.kerTail (shapeCast S4000000 (outs 5 main_v25 c) shapeCasts_S31250x128_S4000000) (p0 m c) (p1 m c) := by
  refine (V16_of m outs c main_v62 (by decide)).trans ((keep15 m outs c main_v62 (by decide) (by decide) (by decide) (by decide) (by decide)).trans ?_)
  refine (hs1_4_out (V9 m outs c)).trans ?_
  rw [T0_dinv m outs c,
    show V9 m outs c main_v26 = (shapeCast S4000000 (outs 5 main_v25 c) shapeCasts_S31250x128_S4000000) from
      (V9_of m outs c main_v26 (by decide)).trans ((V8_of m outs c main_v26 (by decide)).trans ((V7_of m outs c main_v26 (by decide)).trans (T0_v m outs c))),
    show V9 m outs c main_arg10 = (m ((c.tc : Thread nD τ).loc main_arg10)) from (keep9 m outs c main_arg10 (by decide) (by decide) (by decide) (by decide) (by decide)).trans (keep4 m c main_arg10 (by decide) (by decide) (by decide) (by decide))]
  rfl

/-- If the call's result array is, entry by entry, `f` of the four operand arrays' entries, the program's result is the tail
    of `f` of the three argument vectors' and the gathered maxima's entries: the reshapes to 31250 × 128 and back cancel. -/
theorem kernel_out0_of (f : Elt F .f32 → Elt F .f32 → Elt F .f32 → Elt F .f32 → Elt F .f32) (c : Dev nD)
    (h : outs 5 main_v25 c = fun i : S31250x128.Idx => f (V4 m c main_v21 i) (V4 m c main_v22 i) (V4 m c main_v23 i) (V4 m c main_v24 i)) :
    V16 m outs c main_v62 = Cert.Tail.kerTail (fun j => f ((m ((c.tc : Thread nD τ).loc main_arg2)) j) ((m ((c.tc : Thread nD τ).loc main_arg3)) j) ((m ((c.tc : Thread nD τ).loc main_arg4)) j) (att0 m c j)) (p0 m c) (p1 m c) := by
  rw [T0_out m outs c, h, V4_v21 m c, V4_v22 m c, V4_v23 m c, V4_v24 m c, shapeCast_round]

/-! ### Before the second call -/

theorem V9_v13 (c : Dev nD) : V9 m outs c main_v13 = (Host.reduce FloatOps.maximumf (Host.dotGeneral dot_S1024x128_S128x1024_S1024x1024_1_0_0_1_n_n none (Host.divf (m ((c.tc : Thread nD τ).loc main_arg0)) (broadcastInDim S1024x128 ![0, 1] bcast_S1024x1_S1024x128_0_1 (addf (Host.sqrt (broadcastInDim S1024x1 ![0] bcast_S1024_S1024x1_0 (Host.reduceAdd (mulf (m ((c.tc : Thread nD τ).loc main_arg0)) (m ((c.tc : Thread nD τ).loc main_arg0))) (constant S_ .f32 0x00000000#32) reducesTo_S1024x128_S1024_d1 h_S_))) (broadcastInDim S1024x1 ![] bcast_S_S1024x1 (constant S_ .f32 0x322BCC77#32))))) (transpose S128x1024 [1, 0] (Host.divf (m ((c.tc : Thread nD τ).loc main_arg1)) (broadcastInDim S1024x128 ![0, 1] bcast_S1024x1_S1024x128_0_1 (addf (Host.sqrt (broadcastInDim S1024x1 ![0] bcast_S1024_S1024x1_0 (Host.reduceAdd (mulf (m ((c.tc : Thread nD τ).loc main_arg1)) (m ((c.tc : Thread nD τ).loc main_arg1))) (constant S_ .f32 0x00000000#32) reducesTo_S1024x128_S1024_d1 h_S_))) (broadcastInDim S1024x1 ![] bcast_S_S1024x1 (constant S_ .f32 0x322BCC77#32))))) transposes_S1024x128_S128x1024_1_0)) (constant S_ .f32 0xFF800000#32) reducesTo_S1024x1024_S1024_d0 h_S_) :=
  (keep9 m outs c main_v13 (by decide) (by decide) (by decide) (by decide) (by decide)).trans (V4_v13 m c)

/-- The fourth operand of the second call, before it is reshaped. -/
theorem V10_v69 (c : Dev nD) : V10 m outs c main_v69 = att1 m c := by
  refine (hs1_4_v69 (V9 m outs c)).trans ?_
  rw [V9_v13 m outs c, show V9 m outs c main_arg9 = (m ((c.tc : Thread nD τ).loc main_arg9)) from (keep9 m outs c main_arg9 (by decide) (by decide) (by decide) (by decide) (by decide)).trans (keep4 m c main_arg9 (by decide) (by decide) (by decide) (by decide))]
  rfl

theorem V10_v70 (c : Dev nD) : V10 m outs c main_v70 = (shapeCast S31250x128 (m ((c.tc : Thread nD τ).loc main_arg5)) shapeCasts_S4000000_S31250x128) := by
  refine (hs1_4_v70 (V9 m outs c)).trans ?_
  rw [show V9 m outs c main_arg5 = (m ((c.tc : Thread nD τ).loc main_arg5)) from (keep9 m outs c main_arg5 (by decide) (by decide) (by decide) (by decide) (by decide)).trans (keep4 m c main_arg5 (by decide) (by decide) (by decide) (by decide))]
theorem V10_v71 (c : Dev nD) : V10 m outs c main_v71 = (shapeCast S31250x128 (m ((c.tc : Thread nD τ).loc main_arg6)) shapeCasts_S4000000_S31250x128) := by
  refine (hs1_4_v71 (V9 m outs c)).trans ?_
  rw [show V9 m outs c main_arg6 = (m ((c.tc : Thread nD τ).loc main_arg6)) from (keep9 m outs c main_arg6 (by decide) (by decide) (by decide) (by decide) (by decide)).trans (keep4 m c main_arg6 (by decide) (by decide) (by decide) (by decide))]
theorem V10_v72 (c : Dev nD) : V10 m outs c main_v72 = (shapeCast S31250x128 (m ((c.tc : Thread nD τ).loc main_arg7)) shapeCasts_S4000000_S31250x128) := by
  refine (hs1_4_v72 (V9 m outs c)).trans ?_
  rw [show V9 m outs c main_arg7 = (m ((c.tc : Thread nD τ).loc main_arg7)) from (keep9 m outs c main_arg7 (by decide) (by decide) (by decide) (by decide) (by decide)).trans (keep4 m c main_arg7 (by decide) (by decide) (by decide) (by decide))]
theorem V10_v73 (c : Dev nD) : V10 m outs c main_v73 = (shapeCast S31250x128 (att1 m c) shapeCasts_S4000000_S31250x128) := by
  refine (hs1_4_v73 (V9 m outs c)).trans ?_
  rw [V9_v13 m outs c, show V9 m outs c main_arg9 = (m ((c.tc : Thread nD τ).loc main_arg9)) from (keep9 m outs c main_arg9 (by decide) (by decide) (by decide) (by decide) (by decide)).trans (keep4 m c main_arg9 (by decide) (by decide) (by decide) (by decide))]
  rfl

/-! ### After call 1 -/

theorem T1_res (c : Dev nD) : V11 m outs c main_v74 = (outs 11 main_v74 c) :=
  Function.update_self _ _ _

theorem T1_arg (c : Dev nD) : V11 m outs c main_arg11 = (m ((c.tc : Thread nD τ).loc main_arg11)) :=
  (V11_of m outs c main_arg11 (by decide)).trans ((V10_of m outs c main_arg11 (by decide)).trans ((keep9 m outs c main_arg11 (by decide) (by decide) (by decide) (by decide) (by decide)).trans (keep4 m c main_arg11 (by decide) (by decide) (by decide) (by decide))))

theorem T1_v (c : Dev nD) : V12 m outs c main_v75 = (shapeCast S4000000 (outs 11 main_v74 c) shapeCasts_S31250x128_S4000000) := by
  refine (hs2_v (V11 m outs c)).trans ?_
  rw [T1_res m outs c]

theorem T1_deg (c : Dev nD) : V12 m outs c main_v82 = Cert.Tail.degK (shapeCast S4000000 (outs 11 main_v74 c) shapeCasts_S31250x128_S4000000) (q0 m c) := by
  refine (hs2_deg (V11 m outs c)).trans ?_
  rw [T1_res m outs c, T1_arg m outs c]
  rfl

theorem T1_pos (c : Dev nD) : V12 m outs c main_v84 = cmpf .ogt (Cert.Tail.degK (shapeCast S4000000 (outs 11 main_v74 c) shapeCasts_S31250x128_S4000000) (q0 m c)) (broadcastInDim S200000 ![] bcast_S_S200000 (constant S_ .f32 0x00000000#32)) := by
  refine (hs2_pos (V11 m outs c)).trans ?_
  rw [T1_res m outs c, T1_arg m outs c]
  rfl

theorem T1_dinv (c : Dev nD) : V15 m outs c main_v89 = Cert.Tail.dinvK (Cert.Tail.degK (shapeCast S4000000 (outs 11 main_v74 c) shapeCasts_S31250x128_S4000000) (q0 m c)) := by
  have e36 : V13 m outs c main_v85 = select (cmpf .ogt (Cert.Tail.degK (shapeCast S4000000 (outs 11 main_v74 c) shapeCasts_S31250x128_S4000000) (q0 m c)) (broadcastInDim S200000 ![] bcast_S_S200000 (constant S_ .f32 0x00000000#32))) (Cert.Tail.degK (shapeCast S4000000 (outs 11 main_v74 c) shapeCasts_S31250x128_S4000000) (q0 m c))
      (broadcastInDim S200000 ![] bcast_S_S200000 (id (constant S_ .f32 0x3F800000#32))) := by
    refine (hs2_1_safe (V12 m outs c)).trans ?_
    rw [T1_pos m outs c, T1_deg m outs c, show V12 m outs c main_cst_19 = constant S_ .f32 0x3F800000#32 from hs2_one (V11 m outs c)]
  have e38 : V14 m outs c main_v87 = cmpf .ogt (Cert.Tail.degK (shapeCast S4000000 (outs 11 main_v74 c) shapeCasts_S31250x128_S4000000) (q0 m c)) (broadcastInDim S200000 ![] bcast_S_S200000 (constant S_ .f32 0x00000000#32)) := by
    refine (hs2_2_pos (V13 m outs c)).trans ?_
    rw [V13_of m outs c main_v82 (by decide), T1_deg m outs c]
  have e39 : V14 m outs c main_v88 = Host.rsqrt (select (cmpf .ogt (Cert.Tail.degK (shapeCast S4000000 (outs 11 main_v74 c) shapeCasts_S31250x128_S4000000) (q0 m c)) (broadcastInDim S200000 ![] bcast_S_S200000 (constant S_ .f32 0x00000000#32))) (Cert.Tail.degK (shapeCast S4000000 (outs 11 main_v74 c) shapeCasts_S31250x128_S4000000) (q0 m c))
      (broadcastInDim S200000 ![] bcast_S_S200000 (id (constant S_ .f32 0x3F800000#32)))) := by
    refine (hs2_2_rsqrt (V13 m outs c)).trans ?_
    rw [e36]
  refine (hs2_3_dinv (V14 m outs c)).trans ?_
  rw [e38, e39, show V14 m outs c main_cst_21 = constant S_ .f32 0x00000000#32 from hs2_2_zero (V13 m outs c)]
  rfl

/-- The program's second result is the tail of the call's result array, reshaped. -/
theorem T1_out (c : Dev nD) : V16 m outs c main_v111 = Cert.Tail.kerTail (shapeCast S4000000 (outs 11 main_v74 c) shapeCasts_S31250x128_S4000000) (q0 m c) (q1 m c) := by
  refine (hs2_4_out (V15 m outs c)).trans ?_
  rw [T1_dinv m outs c,
    show V15 m outs c main_v75 = (shapeCast S4000000 (outs 11 main_v74 c) shapeCasts_S31250x128_S4000000) from
      (V15_of m outs c main_v75 (by decide)).trans ((V14_of m outs c main_v75 (by decide)).trans ((V13_of m outs c main_v75 (by decide)).trans (T1_v m outs c))),
    show V15 m outs c main_arg11 = (m ((c.tc : Thread nD τ).loc main_arg11)) from (keep15 m outs c main_arg11 (by decide) (by decide) (by decide) (by decide) (by decide)).trans ((V10_of m outs c main_arg11 (by decide)).trans ((keep9 m outs c main_arg11 (by decide) (by decide) (by decide) (by decide) (by decide)).trans (keep4 m c main_arg11 (by decide) (by decide) (by decide) (by decide))))]
  rfl

/-- If the call's result array is, entry by entry, `f` of the four operand arrays' entries, the program's result is the tail
    of `f` of the three argument vectors' and the gathered maxima's entries: the reshapes to 31250 × 128 and back cancel. -/
theorem kernel_out1_of (f : Elt F .f32 → Elt F .f32 → Elt F .f32 → Elt F .f32 → Elt F .f32) (c : Dev nD)
    (h : outs 11 main_v74 c = fun i : S31250x128.Idx => f (V10 m outs c main_v70 i) (V10 m outs c main_v71 i) (V10 m outs c main_v72 i) (V10 m outs c main_v73 i)) :
    V16 m outs c main_v111 = Cert.Tail.kerTail (fun j => f ((m ((c.tc : Thread nD τ).loc main_arg5)) j) ((m ((c.tc : Thread nD τ).loc main_arg6)) j) ((m ((c.tc : Thread nD τ).loc main_arg7)) j) (att1 m c j)) (q0 m c) (q1 m c) := by
  rw [T1_out m outs c, h, V10_v70 m outs c, V10_v71 m outs c, V10_v72 m outs c, V10_v73 m outs c, shapeCast_round]

end Values

end Cert.KernelIdeal.Fuse

end
-- ==== Proof.KernelValueI.lean ====
/-
  The two results of the program as values: each is the tail (degrees, inverse square roots, scaling) of the fused
  per-edge value conf · imp · (½ · pca + ½ · att) of three argument vectors and the gathered similarity maxima.

  The pallas_call's result array is, entry by entry, the body's value of its four operand arrays (the eight write-backs
  cover the array); the host operations before the call only reshape the operands and those after it are the tail.
-/
import proofs.«156756_j43843026158044_2_alg».proof.Proof.FuseRunI
import proofs.«156756_j43843026158044_2_alg».proof.Proof.FuseValueI
import proofs.«156756_j43843026158044_2_alg».proof.Proof.HostValueI

set_option maxRecDepth 16384

noncomputable section

namespace Cert.KernelIdeal.Fuse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-- What the first call leaves in its result array: entry by entry the body's value of the four operand arrays as the call
    finds them. -/
theorem call0_result (c : Dev nD) :
    outs m 5 main_v25 c = fun i : S31250x128.Idx =>
      fuse0 (V4 m c main_v21 i) (V4 m c main_v22 i) (V4 m c main_v23 i) (V4 m c main_v24 i) := by
  rw [outs_5]
  unfold left0
  exact (Pipeline.withArrays_arr spec0 launch0.win.arr_inj c _ _ 4).trans (final0 (Vin0 m) c)

/-- What the second call leaves in its result array. -/
theorem call1_result (c : Dev nD) :
    outs m 11 main_v74 c = fun i : S31250x128.Idx =>
      fuse1 (V10 m (outs m) c main_v70 i) (V10 m (outs m) c main_v71 i) (V10 m (outs m) c main_v72 i) (V10 m (outs m) c main_v73 i) := by
  rw [outs_11, V10_outs m c]
  unfold left1
  exact (Pipeline.withArrays_arr spec1 launch1.win.arr_inj c _ _ 4).trans (final1 (Vin1 m) c)

/-- THE FIRST RESULT: the tail of the per-edge value conf · imp · (½ · pca + ½ · att) of the three argument vectors and the row
    maxima of the similarity gathered along the first node list, over the first edge list's two rows. -/
theorem kernel_out0 (c : Dev nD) :
    V16 m (outs m) c main_v62
      = Cert.Tail.kerTail (fun i => fuse0 (m ((c.tc : Thread nD τ).loc main_arg2) i) (m ((c.tc : Thread nD τ).loc main_arg3) i)
          (m ((c.tc : Thread nD τ).loc main_arg4) i) (att0 m c i)) (p0 m c) (p1 m c) :=
  kernel_out0_of m (outs m) fuse0 c (call0_result m c)

/-- THE SECOND RESULT: the same with the second call's arguments, the column maxima gathered along the second node list, and
    the second edge list. -/
theorem kernel_out1 (c : Dev nD) :
    V16 m (outs m) c main_v111
      = Cert.Tail.kerTail (fun i => fuse1 (m ((c.tc : Thread nD τ).loc main_arg5) i) (m ((c.tc : Thread nD τ).loc main_arg6) i)
          (m ((c.tc : Thread nD τ).loc main_arg7) i) (att1 m c i)) (q0 m c) (q1 m c) :=
  kernel_out1_of m (outs m) fuse1 c (call1_result m c)

end Cert.KernelIdeal.Fuse

end
-- ==== Proof.RefValue.lean ====
/-
  The reference's two results as the tail function of their inputs.

  The reference's run ends with each result at one long term of the arguments. Here that term is cut at its natural joints:
  the relation weights gathered per edge (`att`), the per-edge value conf · imp · (½ · pca + ½ · att) (`vals`), the two rows of
  the edge list, and then the degree normalisation applied to them (`Cert.Tail.refTail`).
-/
import proofs.«156756_j43843026158044_2_alg».proof.Proof.RefRunPatched
import proofs.«156756_j43843026158044_2_alg».proof.Proof.TailDefs

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

/-- The source side's relation weight of every edge: the row maxima of the cosine similarity of the two weight tables,
    gathered at the edge's relation. -/
def attR0 : FVec F S4000000 .f32 :=
  (Host.gather gather_S1024_S4000000x1_S4000000_n_0_n_n_0_1_1 (Host.reduce FloatOps.maximumf (Host.dotGeneral dot_S1024x128_S128x1024_S1024x1024_1_0_0_1_n_n none (Host.divf (m ((c.tc : Thread nD τ).loc main_arg0)) (broadcastInDim S1024x128 ![0, 1] bcast_S1024x1_S1024x128_0_1 (addf (Host.sqrt (broadcastInDim S1024x1 ![0] bcast_S1024_S1024x1_0 (Host.reduceAdd (mulf (m ((c.tc : Thread nD τ).loc main_arg0)) (m ((c.tc : Thread nD τ).loc main_arg0))) (constant S_ .f32 0x00000000#32) reducesTo_S1024x128_S1024_d1 h_S_))) (broadcastInDim S1024x1 ![] bcast_S_S1024x1 (constant S_ .f32 0x322BCC77#32))))) (transpose S128x1024 [1, 0] (Host.divf (m ((c.tc : Thread nD τ).loc main_arg1)) (broadcastInDim S1024x128 ![0, 1] bcast_S1024x1_S1024x128_0_1 (addf (Host.sqrt (broadcastInDim S1024x1 ![0] bcast_S1024_S1024x1_0 (Host.reduceAdd (mulf (m ((c.tc : Thread nD τ).loc main_arg1)) (m ((c.tc : Thread nD τ).loc main_arg1))) (constant S_ .f32 0x00000000#32) reducesTo_S1024x128_S1024_d1 h_S_))) (broadcastInDim S1024x1 ![] bcast_S_S1024x1 (constant S_ .f32 0x322BCC77#32))))) transposes_S1024x128_S128x1024_1_0)) (constant S_ .f32 0xFF800000#32) reducesTo_S1024x1024_S1024_d1 h_S_) (broadcastInDim S4000000x1 ![0] bcast_S4000000_S4000000x1_0 (select (cmpi .slt (m ((c.tc : Thread nD τ).loc main_arg8)) (broadcastInDim S4000000 ![] bcast_S_S4000000 (constantI S_ 32 0#32))) (addi (m ((c.tc : Thread nD τ).loc main_arg8)) (broadcastInDim S4000000 ![] bcast_S_S4000000 (constantI S_ 32 1024#32))) (m ((c.tc : Thread nD τ).loc main_arg8)))))

/-- The target side's: the column maxima, gathered likewise. -/
def attR1 : FVec F S4000000 .f32 :=
  (Host.gather gather_S1024_S4000000x1_S4000000_n_0_n_n_0_1_1 (Host.reduce FloatOps.maximumf (Host.dotGeneral dot_S1024x128_S128x1024_S1024x1024_1_0_0_1_n_n none (Host.divf (m ((c.tc : Thread nD τ).loc main_arg0)) (broadcastInDim S1024x128 ![0, 1] bcast_S1024x1_S1024x128_0_1 (addf (Host.sqrt (broadcastInDim S1024x1 ![0] bcast_S1024_S1024x1_0 (Host.reduceAdd (mulf (m ((c.tc : Thread nD τ).loc main_arg0)) (m ((c.tc : Thread nD τ).loc main_arg0))) (constant S_ .f32 0x00000000#32) reducesTo_S1024x128_S1024_d1 h_S_))) (broadcastInDim S1024x1 ![] bcast_S_S1024x1 (constant S_ .f32 0x322BCC77#32))))) (transpose S128x1024 [1, 0] (Host.divf (m ((c.tc : Thread nD τ).loc main_arg1)) (broadcastInDim S1024x128 ![0, 1] bcast_S1024x1_S1024x128_0_1 (addf (Host.sqrt (broadcastInDim S1024x1 ![0] bcast_S1024_S1024x1_0 (Host.reduceAdd (mulf (m ((c.tc : Thread nD τ).loc main_arg1)) (m ((c.tc : Thread nD τ).loc main_arg1))) (constant S_ .f32 0x00000000#32) reducesTo_S1024x128_S1024_d1 h_S_))) (broadcastInDim S1024x1 ![] bcast_S_S1024x1 (constant S_ .f32 0x322BCC77#32))))) transposes_S1024x128_S128x1024_1_0)) (constant S_ .f32 0xFF800000#32) reducesTo_S1024x1024_S1024_d0 h_S_) (broadcastInDim S4000000x1 ![0] bcast_S4000000_S4000000x1_0 (select (cmpi .slt (m ((c.tc : Thread nD τ).loc main_arg9)) (broadcastInDim S4000000 ![] bcast_S_S4000000 (constantI S_ 32 0#32))) (addi (m ((c.tc : Thread nD τ).loc main_arg9)) (broadcastInDim S4000000 ![] bcast_S_S4000000 (constantI S_ 32 1024#32))) (m ((c.tc : Thread nD τ).loc main_arg9)))))

/-- The source side's per-edge value. -/
def valsR0 : FVec F S4000000 .f32 :=
  (mulf (mulf (m ((c.tc : Thread nD τ).loc main_arg2)) (m ((c.tc : Thread nD τ).loc main_arg3))) (addf (mulf (broadcastInDim S4000000 ![] bcast_S_S4000000 (constant S_ .f32 0x3F000000#32)) (m ((c.tc : Thread nD τ).loc main_arg4))) (mulf (broadcastInDim S4000000 ![] bcast_S_S4000000 (constant S_ .f32 0x3F000000#32)) (attR0 m c))))

/-- The target side's per-edge value. -/
def valsR1 : FVec F S4000000 .f32 :=
  (mulf (mulf (m ((c.tc : Thread nD τ).loc main_arg5)) (m ((c.tc : Thread nD τ).loc main_arg6))) (addf (mulf (broadcastInDim S4000000 ![] bcast_S_S4000000 (constant S_ .f32 0x3F000000#32)) (m ((c.tc : Thread nD τ).loc main_arg7))) (mulf (broadcastInDim S4000000 ![] bcast_S_S4000000 (constant S_ .f32 0x3F000000#32)) (attR1 m c))))

/-- The rows of the source side's edge list: the edges' start nodes and end nodes. -/
def rowR0 : IVec S4000000 32 :=
  shapeCast _ (extractStridedSlice S1x4000000 ![0, 0] (m ((c.tc : Thread nD τ).loc main_arg10)) slices_S2x4000000_S1x4000000_0_0) shapeCasts_S1x4000000_S4000000
def colR0 : IVec S4000000 32 :=
  shapeCast _ (extractStridedSlice S1x4000000 ![1, 0] (m ((c.tc : Thread nD τ).loc main_arg10)) slices_S2x4000000_S1x4000000_1_0) shapeCasts_S1x4000000_S4000000
/-- The target side's. -/
def rowR1 : IVec S4000000 32 :=
  shapeCast _ (extractStridedSlice S1x4000000 ![0, 0] (m ((c.tc : Thread nD τ).loc main_arg11)) slices_S2x4000000_S1x4000000_0_0) shapeCasts_S1x4000000_S4000000
def colR1 : IVec S4000000 32 :=
  shapeCast _ (extractStridedSlice S1x4000000 ![1, 0] (m ((c.tc : Thread nD τ).loc main_arg11)) slices_S2x4000000_S1x4000000_1_0) shapeCasts_S1x4000000_S4000000

set_option maxRecDepth 100000 in
/-- The first result is the tail of the source side's values and edge list. -/
theorem res0_eq : ValueP.res_main_v62 m c = Cert.Tail.refTail (valsR0 m c) (rowR0 m c) (colR0 m c) := by
  unfold ValueP.res_main_v62 Cert.Tail.refTail Cert.Tail.degR Cert.Tail.dinvR Cert.Tail.withOnes Cert.Tail.withDiag Cert.Tail.wrapR
    valsR0 attR0 rowR0 colR0
  rfl

set_option maxRecDepth 100000 in
/-- The second result is the tail of the target side's. -/
theorem res1_eq : ValueP.res_main_v111 m c = Cert.Tail.refTail (valsR1 m c) (rowR1 m c) (colR1 m c) := by
  unfold ValueP.res_main_v111 Cert.Tail.refTail Cert.Tail.degR Cert.Tail.dinvR Cert.Tail.withOnes Cert.Tail.withDiag Cert.Tail.wrapR
    valsR1 attR1 rowR1 colR1
  rfl

end Cert.ReferenceIdeal.RefValue

end
-- ==== Proof.LibDegreeColumn.lean ====
/-
  Accumulating scatter of a vector and of a column count the same thing.

  Scattering E = 1600000 updates into n = 100000 buckets along a vector, and scattering the same updates arranged as an
  [E, 1] column into an [n, 1] column of buckets, read the same [E, 1] array of scatter indices. Update e of the vector
  and update (e, 0) of the column land on bucket i, respectively (i, 0), under the same condition: the signed scatter
  index at (e, 0) equals i (on the column's unit axis the start and the window coordinate are both 0). Re-indexing the
  sum of landed updates through the bijection e ↦ (e, 0) gives equal accumulated values.
-/
import Idealize.ShloMosaic.PureOps.Ideal
import Idealize.ShloMosaic.PureOps.Dims
import Idealize.ShloMosaic.Lib.ValueIdx
import Mathlib.Algebra.BigOperators.Fin
import Mathlib.Tactic

open scoped BigOperators
open Idealize.ShloMosaic

namespace Cert.DegreeColumn

/-- The vector of n = 100000 buckets. -/
abbrev Sn  : Shape := ⟨1, ![100000]⟩
/-- The column of n = 100000 buckets: one trailing unit axis. -/
abbrev Sn1 : Shape := ⟨2, ![100000, 1]⟩
/-- The vector of E = 1600000 updates. -/
abbrev Se  : Shape := ⟨1, ![1600000]⟩
/-- The column of E = 1600000 updates (and of the scatter indices): one trailing unit axis. -/
abbrev Se1 : Shape := ⟨2, ![1600000, 1]⟩

/-- An update index j lands on the operand index i exactly when, on every operand axis, the window's start plus
    the window coordinate is i's coordinate (in range because i's coordinate is). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      subst hi
      have := h a
      simp only
      omega
    · intro hi
      funext a
      apply Fin.ext
      have := hi a
      simp only
      omega
  · rename_i h
    constructor
    · intro hi; cases hi
    · intro hi
      exact absurd (fun a => by have := hi a; have := (i a).isLt; omega) h

/-- The index (e, 0) of the column of updates over the index e of the vector. -/
def col (e : Se.Idx) : Se1.Idx := ValueIdx.ix2 (e 0 : Fin 1600000) (0 : Fin 1)

/-- The bucket vector keeps no axis once axis 0 is inserted. -/
theorem kept_Sn : Sn.kept [(0 : Fin 1)] = [] := by decide
/-- The update column's scatter axis is axis 0 once axis 1 is a window axis. -/
theorem kept_Se1 : Se1.kept [(1 : Fin 2)] = [0] := by decide

/-- Every entry of a one-element list is that element. -/
theorem getElem_of_eq_singleton {α : Type} (l : List α) (x : α) (hl : l = [x]) (k : Nat) (h : k < l.length) :
    l[k]'h = x := by
  subst hl; simp

/-- On the index vector's axis the scatter-indices index of an update carries the component number. -/
theorem siIdx_val_of_eq {s si u : Shape} (d : ScatterDims s si u) (j : u.Idx)
    (c : Fin d.scatterDimsToOperandDims.length) (b : Fin si.rank) (hb : b.val = d.indexVectorDim) :
    (d.siIdx j c b).val = c.val := by
  unfold ScatterDims.siIdx; rw [dif_pos hb]

/-- Off the index vector's axis the scatter-indices index of an update carries the update's coordinate on the
    scatter axis in that position. -/
theorem siIdx_val_of_ne {s si u : Shape} (d : ScatterDims s si u) (j : u.Idx)
    (c : Fin d.scatterDimsToOperandDims.length) (b : Fin si.rank) (hb : b.val ≠ d.indexVectorDim) :
    ∃ h, (d.siIdx j c b).val = (j (d.uScatter[d.siKept.idxOf b]'h)).val := by
  unfold ScatterDims.siIdx; rw [dif_neg hb]
  exact ⟨_, rfl⟩

section D1
variable (wf : ScatterDims.WF Sn Se1 Se [] [0] [0] 1)

/-- Vector scatter: no window axis, so the window coordinate is 0. -/
theorem d1_window (j : Se.Idx) (a : Fin 1) :
    (⟨[], [0], [0], 1, wf⟩ : ScatterDims Sn Se1 Se).window j a = 0 := by
  unfold ScatterDims.window
  split
  · rename_i ha
    have h2 : a ∈ Sn.kept [(0 : Fin 1)] := ha
    rw [kept_Sn] at h2
    exact absurd h2 (by simp)
  · rfl

/-- Vector scatter: update e reads its start index at (e, 0). -/
theorem d1_siIdx (j : Se.Idx) (c : Fin 1) :
    (⟨[], [0], [0], 1, wf⟩ : ScatterDims Sn Se1 Se).siIdx j c = col j := by
  funext b
  apply Fin.ext
  match b with
  | ⟨0, _⟩ =>
    obtain ⟨h, e⟩ := siIdx_val_of_ne (⟨[], [0], [0], 1, wf⟩ : ScatterDims Sn Se1 Se) j c ⟨0, by decide⟩ Nat.zero_ne_one
    rw [e]
    exact congrArg (fun a => (j a).val) (Subsingleton.elim _ _)
  | ⟨1, _⟩ =>
    rw [siIdx_val_of_eq _ _ _ _ rfl]
    have := c.isLt
    show c.val = 0
    omega

/-- Vector scatter: the window of update e starts at the signed value of the scatter index at (e, 0). -/
theorem d1_start (j : Se.Idx) (idx : IVec Se1 32) (a : Fin 1) :
    (⟨[], [0], [0], 1, wf⟩ : ScatterDims Sn Se1 Se).start j idx a = (idx (col j)).toInt := by
  unfold ScatterDims.start
  split
  · rw [d1_siIdx]
  · rename_i ha
    exact absurd (show a ∈ [(0 : Fin 1)] by simp [Subsingleton.elim a 0]) ha

end D1

section D2
variable (wf : ScatterDims.WF Sn1 Se1 Se1 [1] [0] [0] 1)

/-- Column scatter: the only window axis is the unit axis, so the window coordinate is 0 on both operand axes. -/
theorem d2_window (j : Se1.Idx) (a : Fin 2) :
    (⟨[1], [0], [0], 1, wf⟩ : ScatterDims Sn1 Se1 Se1).window j a = 0 := by
  unfold ScatterDims.window
  split
  · have key : ∀ x : Fin 2, x = 1 → (j x).val = 0 := by
      intro x hx
      subst hx
      have h : (j 1).val < 1 := (j 1).isLt
      omega
    exact key _ (getElem_of_eq_singleton _ _ rfl _ _)
  · rfl

/-- Column scatter: update (e, 0) reads its start index at (e, 0). -/
theorem d2_siIdx (j : Se1.Idx) (c : Fin 1) :
    (⟨[1], [0], [0], 1, wf⟩ : ScatterDims Sn1 Se1 Se1).siIdx j c = j := by
  funext b
  apply Fin.ext
  match b with
  | ⟨0, _⟩ =>
    obtain ⟨h, e⟩ := siIdx_val_of_ne (⟨[1], [0], [0], 1, wf⟩ : ScatterDims Sn1 Se1 Se1) j c ⟨0, by decide⟩
      Nat.zero_ne_one
    rw [e]
    exact congrArg (fun a => (j a).val) (getElem_of_eq_singleton _ 0 kept_Se1 _ _)
  | ⟨1, _⟩ =>
    rw [siIdx_val_of_eq _ _ _ _ rfl]
    have h1 : c.val < 1 := c.isLt
    have h2 : (j ⟨1, by decide⟩).val < 1 := (j _).isLt
    show c.val = (j ⟨1, _⟩).val
    omega

/-- Column scatter, bucket axis: the window of update j starts at the signed value of the scatter index at j. -/
theorem d2_start_zero (j : Se1.Idx) (idx : IVec Se1 32) :
    (⟨[1], [0], [0], 1, wf⟩ : ScatterDims Sn1 Se1 Se1).start j idx 0 = (idx j).toInt := by
  unfold ScatterDims.start
  split
  · rw [d2_siIdx]
  · rename_i ha
    exact absurd (show (0 : Fin 2) ∈ [(0 : Fin 2)] by simp) ha

/-- Column scatter, unit axis: the scatter indices do not address it, the window starts at 0. -/
theorem d2_start_one (j : Se1.Idx) (idx : IVec Se1 32) :
    (⟨[1], [0], [0], 1, wf⟩ : ScatterDims Sn1 Se1 Se1).start j idx 1 = 0 := by
  unfold ScatterDims.start
  split
  · rename_i ha
    exact absurd (show (1 : Fin 2) ∈ [(0 : Fin 2)] from ha) (by decide)
  · rfl

end D2

/-- The vector's indices and the column's indices correspond through e ↦ (e, 0): the unit axis has one coordinate. -/
def colEquiv : Se.Idx ≃ Se1.Idx where
  toFun := col
  invFun f := ValueIdx.ix1 (f 0 : Fin 1600000)
  left_inv e := (ValueIdx.eq_ix1 e).symm
  right_inv f := by
    funext b
    match b with
    | ⟨0, _⟩ => rfl
    | ⟨1, _⟩ =>
      apply Fin.ext
      have h : (f ⟨1, by decide⟩).val < 1 := (f _).isLt
      show 0 = (f ⟨1, _⟩).val
      omega

/-- Update e of the vector scatter lands on bucket i exactly when update (e, 0) of the column scatter lands on
    bucket (i, 0): both say that the signed scatter index at (e, 0) is i. -/
theorem landing_iff (wf1 : ScatterDims.WF Sn Se1 Se [] [0] [0] 1) (wf2 : ScatterDims.WF Sn1 Se1 Se1 [1] [0] [0] 1)
    (idx : IVec Se1 32) (e : Se.Idx) (i : Fin 100000) :
    (⟨[], [0], [0], 1, wf1⟩ : ScatterDims Sn Se1 Se).resultIdx? e idx = some (ValueIdx.ix1 i) ↔
      (⟨[1], [0], [0], 1, wf2⟩ : ScatterDims Sn1 Se1 Se1).resultIdx? (col e) idx
        = some (ValueIdx.ix2 i (0 : Fin 1)) := by
  rw [resultIdx?_eq_some_iff, resultIdx?_eq_some_iff, Fin.forall_fin_one, Fin.forall_fin_two]
  rw [d1_start, d1_window, d2_start_zero, d2_window, d2_start_one, d2_window]
  constructor
  · intro h
    exact ⟨h, rfl⟩
  · exact fun h => h.1

/-- Scattering a vector of E updates into n buckets and scattering the column of the same E updates into the column
    of the same n buckets, both at the same scatter indices, accumulate the same value in bucket i and in bucket
    (i, 0): the updates correspond through e ↦ (e, 0) and land on corresponding buckets. -/
theorem scatterAdd_column
    (d1 : ScatterDims Sn Se1 Se) (d2 : ScatterDims Sn1 Se1 Se1)
    (h1u : d1.updateWindowDims = []) (h1i : d1.insertedWindowDims = [0])
    (h1s : d1.scatterDimsToOperandDims = [0]) (h1v : d1.indexVectorDim = 1)
    (h2u : d2.updateWindowDims = [1]) (h2i : d2.insertedWindowDims = [0])
    (h2s : d2.scatterDimsToOperandDims = [0]) (h2v : d2.indexVectorDim = 1)
    (idx : IVec Se1 32) (x1 : Sn.Idx → EReal) (x2 : Sn1.Idx → EReal) (u1 : Se.Idx → EReal) (u2 : Se1.Idx → EReal)
    (hx : ∀ i : Fin 100000, x2 (ValueIdx.ix2 i (0 : Fin 1)) = x1 (ValueIdx.ix1 i))
    (hu : ∀ e : Fin 1600000, u2 (ValueIdx.ix2 e (0 : Fin 1)) = u1 (ValueIdx.ix1 e))
    (i : Fin 100000) :
    Ideal.hostScatterAdd d1 x1 idx u1 (ValueIdx.ix1 i)
      = Ideal.hostScatterAdd d2 x2 idx u2 (ValueIdx.ix2 i (0 : Fin 1)) := by
  obtain ⟨uw1, iw1, sd1, iv1, wf1⟩ := d1
  obtain ⟨uw2, iw2, sd2, iv2, wf2⟩ := d2
  simp only at h1u h1i h1s h1v h2u h2i h2s h2v
  subst h1u h1i h1s h1v h2u h2i h2s h2v
  unfold Ideal.hostScatterAdd
  rw [hx i]
  refine congrArg (fun t => x1 (ValueIdx.ix1 i) + t) (Finset.sum_equiv colEquiv ?_ ?_)
  · intro e
    simp only [Finset.mem_filter, Finset.mem_univ, true_and]
    exact landing_iff wf1 wf2 idx e i
  · intro e _
    rw [ValueIdx.eq_ix1 e]
    exact (hu (e 0)).symm

/-- The same with zero operands and every update the constant c: counting, with weight c, the scatter indices equal
    to i gives the same total in bucket i of the vector and in bucket (i, 0) of the column. -/
theorem scatterAdd_column_const
    (d1 : ScatterDims Sn Se1 Se) (d2 : ScatterDims Sn1 Se1 Se1)
    (h1u : d1.updateWindowDims = []) (h1i : d1.insertedWindowDims = [0])
    (h1s : d1.scatterDimsToOperandDims = [0]) (h1v : d1.indexVectorDim = 1)
    (h2u : d2.updateWindowDims = [1]) (h2i : d2.insertedWindowDims = [0])
    (h2s : d2.scatterDimsToOperandDims = [0]) (h2v : d2.indexVectorDim = 1)
    (idx : IVec Se1 32) (c : EReal) (i : Fin 100000) :
    Ideal.hostScatterAdd d1 (fun _ => 0) idx (fun _ => c) (ValueIdx.ix1 i)
      = Ideal.hostScatterAdd d2 (fun _ => 0) idx (fun _ => c) (ValueIdx.ix2 i (0 : Fin 1)) :=
  scatterAdd_column d1 d2 h1u h1i h1s h1v h2u h2i h2s h2v idx _ _ _ _ (fun _ => rfl) (fun _ => rfl) i

end Cert.DegreeColumn
-- ==== Proof.TailBridge.lean ====
/-
  The reference's tail and the kernel program's tail are the same function at exact (extended real) arithmetic.

  Both form the degree of every node, its inverse square root, and the scaled edge values followed by the diagonal
  entries. The reference appends N = 200000 ones (and the identity's indices 0, 1, ..., N - 1) to the E = 4000000 edge
  values (and start nodes) before one accumulating scatter; the kernel's program scatters the E edge values and adds one
  afterwards. Splitting the sum over the E + N updates into the first E and the last N, the last N contribute exactly
  one to every node (update E + k lands on node k, and on no other), so the degrees agree by associativity of
  addition. The gathers of the reference read, at position i < E, the same table entry as the
  kernel's (the same wrapped and clamped index), and at position E + k the entry k itself (k is neither negative nor
  past the end, so wrapping and clamping leave it), where the appended value is one: 1 * d k * d k = d k * d k.
-/
import proofs.«156756_j43843026158044_2_alg».proof.Proof.TailDefs
import proofs.«156756_j43843026158044_2_alg».proof.Proof.LibDegreeColumn
import Idealize.ShloMosaic.Lib.Pipeline.Value
import Idealize.ShloMosaic.Lib.ValueIdx
import Idealize.ShloMosaic.Lib.IdealHost
import Idealize.ShloMosaic.PureOps.Ideal.Laws
import Mathlib.Algebra.BigOperators.Fin
import Mathlib.Tactic

open scoped BigOperators
open Idealize.ShloMosaic Idealize.ShloMosaic.ValueIdx

namespace Cert.Tail

/-! ## Sums over the indices of a vector -/

/-- The indices of a vector of m entries are the numbers below m. -/
def idx1Equiv (m : Nat) : (⟨1, ![m]⟩ : Shape).Idx ≃ Fin m where
  toFun j := j 0
  invFun a := ix1 a
  left_inv j := (eq_ix1 j).symm
  right_inv _ := rfl

/-- A sum over the indices of a vector of m entries, as a sum over the numbers below m. -/
theorem sum_idx1 {M : Type} [AddCommMonoid M] {m : Nat} (f : (⟨1, ![m]⟩ : Shape).Idx → M) :
    ∑ j, f j = ∑ a : Fin m, f (ix1 a) :=
  Fintype.sum_equiv (idx1Equiv m) _ _ (fun j => by rw [eq_ix1 j]; rfl)

/-! ## The accumulating scatter of a vector along its one axis -/

section Scatter1
variable {n e : Nat} (wf : ScatterDims.WF ⟨1, ![n]⟩ ⟨2, ![e, 1]⟩ ⟨1, ![e]⟩ [] [0] [0] 1)

/-- No window axis: the window coordinate is 0. -/
theorem s1_window (j : (⟨1, ![e]⟩ : Shape).Idx) (a : Fin 1) :
    (⟨[], [0], [0], 1, wf⟩ : ScatterDims ⟨1, ![n]⟩ ⟨2, ![e, 1]⟩ ⟨1, ![e]⟩).window j a = 0 := by
  unfold ScatterDims.window
  split
  · rename_i ha
    have h2 : a ∈ (⟨1, ![n]⟩ : Shape).kept [(0 : Fin 1)] := ha
    have hk : (⟨1, ![n]⟩ : Shape).kept [(0 : Fin 1)] = [] := rfl
    rw [hk] at h2
    exact absurd h2 (by simp)
  · rfl

/-- Update a reads its start index at (a, 0). -/
theorem s1_siIdx (j : (⟨1, ![e]⟩ : Shape).Idx) (c : Fin 1) :
    (⟨[], [0], [0], 1, wf⟩ : ScatterDims ⟨1, ![n]⟩ ⟨2, ![e, 1]⟩ ⟨1, ![e]⟩).siIdx j c = ix2 (j 0 : Fin e) (0 : Fin 1) := by
  funext b
  apply Fin.ext
  match b with
  | ⟨0, _⟩ =>
    obtain ⟨h, he⟩ := Cert.DegreeColumn.siIdx_val_of_ne
      (⟨[], [0], [0], 1, wf⟩ : ScatterDims ⟨1, ![n]⟩ ⟨2, ![e, 1]⟩ ⟨1, ![e]⟩) j c ⟨0, Nat.zero_lt_two⟩ Nat.zero_ne_one
    rw [he]
    exact congrArg (fun a => (j a).val) (Subsingleton.elim _ _)
  | ⟨1, _⟩ =>
    rw [Cert.DegreeColumn.siIdx_val_of_eq _ _ _ _ rfl]
    have := c.isLt
    show c.val = 0
    omega

/-- The window of update a starts at the signed value of the scatter index at (a, 0). -/
theorem s1_start (j : (⟨1, ![e]⟩ : Shape).Idx) (idx : IVec ⟨2, ![e, 1]⟩ 32) (a : Fin 1) :
    (⟨[], [0], [0], 1, wf⟩ : ScatterDims ⟨1, ![n]⟩ ⟨2, ![e, 1]⟩ ⟨1, ![e]⟩).start j idx a
      = (idx (ix2 (j 0 : Fin e) (0 : Fin 1))).toInt := by
  unfold ScatterDims.start
  split
  · rw [s1_siIdx]
    rfl
  · rename_i ha
    exact absurd (show a ∈ [(0 : Fin 1)] by simp [Subsingleton.elim a 0]) ha

/-- Update a lands on entry i exactly when the signed scatter index at (a, 0) is i. -/
theorem s1_landing (j : (⟨1, ![e]⟩ : Shape).Idx) (idx : IVec ⟨2, ![e, 1]⟩ 32) (i : Fin n) :
    (⟨[], [0], [0], 1, wf⟩ : ScatterDims ⟨1, ![n]⟩ ⟨2, ![e, 1]⟩ ⟨1, ![e]⟩).resultIdx? j idx = some (ix1 i)
      ↔ (idx (ix2 (j 0 : Fin e) (0 : Fin 1))).toInt = (i.val : Int) := by
  rw [Cert.DegreeColumn.resultIdx?_eq_some_iff, Fin.forall_fin_one, s1_start, s1_window]
  simp

end Scatter1

/-- The accumulating scatter of e updates into a vector of n entries at exact arithmetic: entry i is the operand's
    plus the sum of the updates whose signed scatter index is i. -/
theorem scatterAdd1_apply {n e : Nat} (d : ScatterDims ⟨1, ![n]⟩ ⟨2, ![e, 1]⟩ ⟨1, ![e]⟩)
    (hu : d.updateWindowDims = []) (hi : d.insertedWindowDims = [0])
    (hs : d.scatterDimsToOperandDims = [0]) (hv : d.indexVectorDim = 1)
    (x : FVec Ideal ⟨1, ![n]⟩ .f32) (idx : IVec ⟨2, ![e, 1]⟩ 32) (upd : FVec Ideal ⟨1, ![e]⟩ .f32) (i : Fin n) :
    Host.scatterAdd (F := Ideal) d x idx upd (ix1 i)
      = x (ix1 i) + ∑ a : Fin e, if (idx (ix2 a (0 : Fin 1))).toInt = (i.val : Int) then upd (ix1 a) else 0 := by
  obtain ⟨uw, iw, sd, iv, wf⟩ := d
  simp only at hu hi hs hv
  subst hu hi hs hv
  show Ideal.hostScatterAdd _ x idx upd (ix1 i) = _
  unfold Ideal.hostScatterAdd
  rw [Finset.sum_filter, sum_idx1]
  refine congrArg (fun t => x (ix1 i) + t) (Finset.sum_congr rfl fun a _ => ?_)
  exact if_congr (s1_landing wf (ix1 a) idx i) rfl rfl

/-- A sum over the numbers below e + n splits into the first e and the last n. -/
theorem sum_fin_split {M : Type} [AddCommMonoid M] {m : Nat} (e n : Nat) (hm : e + n = m) (f : Fin m → M) :
    ∑ a, f a = (∑ a : Fin e, f ⟨a.val, by omega⟩) + ∑ k : Fin n, f ⟨e + k.val, by omega⟩ := by
  subst hm
  rw [Fin.sum_univ_add]
  rfl

/-! ## The gather of single entries of a vector by a column of indices -/

/-- Gathering single entries of a vector of n entries by a column of e start indices: result entry y is the
    vector's entry at the start index at (y, 0), read signed and clamped into [0, n - 1]. -/
theorem gather1_apply {α : Type} {n e w : Nat} (hn : 0 < n)
    (d : GatherDims ⟨1, ![n]⟩ ⟨2, ![e, 1]⟩ ⟨1, ![e]⟩)
    (ho : d.offsetDims = []) (hc : d.collapsedSliceDims = [0]) (hob : d.operandBatchingDims = [])
    (hsb : d.startIndicesBatchingDims = []) (hsm : d.startIndexMap = [0]) (hv : d.indexVectorDim = 1)
    (hss : d.sliceSizes = ![1])
    (x : (⟨1, ![n]⟩ : Shape).Idx → α) (idx : IVec ⟨2, ![e, 1]⟩ w) (y : (⟨1, ![e]⟩ : Shape).Idx) :
    Host.gather d x idx y
      = x (ix1 ⟨min (idx (ix2 (y 0 : Fin e) (0 : Fin 1))).toInt.toNat (n - 1), by omega⟩) := by
  obtain ⟨od, cd, ob, sb, sm, iv, ss, wf⟩ := d
  simp only at ho hc hob hsb hsm hv hss
  subst ho hc hob hsb hsm hv hss
  unfold Host.gather
  congr 1
  funext a
  obtain rfl : a = 0 := Subsingleton.elim _ _
  refine Fin.ext ?_
  show GatherDims.start _ y idx 0 + GatherDims.batchCoord _ y 0 + GatherDims.offCoord _ y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ [(0 : Fin 1)] from List.mem_singleton.mpr rfl)]
  have hsi : (⟨[], [0], [], [], [0], 1, ![1], wf⟩ : GatherDims ⟨1, ![n]⟩ ⟨2, ![e, 1]⟩ ⟨1, ![e]⟩).siIdx y
      ⟨List.idxOf (0 : Fin 1) [(0 : Fin 1)], List.idxOf_lt_length_iff.2 (List.mem_singleton.mpr rfl)⟩
        = ix2 (y 0 : Fin e) (0 : Fin 1) := by
    funext b; refine Fin.ext ?_
    match b with
    | ⟨0, _⟩ => rfl
    | ⟨1, _⟩ => rfl
  rw [hsi]
  rfl

/-! ## A vector of e entries followed by a vector of n entries -/

/-- The concatenation at a position below e reads the first vector there. -/
theorem concat1_left {α : Type} {e n m : Nat} (h : Shape.Concatenates [⟨1, ![e]⟩, ⟨1, ![n]⟩] ⟨1, ![m]⟩ 0)
    (x₁ : (⟨1, ![e]⟩ : Shape).Idx → α) (x₂ : (⟨1, ![n]⟩ : Shape).Idx → α) (a : Fin e) (ha : a.val < m) :
    concatenate ⟨1, ![m]⟩ 0 [⟨⟨1, ![e]⟩, x₁⟩, ⟨⟨1, ![n]⟩, x₂⟩] h (ix1 ⟨a.val, ha⟩) = x₁ (ix1 a) :=
  concatenate_pair_apply_left 0 x₁ x₂ h _ rfl (ix1 a) (fun b => by
    obtain rfl : b = 0 := Subsingleton.elim _ _
    rfl)

/-- The concatenation at position e + k reads the second vector at k. -/
theorem concat1_right {α : Type} {e n m : Nat} (h : Shape.Concatenates [⟨1, ![e]⟩, ⟨1, ![n]⟩] ⟨1, ![m]⟩ 0)
    (x₁ : (⟨1, ![e]⟩ : Shape).Idx → α) (x₂ : (⟨1, ![n]⟩ : Shape).Idx → α) (k : Fin n) (hk : e + k.val < m) :
    concatenate ⟨1, ![m]⟩ 0 [⟨⟨1, ![e]⟩, x₁⟩, ⟨⟨1, ![n]⟩, x₂⟩] h (ix1 ⟨e + k.val, hk⟩) = x₂ (ix1 k) :=
  concatenate_pair_apply_right 0 x₁ x₂ h _ rfl rfl (ix1 k)
    (fun b hb => absurd (Subsingleton.elim _ _) hb)
    (by show k.val + e = e + k.val; omega)

/-! ## Node indices as 32-bit words -/

/-- A node index as the gather takes it: a negative one counted from the end of the N = 200000 nodes. -/
def wrap1 (b : BitVec 32) : BitVec 32 :=
  Scalar.select (IntOp.cmpi .slt b 0#32) (IntOp.addi b 200000#32) b

/-- The word of a number below 2^31 reads, signed, as that number. -/
theorem toInt_ofNat_small (k : Nat) (hk : k < 2147483648) : (BitVec.ofNat 32 k).toInt = (k : Int) := by
  rw [BitVec.toInt_eq_toNat_cond, BitVec.toNat_ofNat]
  have h1 : k % 2 ^ 32 = k := Nat.mod_eq_of_lt (by norm_num; omega)
  rw [h1]
  split
  · rfl
  · rename_i h; norm_num at h; omega

/-- A node number is not negative as a word, so counting from the end leaves it. -/
theorem wrap1_ofNat (k : Nat) (hk : k < 2147483648) : wrap1 (BitVec.ofNat 32 k) = BitVec.ofNat 32 k := by
  unfold wrap1 IntOp.cmpi
  have h : (BitVec.ofNat 32 k).slt 0#32 = false := by
    rw [BitVec.slt_eq_decide, toInt_ofNat_small k hk]
    simp
  simp only [h]
  exact if_neg (by decide)

/-- A vector broadcast to a column reads, at (a, 0), the vector at a. -/
theorem bcast_col {α : Type} {m : Nat} (h : (⟨1, ![m]⟩ : Shape).BroadcastsInDim ⟨2, ![m, 1]⟩ ![0])
    (p : (⟨1, ![m]⟩ : Shape).Idx → α) (a : Fin m) :
    broadcastInDim ⟨2, ![m, 1]⟩ ![0] h p (ix2 a (0 : Fin 1)) = p (ix1 a) :=
  broadcastInDim_apply _ h p _ (ix1 a) (fun b => by
    obtain rfl : b = 0 := Subsingleton.elim _ _
    show a.val = if m = 1 then 0 else a.val
    split
    · have := a.isLt; omega
    · rfl)

/-! ## The two spellings, piece by piece -/

/-- The reference's wrapped index at a position is the wrap of the index there. -/
theorem wrapR_apply (p : IVec Cert.ReferenceIdeal.S4200000 32) (j : Cert.ReferenceIdeal.S4200000.Idx) :
    wrapR p j = wrap1 (p j) := rfl

/-- The kernel program's wrapped index at a position is the wrap of the index there. -/
theorem wrapK_apply (p : IVec Cert.KernelIdeal.S4000000 32) (j : Cert.KernelIdeal.S4000000.Idx) :
    wrapK p j = wrap1 (p j) := rfl

/-- The extended edge list at a position below E is the edge list there. -/
theorem withDiag_left (p : IVec Cert.ReferenceIdeal.S4000000 32) (a : Fin 4000000) (ha : a.val < 4200000) :
    withDiag p (ix1 ⟨a.val, ha⟩) = p (ix1 a) :=
  concat1_left _ _ _ a ha

/-- The extended edge list at position E + k is the node k. -/
theorem withDiag_right (p : IVec Cert.ReferenceIdeal.S4000000 32) (k : Fin 200000) (hk : 4000000 + k.val < 4200000) :
    withDiag p (ix1 ⟨4000000 + k.val, hk⟩) = BitVec.ofNat 32 k.val :=
  (concat1_right _ _ _ k hk).trans rfl

/-- The extended values at a position below E are the edge values there. -/
theorem withOnes_left (v : FVec Ideal Cert.ReferenceIdeal.S4000000 .f32) (a : Fin 4000000) (ha : a.val < 4200000) :
    withOnes (F := Ideal) v (ix1 ⟨a.val, ha⟩) = v (ix1 a) :=
  concat1_left _ _ _ a ha

/-- The extended values at position E + k are one. -/
theorem withOnes_right (v : FVec Ideal Cert.ReferenceIdeal.S4000000 .f32) (k : Fin 200000)
    (hk : 4000000 + k.val < 4200000) :
    withOnes (F := Ideal) v (ix1 ⟨4000000 + k.val, hk⟩) = 1 :=
  (concat1_right _ _ _ k hk).trans (by
    show Ideal.ofBits .f32 0x3F800000#32 = 1
    exact Ideal.ofBits_one_f32)

/-- The edge values that start at node i, summed. -/
noncomputable def inSum (v : FVec Ideal Cert.KernelIdeal.S4000000 .f32) (p0 : IVec Cert.KernelIdeal.S4000000 32) (i : Fin 200000) : EReal :=
  ∑ a : Fin 4000000, if (p0 (ix1 a)).toInt = (i.val : Int) then v (ix1 a) else 0

/-- The kernel program's zero operand of the scatter is zero at every node. -/
theorem zeroK_apply (j : Cert.KernelIdeal.S200000.Idx) :
    broadcastInDim Cert.KernelIdeal.S200000 ![] Cert.KernelIdeal.Facts₀.bcast_S_S200000
      (constant (F := Ideal) Cert.KernelIdeal.S_ .f32 0x00000000#32) j = 0 :=
  Ideal.ofBits_zero_f32

/-- The kernel program's added constant is one at every node. -/
theorem oneK_apply (j : Cert.KernelIdeal.S200000.Idx) :
    broadcastInDim Cert.KernelIdeal.S200000 ![] Cert.KernelIdeal.Facts₀.bcast_S_S200000
      (constant (F := Ideal) Cert.KernelIdeal.S_ .f32 0x3F800000#32) j = 1 :=
  Ideal.ofBits_one_f32

/-- The kernel program's degree of node i: the edge values that start at i, summed from zero, plus one. -/
theorem degK_apply (v : FVec Ideal Cert.KernelIdeal.S4000000 .f32) (p0 : IVec Cert.KernelIdeal.S4000000 32)
    (i : Fin 200000) :
    degK (F := Ideal) v p0 (ix1 i) = (0 + inSum v p0 i) + 1 := by
  unfold degK inSum
  rw [addf_apply, scatterAdd1_apply Cert.KernelIdeal.scatter_S200000_S4000000x1_S4000000_n_0_0_1 rfl rfl rfl rfl,
    zeroK_apply, oneK_apply]
  have hs : ∀ a : Fin 4000000,
      (broadcastInDim Cert.KernelIdeal.S4000000x1 ![0] Cert.KernelIdeal.Facts₀.bcast_S4000000_S4000000x1_0 p0)
        (ix2 a (0 : Fin 1)) = p0 (ix1 a) := fun a => bcast_col _ p0 a
  simp only [hs]

/-- The reference's zero operand of the scatter is zero at every node. -/
theorem zeroR_apply (j : Cert.ReferenceIdeal.S200000.Idx) :
    broadcastInDim Cert.ReferenceIdeal.S200000 ![] Cert.ReferenceIdeal.Facts₀.bcast_S_S200000
      (constant (F := Ideal) Cert.ReferenceIdeal.S_ .f32 0x00000000#32) j = 0 :=
  Ideal.ofBits_zero_f32

/-- Of the N appended updates exactly one, update i, lands on node i; it contributes one. -/
theorem sum_diag (i : Fin 200000) :
    (∑ k : Fin 200000, if (BitVec.ofNat 32 k.val).toInt = (i.val : Int) then (1 : EReal) else 0) = 1 := by
  have h : ∀ k : Fin 200000, ((BitVec.ofNat 32 k.val).toInt = (i.val : Int)) ↔ k = i := fun k => by
    rw [toInt_ofNat_small _ (by have := k.isLt; omega)]
    constructor
    · intro h; exact Fin.ext (by exact_mod_cast h)
    · intro h; rw [h]
  refine (Finset.sum_congr rfl fun k _ => if_congr (h k) rfl rfl).trans ?_
  exact (Finset.sum_ite_eq' Finset.univ i fun _ => (1 : EReal)).trans (if_pos (Finset.mem_univ i))

/-- The reference's degree of node i: the same sum and the one of the appended update that lands on i. -/
theorem degR_apply (v : FVec Ideal Cert.KernelIdeal.S4000000 .f32) (p0 : IVec Cert.KernelIdeal.S4000000 32)
    (i : Fin 200000) :
    degR (F := Ideal) v p0 (ix1 i) = 0 + (inSum v p0 i + 1) := by
  unfold degR inSum
  rw [scatterAdd1_apply Cert.ReferenceIdeal.scatter_S200000_S4200000x1_S4200000_n_0_0_1 rfl rfl rfl rfl,
    zeroR_apply, sum_fin_split (m := 4200000) 4000000 200000 (by norm_num)]
  have hs : ∀ a : Fin 4200000,
      (broadcastInDim Cert.ReferenceIdeal.S4200000x1 ![0] Cert.ReferenceIdeal.Facts₀.bcast_S4200000_S4200000x1_0
        (withDiag p0)) (ix2 a (0 : Fin 1)) = withDiag p0 (ix1 a) := fun a => bcast_col _ _ a
  simp only [hs, withDiag_left, withOnes_left, withDiag_right, withOnes_right]
  rw [sum_diag]

/-- The degrees agree: addition of extended reals is associative. -/
theorem deg_eq (v : FVec Ideal Cert.KernelIdeal.S4000000 .f32) (p0 : IVec Cert.KernelIdeal.S4000000 32) :
    degR (F := Ideal) v p0 = degK (F := Ideal) v p0 := by
  funext i
  obtain ⟨a, rfl⟩ : ∃ a : Fin 200000, i = ix1 a := ⟨i 0, eq_ix1 i⟩
  rw [degR_apply, degK_apply]
  exact (add_assoc _ _ _).symm

/-- The inverse square roots are the same function of the degrees. -/
theorem dinv_eq (deg : FVec Ideal Cert.KernelIdeal.S200000 .f32) : dinvR (F := Ideal) deg = dinvK (F := Ideal) deg := rfl

/-! ## The gathers -/

/-- The table entry a node index reads: the index read signed and clamped into [0, N - 1]. -/
def clampIdx (b : BitVec 32) : Fin 200000 := ⟨min b.toInt.toNat (200000 - 1), by omega⟩

/-- A node number below N reads its own entry. -/
theorem clampIdx_ofNat (k : Fin 200000) : clampIdx (BitVec.ofNat 32 k.val) = k := by
  apply Fin.ext
  show min (BitVec.ofNat 32 k.val).toInt.toNat (200000 - 1) = k.val
  rw [toInt_ofNat_small _ (by have := k.isLt; omega), Int.toNat_natCast]
  have := k.isLt
  omega

/-- The reference's gather at position a reads the table at the clamped index at a. -/
theorem gatherR_apply (x : FVec Ideal Cert.ReferenceIdeal.S200000 .f32) (p : IVec Cert.ReferenceIdeal.S4200000 32)
    (a : Fin 4200000) :
    Host.gather Cert.ReferenceIdeal.gather_S200000_S4200000x1_S4200000_n_0_n_n_0_1_1 x
        (broadcastInDim Cert.ReferenceIdeal.S4200000x1 ![0] Cert.ReferenceIdeal.Facts₀.bcast_S4200000_S4200000x1_0 p)
        (ix1 a)
      = x (ix1 (clampIdx (p (ix1 a)))) :=
  (gather1_apply (by norm_num) Cert.ReferenceIdeal.gather_S200000_S4200000x1_S4200000_n_0_n_n_0_1_1
      rfl rfl rfl rfl rfl rfl rfl x _ (ix1 a)).trans
    (congrArg (fun b => x (ix1 (clampIdx b))) (bcast_col _ p a))

/-- The kernel program's gather at position a reads the table at the clamped index at a. -/
theorem gatherK_apply (x : FVec Ideal Cert.KernelIdeal.S200000 .f32) (p : IVec Cert.KernelIdeal.S4000000 32)
    (a : Fin 4000000) :
    Host.gather Cert.KernelIdeal.gather_S200000_S4000000x1_S4000000_n_0_n_n_0_1_1 x
        (broadcastInDim Cert.KernelIdeal.S4000000x1 ![0] Cert.KernelIdeal.Facts₀.bcast_S4000000_S4000000x1_0 p)
        (ix1 a)
      = x (ix1 (clampIdx (p (ix1 a)))) :=
  (gather1_apply (by norm_num) Cert.KernelIdeal.gather_S200000_S4000000x1_S4000000_n_0_n_n_0_1_1
      rfl rfl rfl rfl rfl rfl rfl x _ (ix1 a)).trans
    (congrArg (fun b => x (ix1 (clampIdx b))) (bcast_col _ p a))

/-! ## The tails, entry by entry -/

/-- Entry a of the reference's tail. -/
theorem refTail_apply (v : FVec Ideal Cert.KernelIdeal.S4000000 .f32) (p0 p1 : IVec Cert.KernelIdeal.S4000000 32)
    (a : Fin 4200000) :
    refTail (F := Ideal) v p0 p1 (ix1 a)
      = withOnes (F := Ideal) v (ix1 a)
          * dinvR (F := Ideal) (degR (F := Ideal) v p0) (ix1 (clampIdx (wrap1 (withDiag p0 (ix1 a)))))
          * dinvR (F := Ideal) (degR (F := Ideal) v p0) (ix1 (clampIdx (wrap1 (withDiag p1 (ix1 a))))) := by
  unfold refTail
  rw [mulf_apply, mulf_apply, gatherR_apply, gatherR_apply, wrapR_apply, wrapR_apply]

/-- Entry a < E of the kernel program's tail. -/
theorem kerTail_left (v : FVec Ideal Cert.KernelIdeal.S4000000 .f32) (p0 p1 : IVec Cert.KernelIdeal.S4000000 32)
    (a : Fin 4000000) (ha : a.val < 4200000) :
    kerTail (F := Ideal) v p0 p1 (ix1 ⟨a.val, ha⟩)
      = v (ix1 a)
          * dinvK (F := Ideal) (degK (F := Ideal) v p0) (ix1 (clampIdx (wrap1 (p0 (ix1 a)))))
          * dinvK (F := Ideal) (degK (F := Ideal) v p0) (ix1 (clampIdx (wrap1 (p1 (ix1 a))))) := by
  unfold kerTail
  refine (concat1_left _ _ _ a ha).trans ?_
  rw [mulf_apply, mulf_apply, gatherK_apply, gatherK_apply, wrapK_apply, wrapK_apply]

/-- Entry E + k of the kernel program's tail. -/
theorem kerTail_right (v : FVec Ideal Cert.KernelIdeal.S4000000 .f32) (p0 p1 : IVec Cert.KernelIdeal.S4000000 32)
    (k : Fin 200000) (hk : 4000000 + k.val < 4200000) :
    kerTail (F := Ideal) v p0 p1 (ix1 ⟨4000000 + k.val, hk⟩)
      = dinvK (F := Ideal) (degK (F := Ideal) v p0) (ix1 k) * dinvK (F := Ideal) (degK (F := Ideal) v p0) (ix1 k) := by
  unfold kerTail
  exact (concat1_right _ _ _ k hk).trans (mulf_apply _ _ _)

/-- A position below E is a position of the extended vector. -/
theorem lt_left (a : Fin 4000000) : a.val < 4200000 := by have := a.isLt; omega

/-- Position E + k is a position of the extended vector. -/
theorem lt_right (k : Fin 200000) : 4000000 + k.val < 4200000 := by have := k.isLt; omega

/-- The reference's tail is the kernel program's tail. -/
theorem tail_eq (v : FVec Ideal Cert.KernelIdeal.S4000000 .f32) (p0 p1 : IVec Cert.KernelIdeal.S4000000 32) :
    refTail (F := Ideal) v p0 p1 = kerTail (F := Ideal) v p0 p1 := by
  funext i
  obtain ⟨a, rfl⟩ : ∃ a : Fin 4200000, i = ix1 a := ⟨i 0, eq_ix1 i⟩
  by_cases h : a.val < 4000000
  · obtain ⟨a', rfl⟩ : ∃ a' : Fin 4000000, a = ⟨a'.val, lt_left a'⟩ := ⟨⟨a.val, h⟩, rfl⟩
    rw [refTail_apply, kerTail_left, withOnes_left, withDiag_left, withDiag_left, deg_eq, dinv_eq]
  · obtain ⟨k, rfl⟩ : ∃ k : Fin 200000, a = ⟨4000000 + k.val, lt_right k⟩ :=
      ⟨⟨a.val - 4000000, by have := a.isLt; omega⟩, Fin.ext (by show a.val = 4000000 + (a.val - 4000000); omega)⟩
    rw [refTail_apply, kerTail_right, withOnes_right, withDiag_right, withDiag_right, wrap1_ofNat k.val (by have := k.isLt; omega),
      clampIdx_ofNat, deg_eq, dinv_eq, one_mul]

end Cert.Tail
-- ==== Proof.Bridge.lean ====
/-
  The two programs' results are one function of the arguments, at the ideal instance.

  Each program's result on each side is the tail (`Cert.Tail.kerTail` / `Cert.Tail.refTail`) of the same three things: the per-edge
  value conf · imp · (½ · pca + ½ · att) — the kernel's pallas_call computes it block by block over the arrays reshaped to
  31250 × 128, the reference in five vector operations, the same product entry by entry —, and the two rows of the edge list.
  The tails agree by `Cert.Tail.tail_eq`.
-/
import proofs.«156756_j43843026158044_2_alg».proof.Proof.KernelValueI
import proofs.«156756_j43843026158044_2_alg».proof.Proof.RefValue
import proofs.«156756_j43843026158044_2_alg».proof.Proof.TailBridge

noncomputable section

namespace Cert.Bridge

open Idealize.ShloMosaic Idealize.ShloMosaic.TcCoe Idealize.SL.Sem

variable {F : FTy → Type} [FloatOps F]

variable (m : (ℓ : Loc Cert.KernelIdeal.nD Cert.KernelIdeal.τ Cert.KernelIdeal.sig) → Buf (Elt F) ℓ)
  (m' : (ℓ : Loc Cert.ReferenceIdeal.nD Cert.ReferenceIdeal.τ Cert.ReferenceIdeal.sig) → Buf (Elt F) ℓ) (c : Dev Cert.KernelIdeal.nD)

/-- The two launch memories hold the same twelve argument arrays on core `c`. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

variable {m m' c}

/-- The reference's per-edge value on the source side is the kernel's, entry by entry. -/
theorem vals0_eq (hag : Agree m m' c) :
    Cert.ReferenceIdeal.RefValue.valsR0 m' c = fun j => Cert.KernelIdeal.Fuse.fuse0 (m ((c.tc : Thread Cert.KernelIdeal.nD Cert.KernelIdeal.τ).loc Cert.KernelIdeal.main_arg2) j) (m ((c.tc : Thread Cert.KernelIdeal.nD Cert.KernelIdeal.τ).loc Cert.KernelIdeal.main_arg3) j) (m ((c.tc : Thread Cert.KernelIdeal.nD Cert.KernelIdeal.τ).loc Cert.KernelIdeal.main_arg4) j) (Cert.KernelIdeal.Fuse.att0 m c j) := by
  unfold Cert.ReferenceIdeal.RefValue.valsR0 Cert.ReferenceIdeal.RefValue.attR0 Cert.KernelIdeal.Fuse.att0
  rw [hag.1, hag.2.1, hag.2.2.1, hag.2.2.2.1, hag.2.2.2.2.1, hag.2.2.2.2.2.2.2.2.1]
  funext j
  rfl

/-- And on the target side. -/
theorem vals1_eq (hag : Agree m m' c) :
    Cert.ReferenceIdeal.RefValue.valsR1 m' c = fun j => Cert.KernelIdeal.Fuse.fuse1 (m ((c.tc : Thread Cert.KernelIdeal.nD Cert.KernelIdeal.τ).loc Cert.KernelIdeal.main_arg5) j) (m ((c.tc : Thread Cert.KernelIdeal.nD Cert.KernelIdeal.τ).loc Cert.KernelIdeal.main_arg6) j) (m ((c.tc : Thread Cert.KernelIdeal.nD Cert.KernelIdeal.τ).loc Cert.KernelIdeal.main_arg7) j) (Cert.KernelIdeal.Fuse.att1 m c j) := by
  unfold Cert.ReferenceIdeal.RefValue.valsR1 Cert.ReferenceIdeal.RefValue.attR1 Cert.KernelIdeal.Fuse.att1
  rw [hag.1, hag.2.1, hag.2.2.2.2.2.1, hag.2.2.2.2.2.2.1, hag.2.2.2.2.2.2.2.1, hag.2.2.2.2.2.2.2.2.2.1]
  funext j
  rfl

theorem row0_eq (hag : Agree m m' c) : Cert.ReferenceIdeal.RefValue.rowR0 m' c = Cert.KernelIdeal.Fuse.p0 m c := by
  unfold Cert.ReferenceIdeal.RefValue.rowR0 Cert.KernelIdeal.Fuse.p0; rw [hag.2.2.2.2.2.2.2.2.2.2.1]
theorem col0_eq (hag : Agree m m' c) : Cert.ReferenceIdeal.RefValue.colR0 m' c = Cert.KernelIdeal.Fuse.p1 m c := by
  unfold Cert.ReferenceIdeal.RefValue.colR0 Cert.KernelIdeal.Fuse.p1; rw [hag.2.2.2.2.2.2.2.2.2.2.1]
theorem row1_eq (hag : Agree m m' c) : Cert.ReferenceIdeal.RefValue.rowR1 m' c = Cert.KernelIdeal.Fuse.q0 m c := by
  unfold Cert.ReferenceIdeal.RefValue.rowR1 Cert.KernelIdeal.Fuse.q0; rw [hag.2.2.2.2.2.2.2.2.2.2.2]
theorem col1_eq (hag : Agree m m' c) : Cert.ReferenceIdeal.RefValue.colR1 m' c = Cert.KernelIdeal.Fuse.q1 m c := by
  unfold Cert.ReferenceIdeal.RefValue.colR1 Cert.KernelIdeal.Fuse.q1; rw [hag.2.2.2.2.2.2.2.2.2.2.2]

end Cert.Bridge

namespace Cert.Bridge

open Idealize.ShloMosaic Idealize.ShloMosaic.TcCoe Idealize.SL.Sem

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}

/-- The reference's first result is the kernel program's. -/
theorem res0 (hag : Agree m m' c) :
    Cert.ReferenceIdeal.ValueP.res_main_v62 m' c
      = Cert.Tail.kerTail (F := Ideal) (fun j => Cert.KernelIdeal.Fuse.fuse0 (m ((c.tc : Thread Cert.KernelIdeal.nD Cert.KernelIdeal.τ).loc Cert.KernelIdeal.main_arg2) j) (m ((c.tc : Thread Cert.KernelIdeal.nD Cert.KernelIdeal.τ).loc Cert.KernelIdeal.main_arg3) j) (m ((c.tc : Thread Cert.KernelIdeal.nD Cert.KernelIdeal.τ).loc Cert.KernelIdeal.main_arg4) j) (Cert.KernelIdeal.Fuse.att0 m c j))
          (Cert.KernelIdeal.Fuse.p0 m c) (Cert.KernelIdeal.Fuse.p1 m c) := by
  rw [Cert.ReferenceIdeal.RefValue.res0_eq, vals0_eq hag, row0_eq hag, col0_eq hag]
  exact Cert.Tail.tail_eq _ _ _

/-- The reference's second result is the kernel program's. -/
theorem res1 (hag : Agree m m' c) :
    Cert.ReferenceIdeal.ValueP.res_main_v111 m' c
      = Cert.Tail.kerTail (F := Ideal) (fun j => Cert.KernelIdeal.Fuse.fuse1 (m ((c.tc : Thread Cert.KernelIdeal.nD Cert.KernelIdeal.τ).loc Cert.KernelIdeal.main_arg5) j) (m ((c.tc : Thread Cert.KernelIdeal.nD Cert.KernelIdeal.τ).loc Cert.KernelIdeal.main_arg6) j) (m ((c.tc : Thread Cert.KernelIdeal.nD Cert.KernelIdeal.τ).loc Cert.KernelIdeal.main_arg7) j) (Cert.KernelIdeal.Fuse.att1 m c j))
          (Cert.KernelIdeal.Fuse.q0 m c) (Cert.KernelIdeal.Fuse.q1 m c) := by
  rw [Cert.ReferenceIdeal.RefValue.res1_eq, vals1_eq hag, row1_eq hag, col1_eq hag]
  exact Cert.Tail.tail_eq _ _ _

end Cert.Bridge

end
-- ==== Proof.lean ====
/-
  The certificate of a graph layer's normalised adjacency values, computed for a source and a target graph.

  For each graph the programs form, per edge, the value v = conf · imp · (½ · pca + ½ · att) — att the relation weight of the edge,
  a row or column maximum of the cosine similarity of the two relation tables —, the degree of every node (the sum of the
  values of the edges that start at it, plus one for the unit diagonal), its inverse square root dinv, and return
  v · dinv[start] · dinv[end] for the 4,000,000 edges followed by dinv · dinv for the 200,000 diagonal entries. The kernel
  computes v in a pallas_call over the arrays reshaped to 31250 × 128 (blocks of 4096 rows, the last overhanging the array),
  adds the diagonal's one after the scatter and squares dinv; the reference appends ones and the identity's indices to the
  edge list before it scatters and gathers. At the ideal instance both are one function of the arguments: the pallas_call's
  result array is v entry by entry, and a sum over the edges followed by the diagonal is the sum over the edges plus one.
  The frames: no operation and no pallas_call writes an argument array. No rewrite was applied to the kernel: `preserves` is `True`.
-/
import proofs.«156756_j43843026158044_2_alg».proof.Defs
import proofs.«156756_j43843026158044_2_alg».proof.Proof.Gen.Kernel
import proofs.«156756_j43843026158044_2_alg».proof.Proof.Gen.KernelIdeal
import proofs.«156756_j43843026158044_2_alg».proof.Proof.Gen.ReferenceIdeal
import proofs.«156756_j43843026158044_2_alg».proof.Proof.Gen.Pre_finite_inputs
import proofs.«156756_j43843026158044_2_alg».proof.Proof.FuseRunB
import proofs.«156756_j43843026158044_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its argument arrays as launched. -/
theorem frame_k : Cert.frame_Kernel := fun m ρ _ => Cert.Kernel.Fuse.frame m ρ

/-- So does its idealization. -/
theorem frame_ki : Cert.frame_KernelIdeal := fun m ρ _ => Cert.KernelIdeal.Fuse.frame m ρ

/-- The reference is a line of host operations: its run, with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote nothing. -/
theorem preserves : Cert.preserves_Kernel_KernelIdeal := trivial

/-- At the ideal instance the two programs, run from memories agreeing on the arguments, end with equal results: the kernel
    program's run ends with each result at the tail of the per-edge values and the edge list; the reference's results are the
    same terms. -/
theorem algebraic : Cert.algebraic_KernelIdeal_ReferenceIdeal := by
  intro m ρ m' ρ' _ hagree
  refine ⟨fun c => Cert.Tail.kerTail (F := Ideal) (fun j => Cert.KernelIdeal.Fuse.fuse0 (m ((c.tc : Thread Cert.KernelIdeal.nD Cert.KernelIdeal.τ).loc Cert.KernelIdeal.main_arg2) j) (m ((c.tc : Thread Cert.KernelIdeal.nD Cert.KernelIdeal.τ).loc Cert.KernelIdeal.main_arg3) j) (m ((c.tc : Thread Cert.KernelIdeal.nD Cert.KernelIdeal.τ).loc Cert.KernelIdeal.main_arg4) j) (Cert.KernelIdeal.Fuse.att0 m c j)) (Cert.KernelIdeal.Fuse.p0 m c) (Cert.KernelIdeal.Fuse.p1 m c),
    fun c => Cert.Tail.kerTail (F := Ideal) (fun j => Cert.KernelIdeal.Fuse.fuse1 (m ((c.tc : Thread Cert.KernelIdeal.nD Cert.KernelIdeal.τ).loc Cert.KernelIdeal.main_arg5) j) (m ((c.tc : Thread Cert.KernelIdeal.nD Cert.KernelIdeal.τ).loc Cert.KernelIdeal.main_arg6) j) (m ((c.tc : Thread Cert.KernelIdeal.nD Cert.KernelIdeal.τ).loc Cert.KernelIdeal.main_arg7) j) (Cert.KernelIdeal.Fuse.att1 m c j)) (Cert.KernelIdeal.Fuse.q0 m c) (Cert.KernelIdeal.Fuse.q1 m c), ?_, ?_⟩
  · exact (θ_run Cert.KernelIdeal.defs _ _).mono (fun r h c =>
      ⟨(h c _ (Cert.KernelIdeal.Fuse.mem_uc Cert.KernelIdeal.main_v62 (by decide))).trans (Cert.KernelIdeal.Fuse.kernel_out0 m c),
        (h c _ (Cert.KernelIdeal.Fuse.mem_uc Cert.KernelIdeal.main_v111 (by decide))).trans (Cert.KernelIdeal.Fuse.kernel_out1 m c),
        (h c _ (Cert.KernelIdeal.Fuse.mem_uc Cert.KernelIdeal.main_arg0 (by decide))).trans (Cert.KernelIdeal.Gen.V16_main_arg0 m (Cert.KernelIdeal.Fuse.outs m) c),
        (h c _ (Cert.KernelIdeal.Fuse.mem_uc Cert.KernelIdeal.main_arg1 (by decide))).trans (Cert.KernelIdeal.Gen.V16_main_arg1 m (Cert.KernelIdeal.Fuse.outs m) c),
        (h c _ (Cert.KernelIdeal.Fuse.mem_uc Cert.KernelIdeal.main_arg2 (by decide))).trans (Cert.KernelIdeal.Gen.V16_main_arg2 m (Cert.KernelIdeal.Fuse.outs m) c),
        (h c _ (Cert.KernelIdeal.Fuse.mem_uc Cert.KernelIdeal.main_arg3 (by decide))).trans (Cert.KernelIdeal.Gen.V16_main_arg3 m (Cert.KernelIdeal.Fuse.outs m) c),
        (h c _ (Cert.KernelIdeal.Fuse.mem_uc Cert.KernelIdeal.main_arg4 (by decide))).trans (Cert.KernelIdeal.Gen.V16_main_arg4 m (Cert.KernelIdeal.Fuse.outs m) c),
        (h c _ (Cert.KernelIdeal.Fuse.mem_uc Cert.KernelIdeal.main_arg5 (by decide))).trans (Cert.KernelIdeal.Gen.V16_main_arg5 m (Cert.KernelIdeal.Fuse.outs m) c),
        (h c _ (Cert.KernelIdeal.Fuse.mem_uc Cert.KernelIdeal.main_arg6 (by decide))).trans (Cert.KernelIdeal.Gen.V16_main_arg6 m (Cert.KernelIdeal.Fuse.outs m) c),
        (h c _ (Cert.KernelIdeal.Fuse.mem_uc Cert.KernelIdeal.main_arg7 (by decide))).trans (Cert.KernelIdeal.Gen.V16_main_arg7 m (Cert.KernelIdeal.Fuse.outs m) c),
        (h c _ (Cert.KernelIdeal.Fuse.mem_uc Cert.KernelIdeal.main_arg8 (by decide))).trans (Cert.KernelIdeal.Gen.V16_main_arg8 m (Cert.KernelIdeal.Fuse.outs m) c),
        (h c _ (Cert.KernelIdeal.Fuse.mem_uc Cert.KernelIdeal.main_arg9 (by decide))).trans (Cert.KernelIdeal.Gen.V16_main_arg9 m (Cert.KernelIdeal.Fuse.outs m) c),
        (h c _ (Cert.KernelIdeal.Fuse.mem_uc Cert.KernelIdeal.main_arg10 (by decide))).trans (Cert.KernelIdeal.Gen.V16_main_arg10 m (Cert.KernelIdeal.Fuse.outs m) c),
        (h c _ (Cert.KernelIdeal.Fuse.mem_uc Cert.KernelIdeal.main_arg11 (by decide))).trans (Cert.KernelIdeal.Gen.V16_main_arg11 m (Cert.KernelIdeal.Fuse.outs m) c)⟩) (Cert.KernelIdeal.Fuse.run_all (F := Ideal) m ρ)
  · exact (θ_run Cert.ReferenceIdeal.defs _ _).mono (fun r h c =>
      ⟨(h c).1.trans (Cert.Bridge.res0 (hagree c)), (h c).2.1.trans (Cert.Bridge.res1 (hagree c)), (h c).2.2⟩)
      (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
